-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2000 : Shape := ⟨2, ![50000, 2000]⟩
abbrev S2x800000 : Shape := ⟨2, ![2, 800000]⟩
abbrev S2000x96 : Shape := ⟨2, ![2000, 96]⟩
abbrev S96 : Shape := ⟨1, ![96]⟩
abbrev S3x96x96 : Shape := ⟨3, ![3, 96, 96]⟩
abbrev S288x96 : Shape := ⟨2, ![288, 96]⟩
abbrev S288 : Shape := ⟨1, ![288]⟩
abbrev S96x16 : Shape := ⟨2, ![96, 16]⟩
abbrev S16 : Shape := ⟨1, ![16]⟩
abbrev S_ : Shape := ⟨0, ![]⟩

class Facts : Prop where
  bcast_S_S50000x2000 : S_.BroadcastsInDim S50000x2000 (![] : Fin 0 → Fin S50000x2000.rank)
  reducesTo_S50000x2000_S_d0_1 : S50000x2000.ReducesTo [0, 1] S_
  h_S_ : 0 < S_.numel
  bcast_S_S2000x96 : S_.BroadcastsInDim S2000x96 (![] : Fin 0 → Fin S2000x96.rank)
  reducesTo_S2000x96_S_d0_1 : S2000x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S288x96 : S_.BroadcastsInDim S288x96 (![] : Fin 0 → Fin S288x96.rank)
  reducesTo_S288x96_S_d0_1 : S288x96.ReducesTo [0, 1] S_
  bcast_S_S288 : S_.BroadcastsInDim S288 (![] : Fin 0 → Fin S288.rank)
  reducesTo_S288_S_d0 : S288.ReducesTo [0] S_
  bcast_S_S96x16 : S_.BroadcastsInDim S96x16 (![] : Fin 0 → Fin S96x16.rank)
  reducesTo_S96x16_S_d0_1 : S96x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S288 .f32) (main_arg9 : FVec F S96x16 .f32) (main_arg10 : FVec F S16 .f32) (main_v33 : IVec S_ 1) : IVec S_ 1 :=
  let main_v34 : FVec F S288 .f32 := Host.absf main_arg8
  let main_cst_12 : FVec F S_ .f32 := constant S_ .f32 0x7F800000#32
  let main_v35 : FVec F S288 .f32 := broadcastInDim S288 ![] bcast_S_S288 main_cst_12
  let main_v36 : IVec S288 1 := cmpf .olt main_v34 main_v35
  let main_c_13 : IVec S_ 1 := constantI S_ 1 1#1
  let main_v37 : IVec S_ 1 := (fun x v => Host.reduce IntOp.andi x v reducesTo_S288_S_d0 h_S_) main_v36 main_c_13
  let main_v38 : IVec S_ 1 := andi main_v33 main_v37
  let main_v39 : FVec F S96x16 .f32 := Host.absf main_arg9
  let main_cst_14 : FVec F S_ .f32 := constant S_ .f32 0x7F800000#32
  let main_v40 : FVec F S96x16 .f32 := broadcastInDim S96x16 ![] bcast_S_S96x16 main_cst_14
  let main_v41 : IVec S96x16 1 := cmpf .olt main_v39 main_v40
  let main_c_15 : IVec S_ 1 := constantI S_ 1 1#1
  let main_v42 : IVec S_ 1 := (fun x v => Host.reduce IntOp.andi x v reducesTo_S96x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S288x96 .f32) (main_arg6 : FVec F S288x96 .f32) (main_arg7 : FVec F S288 .f32) (main_arg8 : FVec F S288 .f32) (main_arg9 : FVec F S96x16 .f32) (main_arg10 : FVec F S16 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S288x96 .f32 := Host.absf main_arg5
  let main_cst_6 : FVec F S_ .f32 := constant S_ .f32 0x7F800000#32
  let main_v20 : FVec F S288x96 .f32 := broadcastInDim S288x96 ![] bcast_S_S288x96 main_cst_6
  let main_v21 : IVec S288x96 1 := cmpf .olt main_v19 main_v20
  let main_c_7 : IVec S_ 1 := constantI S_ 1 1#1
  let main_v22 : IVec S_ 1 := (fun x v => Host.reduce IntOp.andi x v reducesTo_S288x96_S_d0_1 h_S_) main_v21 main_c_7
  let main_v23 : IVec S_ 1 := andi main_v18 main_v22
  let main_v24 : FVec F S288x96 .f32 := Host.absf main_arg6
  let main_cst_8 : FVec F S_ .f32 := constant S_ .f32 0x7F800000#32
  let main_v25 : FVec F S288x96 .f32 := broadcastInDim S288x96 ![] bcast_S_S288x96 main_cst_8
  let main_v26 : IVec S288x96 1 := cmpf .olt main_v24 main_v25
  let main_c_9 : IVec S_ 1 := constantI S_ 1 1#1
  let main_v27 : IVec S_ 1 := (fun x v => Host.reduce IntOp.andi x v reducesTo_S288x96_S_d0_1 h_S_) main_v26 main_c_9
  let main_v28 : IVec S_ 1 := andi main_v23 main_v27
  let main_v29 : FVec F S288 .f32 := Host.absf main_arg7
  let main_cst_10 : FVec F S_ .f32 := constant S_ .f32 0x7F800000#32
  let main_v30 : FVec F S288 .f32 := broadcastInDim S288 ![] bcast_S_S288 main_cst_10
  let main_v31 : IVec S288 1 := cmpf .olt main_v29 main_v30
  let main_c_11 : IVec S_ 1 := constantI S_ 1 1#1
  let main_v32 : IVec S_ 1 := (fun x v => Host.reduce IntOp.andi x v reducesTo_S288_S_d0 h_S_) main_v31 main_c_11
  let main_v33 : IVec S_ 1 := andi main_v28 main_v32
  fn_part2 (F := F) main_arg8 main_arg9 main_arg10 main_v33

def fn {F : FTy → Type} [FloatOps F] (main_arg0 : FVec F S50000x2000 .f32) (main_arg1 : IVec S2x800000 32) (main_arg2 : FVec F S2000x96 .f32) (main_arg3 : FVec F S96 .f32) (main_arg4 : FVec F S3x96x96 .f32) (main_arg5 : FVec F S288x96 .f32) (main_arg6 : FVec F S288x96 .f32) (main_arg7 : FVec F S288 .f32) (main_arg8 : FVec F S288 .f32) (main_arg9 : FVec F S96x16 .f32) (main_arg10 : FVec F S16 .f32) : IVec S_ 1 :=
  let main_v0 : FVec F S50000x2000 .f32 := Host.absf main_arg0
  let main_cst : FVec F S_ .f32 := constant S_ .f32 0x7F800000#32
  let main_v1 : FVec F S50000x2000 .f32 := broadcastInDim S50000x2000 ![] bcast_S_S50000x2000 main_cst
  let main_v2 : IVec S50000x2000 1 := cmpf .olt main_v0 main_v1
  let main_c : IVec S_ 1 := constantI S_ 1 1#1
  let main_v3 : IVec S_ 1 := (fun x v => Host.reduce IntOp.andi x v reducesTo_S50000x2000_S_d0_1 h_S_) main_v2 main_c
  let main_v4 : FVec F S2000x96 .f32 := Host.absf main_arg2
  let main_cst_0 : FVec F S_ .f32 := constant S_ .f32 0x7F800000#32
  let main_v5 : FVec F S2000x96 .f32 := broadcastInDim S2000x96 ![] bcast_S_S2000x96 main_cst_0
  let main_v6 : IVec S2000x96 1 := cmpf .olt main_v4 main_v5
  let main_c_1 : IVec S_ 1 := constantI S_ 1 1#1
  let main_v7 : IVec S_ 1 := (fun x v => Host.reduce IntOp.andi x v reducesTo_S2000x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_arg8 main_arg9 main_arg10 main_v13 main_v16
-- ==== Kernel.lean ====
abbrev S50000x2000 : Shape := ⟨2, ![50000, 2000]⟩
abbrev S2x800000 : Shape := ⟨2, ![2, 800000]⟩
abbrev S2000x96 : Shape := ⟨2, ![2000, 96]⟩
abbrev S96 : Shape := ⟨1, ![96]⟩
abbrev S3x96x96 : Shape := ⟨3, ![3, 96, 96]⟩
abbrev S288x96 : Shape := ⟨2, ![288, 96]⟩
abbrev S288 : Shape := ⟨1, ![288]⟩
abbrev S96x16 : Shape := ⟨2, ![96, 16]⟩
abbrev S16 : Shape := ⟨1, ![16]⟩
abbrev S50000x96 : Shape := ⟨2, ![50000, 96]⟩
abbrev S1000x2000 : Shape := ⟨2, ![1000, 2000]⟩
abbrev S1000x96 : Shape := ⟨2, ![1000, 96]⟩
abbrev S1x96 : Shape := ⟨2, ![1, 96]⟩
abbrev S1x800000 : Shape := ⟨2, ![1, 800000]⟩
abbrev S800000 : Shape := ⟨1, ![800000]⟩
abbrev S96x288 : Shape := ⟨2, ![96, 288]⟩
abbrev S1x96x96 : Shape := ⟨3, ![1, 96, 96]⟩
abbrev S96x96 : Shape := ⟨2, ![96, 96]⟩
abbrev S_ : Shape := ⟨0, ![]⟩
abbrev S800000x1 : Shape := ⟨2, ![800000, 1]⟩
abbrev S800000x96 : Shape := ⟨2, ![800000, 96]⟩
abbrev S1000x288 : Shape := ⟨2, ![1000, 288]⟩
abbrev S1x288 : Shape := ⟨2, ![1, 288]⟩
abbrev S50000x16 : Shape := ⟨2, ![50000, 16]⟩
abbrev S1000x16 : Shape := ⟨2, ![1000, 16]⟩
abbrev S1x16 : Shape := ⟨2, ![1, 16]⟩

abbrev nBuf : Space → Nat
  | .hbm => 70
  | .vmem => 57
  | .smem => 0
  | _ => 0

abbrev bufTy : (tb : Table) → Fin (tcTables nBuf tb) → BufTy
  | .hbm, ⟨0, _⟩ => ⟨S50000x2000, .f32⟩
  | .hbm, ⟨1, _⟩ => ⟨S2x800000, .i32⟩
  | .hbm, ⟨2, _⟩ => ⟨S2000x96, .f32⟩
  | .hbm, ⟨3, _⟩ => ⟨S96, .f32⟩
  | .hbm, ⟨4, _⟩ => ⟨S3x96x96, .f32⟩
  | .hbm, ⟨5, _⟩ => ⟨S288x96, .f32⟩
  | .hbm, ⟨6, _⟩ => ⟨S288x96, .f32⟩
  | .hbm, ⟨7, _⟩ => ⟨S288, .f32⟩
  | .hbm, ⟨8, _⟩ => ⟨S288, .f32⟩
  | .hbm, ⟨9, _⟩ => ⟨S96x16, .f32⟩
  | .hbm, ⟨10, _⟩ => ⟨S16, .f32⟩
  | .hbm, ⟨11, _⟩ => ⟨S50000x96, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S96x288, .f32⟩
  | .hbm, ⟨17, _⟩ => ⟨S96x288, .f32⟩
  | .hbm, ⟨18, _⟩ => ⟨S1x96x96, .f32⟩
  | .hbm, ⟨19, _⟩ => ⟨S96x96, .f32⟩
  | .hbm, ⟨20, _⟩ => ⟨S50000x96, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x96, .f32⟩
  | .hbm, ⟨30, _⟩ => ⟨S_, .f32⟩
  | .hbm, ⟨31, _⟩ => ⟨S50000x96, .f32⟩
  | .hbm, ⟨32, _⟩ => ⟨S800000x1, .i32⟩
  | .hbm, ⟨33, _⟩ => ⟨S50000x96, .f32⟩
  | .hbm, ⟨34, _⟩ => ⟨S50000x96, .f32⟩
  | .hbm, ⟨35, _⟩ => ⟨S1x96x96, .f32⟩
  | .hbm, ⟨36, _⟩ => ⟨S96x96, .f32⟩
  | .hbm, ⟨37, _⟩ => ⟨S50000x96, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x96, .f32⟩
  | .hbm, ⟨47, _⟩ => ⟨S_, .f32⟩
  | .hbm, ⟨48, _⟩ => ⟨S50000x96, .f32⟩
  | .hbm, ⟨49, _⟩ => ⟨S800000x1, .i32⟩
  | .hbm, ⟨50, _⟩ => ⟨S50000x96, .f32⟩
  | .hbm, ⟨51, _⟩ => ⟨S50000x96, .f32⟩
  | .hbm, ⟨52, _⟩ => ⟨S1x96x96, .f32⟩
  | .hbm, ⟨53, _⟩ => ⟨S96x96, .f32⟩
  | .hbm, ⟨54, _⟩ => ⟨S50000x96, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x96, .f32⟩
  | .hbm, ⟨64, _⟩ => ⟨S_, .f32⟩
  | .hbm, ⟨65, _⟩ => ⟨S50000x96, .f32⟩
  | .hbm, ⟨66, _⟩ => ⟨S800000x1, .i32⟩
  | .hbm, ⟨67, _⟩ => ⟨S50000x96, .f32⟩
  | .hbm, ⟨68, _⟩ => ⟨S50000x96, .f32⟩
  | .hbm, ⟨69, _⟩ => ⟨S50000x16, .f32⟩
  | .local _ .vmem, ⟨0, _⟩ => ⟨S1000x2000, .f32⟩
  | .local _ .vmem, ⟨1, _⟩ => ⟨S1000x2000, .f32⟩
  | .local _ .vmem, ⟨2, _⟩ => ⟨S2000x96, .f32⟩
  | .local _ .vmem, ⟨3, _⟩ => ⟨S96, .f32⟩
  | .local _ .vmem, ⟨4, _⟩ => ⟨S1000x96, .f32⟩
  | .local _ .vmem, ⟨5, _⟩ => ⟨S1000x96, .f32⟩
  | .local _ .vmem, ⟨6, _⟩ => ⟨S1000x96, .f32⟩
  | .local _ .vmem, ⟨7, _⟩ => ⟨S1000x96, .f32⟩
  | .local _ .vmem, ⟨8, _⟩ => ⟨S96x96, .f32⟩
  | .local _ .vmem, ⟨9, _⟩ => ⟨S1000x96, .f32⟩
  | .local _ .vmem, ⟨10, _⟩ => ⟨S1000x96, .f32⟩
  | .local _ .vmem, ⟨11, _⟩ => ⟨S1000x96, .f32⟩
  | .local _ .vmem, ⟨12, _⟩ => ⟨S1000x96, .f32⟩
  | .local _ .vmem, ⟨13, _⟩ => ⟨S1000x96, .f32⟩
  | .local _ .vmem, ⟨14, _⟩ => ⟨S1000x96, .f32⟩
  | .local _ .vmem, ⟨15, _⟩ => ⟨S96x288, .f32⟩
  | .local _ .vmem, ⟨16, _⟩ => ⟨S96x288, .f32⟩
  | .local _ .vmem, ⟨17, _⟩ => ⟨S288, .f32⟩
  | .local _ .vmem, ⟨18, _⟩ => ⟨S288, .f32⟩
  | .local _ .vmem, ⟨19, _⟩ => ⟨S1000x96, .f32⟩
  | .local _ .vmem, ⟨20, _⟩ => ⟨S1000x96, .f32⟩
  | .local _ .vmem, ⟨21, _⟩ => ⟨S1000x96, .f32⟩
  | .local _ .vmem, ⟨22, _⟩ => ⟨S1000x96, .f32⟩
  | .local _ .vmem, ⟨23, _⟩ => ⟨S96x96, .f32⟩
  | .local _ .vmem, ⟨24, _⟩ => ⟨S1000x96, .f32⟩
  | .local _ .vmem, ⟨25, _⟩ => ⟨S1000x96, .f32⟩
  | .local _ .vmem, ⟨26, _⟩ => ⟨S1000x96, .f32⟩
  | .local _ .vmem, ⟨27, _⟩ => ⟨S1000x96, .f32⟩
  | .local _ .vmem, ⟨28, _⟩ => ⟨S1000x96, .f32⟩
  | .local _ .vmem, ⟨29, _⟩ => ⟨S1000x96, .f32⟩
  | .local _ .vmem, ⟨30, _⟩ => ⟨S96x288, .f32⟩
  | .local _ .vmem, ⟨31, _⟩ => ⟨S96x288, .f32⟩
  | .local _ .vmem, ⟨32, _⟩ => ⟨S288, .f32⟩
  | .local _ .vmem, ⟨33, _⟩ => ⟨S288, .f32⟩
  | .local _ .vmem, ⟨34, _⟩ => ⟨S1000x96, .f32⟩
  | .local _ .vmem, ⟨35, _⟩ => ⟨S1000x96, .f32⟩
  | .local _ .vmem, ⟨36, _⟩ => ⟨S1000x96, .f32⟩
  | .local _ .vmem, ⟨37, _⟩ => ⟨S1000x96, .f32⟩
  | .local _ .vmem, ⟨38, _⟩ => ⟨S96x96, .f32⟩
  | .local _ .vmem, ⟨39, _⟩ => ⟨S1000x96, .f32⟩
  | .local _ .vmem, ⟨40, _⟩ => ⟨S1000x96, .f32⟩
  | .local _ .vmem, ⟨41, _⟩ => ⟨S1000x96, .f32⟩
  | .local _ .vmem, ⟨42, _⟩ => ⟨S1000x96, .f32⟩
  | .local _ .vmem, ⟨43, _⟩ => ⟨S1000x96, .f32⟩
  | .local _ .vmem, ⟨44, _⟩ => ⟨S1000x96, .f32⟩
  | .local _ .vmem, ⟨45, _⟩ => ⟨S96x288, .f32⟩
  | .local _ .vmem, ⟨46, _⟩ => ⟨S96x288, .f32⟩
  | .local _ .vmem, ⟨47, _⟩ => ⟨S288, .f32⟩
  | .local _ .vmem, ⟨48, _⟩ => ⟨S288, .f32⟩
  | .local _ .vmem, ⟨49, _⟩ => ⟨S1000x96, .f32⟩
  | .local _ .vmem, ⟨50, _⟩ => ⟨S1000x96, .f32⟩
  | .local _ .vmem, ⟨51, _⟩ => ⟨S1000x96, .f32⟩
  | .local _ .vmem, ⟨52, _⟩ => ⟨S1000x96, .f32⟩
  | .local _ .vmem, ⟨53, _⟩ => ⟨S96x16, .f32⟩
  | .local _ .vmem, ⟨54, _⟩ => ⟨S16, .f32⟩
  | .local _ .vmem, ⟨55, _⟩ => ⟨S1000x16, .f32⟩
  | .local _ .vmem, ⟨56, _⟩ => ⟨S1000x16, .f32⟩
  | _, _ => ⟨S50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem6_0 : DmaSem sig := 49
abbrev cc6_sem6_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x288 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x288 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S288 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S288 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96x288 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x288 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S288 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S288 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x96 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x96 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S96x288 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S96x288 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S288 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S288 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x96 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S96x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S1000x2000_S1000x2000_0_0 : ∀ a, (![0, 0] : Fin 2 → Nat) a + S1000x2000.size a ≤ S1000x2000.size a
  h_S1000x2000 : 0 < S1000x2000.numel
  bitsLt_bf16_f32 : FTy.bits .bf16 < FTy.bits .f32
  inb_S2000x96_S2000x96_0_0 : ∀ a, (![0, 0] : Fin 2 → Nat) a + S2000x96.size a ≤ S2000x96.size a
  h_S2000x96 : 0 < S2000x96.numel
  inb_S96_S96_0 : ∀ a, (![0] : Fin 1 → Nat) a + S96.size a ≤ S96.size a
  h_S96 : 0 < S96.numel
  shapeCasts_S96_S1x96 : S96.ShapeCasts S1x96
  broadcasts_S1x96_S1000x96 : S1x96.Broadcasts S1000x96
  inb_S1000x96_S1000x96_0_0 : ∀ a, (![0, 0] : Fin 2 → Nat) a + S1000x96.size a ≤ S1000x96.size a
  h_S1000x96 : 0 < S1000x96.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S288x96_S96x288_1_0 : S288x96.Transposes [1, 0] S96x288
  slices_S3x96x96_S1x96x96_0_0_0 : S3x96x96.Slices ![0, 0, 0] S1x96x96
  shapeCasts_S1x96x96_S96x96 : S1x96x96.ShapeCasts S96x96
  shapeCasts_S1000x96_S1000x96 : S1000x96.ShapeCasts S1000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S96x288_S96x288_0_0 : ∀ a, (![0, 0] : Fin 2 → Nat) a + S96x288.size a ≤ S96x288.size a
  h_S96x288 : 0 < S96x288.numel
  shapeCasts_S96x288_S96x288 : S96x288.ShapeCasts S96x288
  inb_S288_S288_0 : ∀ a, (![0] : Fin 1 → Nat) a + S288.size a ≤ S288.size a
  h_S288 : 0 < S288.numel
  shapeCasts_S288_S1x288 : S288.ShapeCasts S1x288
  broadcasts_S1x288_S1000x288 : S1x288.Broadcasts S1000x288
  slices_S1000x288_o0_0_S1000x96 : S1000x288.Slices ![0, 0] S1000x96
  slices_S1000x288_o0_96_S1000x96 : S1000x288.Slices ![0, 96] S1000x96
  slices_S1000x288_o0_192_S1000x96 : S1000x288.Slices ![0, 192] S1000x96
  slices_S3x96x96_S1x96x96_1_0_0 : S3x96x96.Slices ![1, 0, 0] S1x96x96
  slices_S3x96x96_S1x96x96_2_0_0 : S3x96x96.Slices ![2, 0, 0] S1x96x96
  inb_S96x16_S96x16_0_0 : ∀ a, (![0, 0] : Fin 2 → Nat) a + S96x16.size a ≤ S96x16.size a
  h_S96x16 : 0 < S96x16.numel
  inb_S16_S16_0 : ∀ a, (![0] : Fin 1 → Nat) a + S16.size a ≤ S16.size a
  h_S16 : 0 < S16.numel
  shapeCasts_S16_S1x16 : S16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  dot_S1000x2000_S2000x96_S1000x96_1_0_0_1_n_n_wf : DotDims.WF S1000x2000 S2000x96 S1000x96 [1] [0] [0] [1] [] []
  dot_S1000x96_S96x96_S1000x96_1_0_0_1_n_n_wf : DotDims.WF S1000x96 S96x96 S1000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S1000x96_S96x288_S1000x288_1_0_0_1_n_n_wf : DotDims.WF S1000x96 S96x288 S1000x288 [1] [0] [0] [1] [] []
  dot_S1000x96_S96x16_S1000x16_1_0_0_1_n_n_wf : DotDims.WF S1000x96 S96x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S2000x96.size a
  hwx0_1 : ∀ i : grid0.Coords, EltTy.bits .f32 = 32 ∨ (Rect.block (s := S2000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x96.size a ≤ S50000x96.size a
  hwx0_3 : ∀ i : grid0.Coords, EltTy.bits .f32 = 32 ∨ (Rect.block (s := S50000x96) S1000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x96.size a ≤ S50000x96.size a
  hwx1_0 : ∀ i : grid1.Coords, EltTy.bits .f32 = 32 ∨ (Rect.block (s := S50000x96) S1000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x96.size a ≤ S50000x96.size a
  hwx1_2 : ∀ i : grid1.Coords, EltTy.bits .f32 = 32 ∨ (Rect.block (s := S50000x96) S1000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x96.size a ≤ S50000x96.size a
  hwx2_0 : ∀ i : grid2.Coords, EltTy.bits .f32 = 32 ∨ (Rect.block (s := S50000x96) S1000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x96.size a ≤ S50000x96.size a
  hwx2_1 : ∀ i : grid2.Coords, EltTy.bits .f32 = 32 ∨ (Rect.block (s := S50000x96) S1000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x288.size a ≤ S96x288.size a
  hwx2_2 : ∀ i : grid2.Coords, EltTy.bits .f32 = 32 ∨ (Rect.block (s := S96x288) S96x288.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x288.size a ≤ S96x288.size a
  hwx2_3 : ∀ i : grid2.Coords, EltTy.bits .f32 = 32 ∨ (Rect.block (s := S96x288) S96x288.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S288.size a ≤ S288.size a
  hwx2_4 : ∀ i : grid2.Coords, EltTy.bits .f32 = 32 ∨ (Rect.block (s := S288) S288.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S288.size a ≤ S288.size a
  hwx2_5 : ∀ i : grid2.Coords, EltTy.bits .f32 = 32 ∨ (Rect.block (s := S288) S288.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x96.size a ≤ S50000x96.size a
  hwx2_6 : ∀ i : grid2.Coords, EltTy.bits .f32 = 32 ∨ (Rect.block (s := S50000x96) S1000x96.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x96.size a ≤ S50000x96.size a
  hwx3_0 : ∀ i : grid3.Coords, EltTy.bits .f32 = 32 ∨ (Rect.block (s := S50000x96) S1000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x96.size a ≤ S50000x96.size a
  hwx3_2 : ∀ i : grid3.Coords, EltTy.bits .f32 = 32 ∨ (Rect.block (s := S50000x96) S1000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x96.size a ≤ S50000x96.size a
  hwx4_0 : ∀ i : grid4.Coords, EltTy.bits .f32 = 32 ∨ (Rect.block (s := S50000x96) S1000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x96.size a ≤ S50000x96.size a
  hwx4_1 : ∀ i : grid4.Coords, EltTy.bits .f32 = 32 ∨ (Rect.block (s := S50000x96) S1000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x288.size a ≤ S96x288.size a
  hwx4_2 : ∀ i : grid4.Coords, EltTy.bits .f32 = 32 ∨ (Rect.block (s := S96x288) S96x288.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x288.size a ≤ S96x288.size a
  hwx4_3 : ∀ i : grid4.Coords, EltTy.bits .f32 = 32 ∨ (Rect.block (s := S96x288) S96x288.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S288.size a ≤ S288.size a
  hwx4_4 : ∀ i : grid4.Coords, EltTy.bits .f32 = 32 ∨ (Rect.block (s := S288) S288.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S288.size a ≤ S288.size a
  hwx4_5 : ∀ i : grid4.Coords, EltTy.bits .f32 = 32 ∨ (Rect.block (s := S288) S288.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x96.size a ≤ S50000x96.size a
  hwx4_6 : ∀ i : grid4.Coords, EltTy.bits .f32 = 32 ∨ (Rect.block (s := S50000x96) S1000x96.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x96.size a ≤ S50000x96.size a
  hwx5_0 : ∀ i : grid5.Coords, EltTy.bits .f32 = 32 ∨ (Rect.block (s := S50000x96) S1000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96x96.size a ≤ S96x96.size a
  hwx5_1 : ∀ i : grid5.Coords, EltTy.bits .f32 = 32 ∨ (Rect.block (s := S96x96) S96x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x96.size a ≤ S50000x96.size a
  hwx5_2 : ∀ i : grid5.Coords, EltTy.bits .f32 = 32 ∨ (Rect.block (s := S50000x96) S1000x96.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x96.size a ≤ S50000x96.size a
  hwx6_0 : ∀ i : grid6.Coords, EltTy.bits .f32 = 32 ∨ (Rect.block (s := S50000x96) S1000x96.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x96.size a ≤ S50000x96.size a
  hwx6_1 : ∀ i : grid6.Coords, EltTy.bits .f32 = 32 ∨ (Rect.block (s := S50000x96) S1000x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S96x288.size a ≤ S96x288.size a
  hwx6_2 : ∀ i : grid6.Coords, EltTy.bits .f32 = 32 ∨ (Rect.block (s := S96x288) S96x288.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S96x288.size a ≤ S96x288.size a
  hwx6_3 : ∀ i : grid6.Coords, EltTy.bits .f32 = 32 ∨ (Rect.block (s := S96x288) S96x288.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S288.size a ≤ S288.size a
  hwx6_4 : ∀ i : grid6.Coords, EltTy.bits .f32 = 32 ∨ (Rect.block (s := S288) S288.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S288.size a ≤ S288.size a
  hwx6_5 : ∀ i : grid6.Coords, EltTy.bits .f32 = 32 ∨ (Rect.block (s := S288) S288.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x96.size a ≤ S50000x96.size a
  hwx6_6 : ∀ i : grid6.Coords, EltTy.bits .f32 = 32 ∨ (Rect.block (s := S50000x96) S1000x96.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x96.size a ≤ S50000x96.size a
  hwx7_0 : ∀ i : grid7.Coords, EltTy.bits .f32 = 32 ∨ (Rect.block (s := S50000x96) S1000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x16.size a ≤ S96x16.size a
  hwx7_1 : ∀ i : grid7.Coords, EltTy.bits .f32 = 32 ∨ (Rect.block (s := S96x16) S96x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16.size a ≤ S16.size a
  hwx7_2 : ∀ i : grid7.Coords, EltTy.bits .f32 = 32 ∨ (Rect.block (s := S16) S16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x16.size a ≤ S50000x16.size a
  hwx7_3 : ∀ i : grid7.Coords, EltTy.bits .f32 = 32 ∨ (Rect.block (s := S50000x16) S1000x16.size (cc7_transform_3 i) (hinb7_3 i)).WholeWords (EltTy.packing .f32)

variable [Facts₀]

def dot_S1000x2000_S2000x96_S1000x96_1_0_0_1_n_n : DotDims S1000x2000 S2000x96 S1000x96 where
  lhsContracting := [1]
  rhsContracting := [0]
  lhsNonContracting := [0]
  rhsNonContracting := [1]
  lhsBatch := []
  rhsBatch := []
  wf := dot_S1000x2000_S2000x96_S1000x96_1_0_0_1_n_n_wf
def dot_S1000x96_S96x96_S1000x96_1_0_0_1_n_n : DotDims S1000x96 S96x96 S1000x96 where
  lhsContracting := [1]
  rhsContracting := [0]
  lhsNonContracting := [0]
  rhsNonContracting := [1]
  lhsBatch := []
  rhsBatch := []
  wf := dot_S1000x96_S96x96_S1000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S1000x96_S96x288_S1000x288_1_0_0_1_n_n : DotDims S1000x96 S96x288 S1000x288 where
  lhsContracting := [1]
  rhsContracting := [0]
  lhsNonContracting := [0]
  rhsNonContracting := [1]
  lhsBatch := []
  rhsBatch := []
  wf := dot_S1000x96_S96x288_S1000x288_1_0_0_1_n_n_wf
def dot_S1000x96_S96x16_S1000x16_1_0_0_1_n_n : DotDims S1000x96 S96x16 S1000x16 where
  lhsContracting := [1]
  rhsContracting := [0]
  lhsNonContracting := [0]
  rhsNonContracting := [1]
  lhsBatch := []
  rhsBatch := []
  wf := dot_S1000x96_S96x16_S1000x16_1_0_0_1_n_n_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S1000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S96x288.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S96x288.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S288.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S288.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1000x96.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v20) S1000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S1000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S1000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S96x288.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6) S96x288.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S288.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg8) S288.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v34) S1000x96.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v34) S1000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S96x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1000x96.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S1000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S1000x96.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v5) S96x288.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v6) S96x288.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg7) S288.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg8) S288.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v48) S1000x96.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v48) S1000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S96x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v49) S1000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x2000 : Shape := ⟨2, ![50000, 2000]⟩
abbrev S2x800000 : Shape := ⟨2, ![2, 800000]⟩
abbrev S2000x96 : Shape := ⟨2, ![2000, 96]⟩
abbrev S96 : Shape := ⟨1, ![96]⟩
abbrev S3x96x96 : Shape := ⟨3, ![3, 96, 96]⟩
abbrev S288x96 : Shape := ⟨2, ![288, 96]⟩
abbrev S288 : Shape := ⟨1, ![288]⟩
abbrev S96x16 : Shape := ⟨2, ![96, 16]⟩
abbrev S16 : Shape := ⟨1, ![16]⟩
abbrev S50000x96 : Shape := ⟨2, ![50000, 96]⟩
abbrev S1x96 : Shape := ⟨2, ![1, 96]⟩
abbrev S1x800000 : Shape := ⟨2, ![1, 800000]⟩
abbrev S800000 : Shape := ⟨1, ![800000]⟩
abbrev S1x96x96 : Shape := ⟨3, ![1, 96, 96]⟩
abbrev S96x96 : Shape := ⟨2, ![96, 96]⟩
abbrev S_ : Shape := ⟨0, ![]⟩
abbrev S800000x1 : Shape := ⟨2, ![800000, 1]⟩
abbrev S800000x96 : Shape := ⟨2, ![800000, 96]⟩
abbrev S96x288 : Shape := ⟨2, ![96, 288]⟩
abbrev S50000x288 : Shape := ⟨2, ![50000, 288]⟩
abbrev S1x288 : Shape := ⟨2, ![1, 288]⟩
abbrev S50000x16 : Shape := ⟨2, ![50000, 16]⟩
abbrev S1x16 : Shape := ⟨2, ![1, 16]⟩

abbrev nBuf : Space → Nat
  | .hbm => 200
  | .vmem => 0
  | .smem => 0
  | _ => 0

abbrev hbmTy0_0 (i : Nat) : BufTy := match i % 128 with
  | 0 => ⟨S50000x2000, .f32⟩
  | 1 => ⟨S2x800000, .i32⟩
  | 2 => ⟨S2000x96, .f32⟩
  | 3 => ⟨S96, .f32⟩
  | 4 => ⟨S3x96x96, .f32⟩
  | 5 => ⟨S288x96, .f32⟩
  | 6 => ⟨S288x96, .f32⟩
  | 7 => ⟨S288, .f32⟩
  | 8 => ⟨S288, .f32⟩
  | 9 => ⟨S96x16, .f32⟩
  | 10 => ⟨S16, .f32⟩
  | 11 => ⟨S50000x96, .f32⟩
  | 12 => ⟨S1x96, .f32⟩
  | 13 => ⟨S50000x96, .f32⟩
  | 14 => ⟨S50000x96, .f32⟩
  | 15 => ⟨S1x800000, .i32⟩
  | 16 => ⟨S800000, .i32⟩
  | 17 => ⟨S1x800000, .i32⟩
  | 18 => ⟨S800000, .i32⟩
  | 19 => ⟨S1x96x96, .f32⟩
  | 20 => ⟨S96x96, .f32⟩
  | 21 => ⟨S50000x96, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x96, .f32⟩
  | 31 => ⟨S_, .f32⟩
  | 32 => ⟨S50000x96, .f32⟩
  | 33 => ⟨S800000x1, .i32⟩
  | 34 => ⟨S50000x96, .f32⟩
  | 35 => ⟨S96x288, .f32⟩
  | 36 => ⟨S50000x288, .f32⟩
  | 37 => ⟨S1x288, .f32⟩
  | 38 => ⟨S50000x288, .f32⟩
  | 39 => ⟨S50000x288, .f32⟩
  | 40 => ⟨S96x288, .f32⟩
  | 41 => ⟨S50000x288, .f32⟩
  | 42 => ⟨S1x288, .f32⟩
  | 43 => ⟨S50000x288, .f32⟩
  | 44 => ⟨S50000x288, .f32⟩
  | 45 => ⟨S50000x96, .f32⟩
  | 46 => ⟨S50000x96, .f32⟩
  | 47 => ⟨S50000x96, .f32⟩
  | 48 => ⟨S50000x96, .f32⟩
  | 49 => ⟨S50000x96, .f32⟩
  | 50 => ⟨S50000x96, .f32⟩
  | 51 => ⟨S50000x96, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S_, .f32⟩
  | 58 => ⟨S50000x96, .f32⟩
  | 59 => ⟨S50000x96, .f32⟩
  | 60 => ⟨S50000x96, .f32⟩
  | 61 => ⟨S50000x96, .f32⟩
  | 62 => ⟨S50000x96, .f32⟩
  | 63 => ⟨S_, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x96, .f32⟩
  | 70 => ⟨S50000x96, .f32⟩
  | 71 => ⟨S50000x96, .f32⟩
  | 72 => ⟨S_, .f32⟩
  | 73 => ⟨S50000x96, .f32⟩
  | 74 => ⟨S50000x96, .f32⟩
  | 75 => ⟨S50000x96, .f32⟩
  | 76 => ⟨S50000x96, .f32⟩
  | 77 => ⟨S50000x96, .f32⟩
  | 78 => ⟨S1x96x96, .f32⟩
  | 79 => ⟨S96x96, .f32⟩
  | 80 => ⟨S50000x96, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x96, .f32⟩
  | 90 => ⟨S_, .f32⟩
  | 91 => ⟨S50000x96, .f32⟩
  | 92 => ⟨S800000x1, .i32⟩
  | 93 => ⟨S50000x96, .f32⟩
  | 94 => ⟨S96x288, .f32⟩
  | 95 => ⟨S50000x288, .f32⟩
  | 96 => ⟨S1x288, .f32⟩
  | 97 => ⟨S50000x288, .f32⟩
  | 98 => ⟨S50000x288, .f32⟩
  | 99 => ⟨S96x288, .f32⟩
  | 100 => ⟨S50000x288, .f32⟩
  | 101 => ⟨S1x288, .f32⟩
  | 102 => ⟨S50000x288, .f32⟩
  | 103 => ⟨S50000x288, .f32⟩
  | 104 => ⟨S50000x96, .f32⟩
  | 105 => ⟨S50000x96, .f32⟩
  | 106 => ⟨S50000x96, .f32⟩
  | 107 => ⟨S50000x96, .f32⟩
  | 108 => ⟨S50000x96, .f32⟩
  | 109 => ⟨S50000x96, .f32⟩
  | 110 => ⟨S50000x96, .f32⟩
  | 111 => ⟨S50000x96, .f32⟩
  | 112 => ⟨S50000x96, .f32⟩
  | 113 => ⟨S_, .f32⟩
  | 114 => ⟨S50000x96, .f32⟩
  | 115 => ⟨S50000x96, .f32⟩
  | 116 => ⟨S_, .f32⟩
  | 117 => ⟨S50000x96, .f32⟩
  | 118 => ⟨S50000x96, .f32⟩
  | 119 => ⟨S50000x96, .f32⟩
  | 120 => ⟨S50000x96, .f32⟩
  | 121 => ⟨S50000x96, .f32⟩
  | 122 => ⟨S_, .f32⟩
  | 123 => ⟨S50000x96, .f32⟩
  | 124 => ⟨S50000x96, .f32⟩
  | 125 => ⟨S_, .f32⟩
  | 126 => ⟨S50000x96, .f32⟩
  | 127 => ⟨S50000x96, .f32⟩
  | _ => ⟨S50000x2000, .f32⟩

abbrev hbmTy0_1 (i : Nat) : BufTy := match i % 128 with
  | 0 => ⟨S50000x96, .f32⟩
  | 1 => ⟨S50000x96, .f32⟩
  | 2 => ⟨S50000x96, .f32⟩
  | 3 => ⟨S_, .f32⟩
  | 4 => ⟨S50000x96, .f32⟩
  | 5 => ⟨S50000x96, .f32⟩
  | 6 => ⟨S50000x96, .f32⟩
  | 7 => ⟨S50000x96, .f32⟩
  | 8 => ⟨S50000x96, .f32⟩
  | 9 => ⟨S1x96x96, .f32⟩
  | 10 => ⟨S96x96, .f32⟩
  | 11 => ⟨S50000x96, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x96, .f32⟩
  | 21 => ⟨S_, .f32⟩
  | 22 => ⟨S50000x96, .f32⟩
  | 23 => ⟨S800000x1, .i32⟩
  | 24 => ⟨S50000x96, .f32⟩
  | 25 => ⟨S96x288, .f32⟩
  | 26 => ⟨S50000x288, .f32⟩
  | 27 => ⟨S1x288, .f32⟩
  | 28 => ⟨S50000x288, .f32⟩
  | 29 => ⟨S50000x288, .f32⟩
  | 30 => ⟨S96x288, .f32⟩
  | 31 => ⟨S50000x288, .f32⟩
  | 32 => ⟨S1x288, .f32⟩
  | 33 => ⟨S50000x288, .f32⟩
  | 34 => ⟨S50000x288, .f32⟩
  | 35 => ⟨S50000x96, .f32⟩
  | 36 => ⟨S50000x96, .f32⟩
  | 37 => ⟨S50000x96, .f32⟩
  | 38 => ⟨S50000x96, .f32⟩
  | 39 => ⟨S50000x96, .f32⟩
  | 40 => ⟨S50000x96, .f32⟩
  | 41 => ⟨S50000x96, .f32⟩
  | 42 => ⟨S50000x96, .f32⟩
  | 43 => ⟨S50000x96, .f32⟩
  | 44 => ⟨S_, .f32⟩
  | 45 => ⟨S50000x96, .f32⟩
  | 46 => ⟨S50000x96, .f32⟩
  | 47 => ⟨S_, .f32⟩
  | 48 => ⟨S50000x96, .f32⟩
  | 49 => ⟨S50000x96, .f32⟩
  | 50 => ⟨S50000x96, .f32⟩
  | 51 => ⟨S50000x96, .f32⟩
  | 52 => ⟨S50000x96, .f32⟩
  | 53 => ⟨S_, .f32⟩
  | 54 => ⟨S50000x96, .f32⟩
  | 55 => ⟨S50000x96, .f32⟩
  | 56 => ⟨S_, .f32⟩
  | 57 => ⟨S50000x96, .f32⟩
  | 58 => ⟨S50000x96, .f32⟩
  | 59 => ⟨S50000x96, .f32⟩
  | 60 => ⟨S50000x96, .f32⟩
  | 61 => ⟨S50000x96, .f32⟩
  | 62 => ⟨S_, .f32⟩
  | 63 => ⟨S50000x96, .f32⟩
  | 64 => ⟨S50000x96, .f32⟩
  | 65 => ⟨S50000x96, .f32⟩
  | 66 => ⟨S50000x96, .f32⟩
  | 67 => ⟨S50000x96, .f32⟩
  | 68 => ⟨S50000x16, .f32⟩
  | 69 => ⟨S1x16, .f32⟩
  | 70 => ⟨S50000x16, .f32⟩
  | 71 => ⟨S50000x16, .f32⟩
  | _ => ⟨S50000x2000, .f32⟩

abbrev hbmTy (i : Nat) : BufTy := match i / 128 with
  | 0 => hbmTy0_0 i
  | 1 => hbmTy0_1 i
  | _ => ⟨S50000x2000, .f32⟩

abbrev bufTy : (tb : Table) → Fin (tcTables nBuf tb) → BufTy
  | .hbm, ⟨i, _⟩ => hbmTy i
  | _, _ => ⟨S50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_6 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_9 : Ref sig .tc := ⟨.hbm, 113, rfl⟩
abbrev main_v91 : Ref sig .tc := ⟨.hbm, 114, rfl⟩
abbrev main_v92 : Ref sig .tc := ⟨.hbm, 115, rfl⟩
abbrev main_cst_10 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_11 : Ref sig .tc := ⟨.hbm, 122, rfl⟩
abbrev main_v98 : Ref sig .tc := ⟨.hbm, 123, rfl⟩
abbrev main_v99 : Ref sig .tc := ⟨.hbm, 124, rfl⟩
abbrev main_cst_12 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_13 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_c_14 : Ref sig .tc := ⟨.hbm, 140, rfl⟩
abbrev main_v113 : Ref sig .tc := ⟨.hbm, 141, rfl⟩
abbrev main_v114 : Ref sig .tc := ⟨.hbm, 142, rfl⟩
abbrev main_c_15 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_16 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_17 : Ref sig .tc := ⟨.hbm, 172, rfl⟩
abbrev main_v142 : Ref sig .tc := ⟨.hbm, 173, rfl⟩
abbrev main_v143 : Ref sig .tc := ⟨.hbm, 174, rfl⟩
abbrev main_cst_18 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_19 : Ref sig .tc := ⟨.hbm, 181, rfl⟩
abbrev main_v149 : Ref sig .tc := ⟨.hbm, 182, rfl⟩
abbrev main_v150 : Ref sig .tc := ⟨.hbm, 183, rfl⟩
abbrev main_cst_20 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_21 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩

abbrev nD : Nat := 1
abbrev τ : Topo := Topo.v7x

variable {F : FTy → Type} [FloatOps F]

class Facts₀ : Prop where
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x96x96_S1x96x96_0_0_0 : S3x96x96.Slices ![0, 0, 0] S1x96x96
  shapeCasts_S1x96x96_S96x96 : S1x96x96.ShapeCasts S96x96
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S288x96_S96x288_1_0 : S288x96.Transposes [1, 0] S96x288
  bcast_S288_S1x288_1 : S288.BroadcastsInDim S1x288 (![1] : Fin 1 → Fin S1x288.rank)
  bcast_S1x288_S50000x288_0_1 : S1x288.BroadcastsInDim S50000x288 (![0, 1] : Fin 2 → Fin S50000x288.rank)
  slices_S50000x288_S50000x96_0_0 : S50000x288.Slices ![0, 0] S50000x96
  slices_S50000x288_S50000x96_0_96 : S50000x288.Slices ![0, 96] S50000x96
  slices_S50000x288_S50000x96_0_192 : S50000x288.Slices ![0, 192] S50000x96
  slices_S3x96x96_S1x96x96_1_0_0 : S3x96x96.Slices ![1, 0, 0] S1x96x96
  slices_S3x96x96_S1x96x96_2_0_0 : S3x96x96.Slices ![2, 0, 0] S1x96x96
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x2000_S2000x96_S50000x96_1_0_0_1_n_n_wf : DotDims.WF S50000x2000 S2000x96 S50000x96 [1] [0] [0] [1] [] []
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x288_S50000x288_1_0_0_1_n_n_wf : DotDims.WF S50000x96 S96x288 S50000x288 [1] [0] [0] [1] [] []
  dot_S50000x96_S96x16_S50000x16_1_0_0_1_n_n_wf : DotDims.WF S50000x96 S96x16 S50000x16 [1] [0] [0] [1] [] []

variable [Facts₀]

def dot_S50000x2000_S2000x96_S50000x96_1_0_0_1_n_n : DotDims S50000x2000 S2000x96 S50000x96 where
  lhsContracting := [1]
  rhsContracting := [0]
  lhsNonContracting := [0]
  rhsNonContracting := [1]
  lhsBatch := []
  rhsBatch := []
  wf := dot_S50000x2000_S2000x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x288_S50000x288_1_0_0_1_n_n : DotDims S50000x96 S96x288 S50000x288 where
  lhsContracting := [1]
  rhsContracting := [0]
  lhsNonContracting := [0]
  rhsNonContracting := [1]
  lhsBatch := []
  rhsBatch := []
  wf := dot_S50000x96_S96x288_S50000x288_1_0_0_1_n_n_wf
def dot_S50000x96_S96x16_S50000x16_1_0_0_1_n_n : DotDims S50000x96 S96x16 S50000x16 where
  lhsContracting := [1]
  rhsContracting := [0]
  lhsNonContracting := [0]
  rhsNonContracting := [1]
  lhsBatch := []
  rhsBatch := []
  wf := dot_S50000x96_S96x16_S50000x16_1_0_0_1_n_n_wf

class Facts : Prop extends Facts₀ where

variable [Facts]
-- ==== Proof.KernelRun.lean ====
/-
  The idealized kernel's run with its result named: every weakly fair execution of @main terminates, nothing
  faults, the eleven argument arrays end as launched, and the result array ends holding what the fold of @main's
  fourteen segments leaves in it — the contents `W14` after the last region's write-backs.
-/
import proofs.«110150_j41979010351140_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' launch: the last thread state holds every unscoped buffer at the final boundary's contents, read
    against the final memory; the result buffer is one of them. -/
theorem run_result : θ_run defs (onTc (τ := τ) (main (F := F))) ⟨m, fun _ => 0, ρ⟩ (fun r => ∀ c : Dev nD,
      r.2.mem ((c.tc : Thread nD τ).loc main_v49) = W14 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v49 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunValue

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibHostDot.lean ====
/-
  The host's matrix product (`dot_general`) with ONE contracted axis, read at an output index at the exact
  (extended-real) instance: the sum over that axis's coordinate k of the left operand at L k times the right operand
  at R k, for any functions L, R that give the two operand indices at each contraction position with coordinate k.
  The companion of the same fact for a kernel's product into a zero accumulator.
-/
import Idealize.ShloMosaic.PureOps.Ideal
import Idealize.ShloMosaic.PureOps.Ideal.Laws
import Idealize.ShloMosaic.Lib.ValueIdx

noncomputable section

namespace Cert.LibHostDot

open Idealize.ShloMosaic Idealize.ShloMosaic.ValueIdx

/-- Σ over the contraction index re-indexed by its one coordinate. -/
theorem dotGeneral_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    Host.dotGeneral D prec lhs rhs j = ∑ k : Fin n, lhs (L k) * rhs (R k) := by
  show FloatOps.dotGeneral D prec _ lhs rhs j = _
  rw [Ideal.dotGeneral_apply, ← Equiv.sum_comp (contrEquiv1 D n hr hs).symm]
  refine Finset.sum_congr rfl fun k _ => ?_
  have hk := contrEquiv1_symm_val D n hr hs k
  rw [hl _ k hk, hrr _ k hk]

end Cert.LibHostDot

end
-- ==== Proof.Rows.lean ====
/-
  The mathematics both programs compute, stated once, row by row, on the extended reals.

  Every array here is a matrix of rows. A dense layer sends row r of x to (Σ_k x[r,k]·w[k,c]) + b[c]; a plain
  product drops the bias. One gated recurrent step reads row r of the aggregated messages and row r of the state,
  forms the two 288-wide gate rows gi = a·wT + bi and gh = h·uT + bh, and mixes
      reset  = σ(gi[j] + gh[j])
      update = σ(gi[96+j] + gh[96+j])
      cand   = tanh(gi[192+j] + reset · gh[192+j])
      out[j] = (1 − update)·cand + update·h[j].
  Each result at index (r, c) depends on the operands only through their rows r: that is what lets a row tile of
  a result be computed from the same row tile of the operands, and it is the one fact the tiling needs
  (the `_congr` lemmas).
-/
import Idealize.ShloMosaic.PureOps.Ideal
import Idealize.ShloMosaic.Lib.ValueIdx

noncomputable section

namespace Cert.Rows

open Idealize.ShloMosaic Idealize.ShloMosaic.ValueIdx

abbrev Mat (R C : ℕ) := (⟨2, ![R, C]⟩ : Shape).Idx → EReal
abbrev Vec1 (C : ℕ) := (⟨1, ![C]⟩ : Shape).Idx → EReal

/-- Row `r` of a matrix. -/
def rowAt {R K : ℕ} (x : Mat R K) (r : Fin R) : Fin K → EReal := fun k => x (ix2 r k)

/-- One row times a matrix, at column `c`. -/
def dotRow {K C : ℕ} (xr : Fin K → EReal) (w : Mat K C) (c : Fin C) : EReal := ∑ k : Fin K, xr k * w (ix2 k c)

/-- One row times a matrix plus a bias, at column `c`. -/
def affRow {K C : ℕ} (xr : Fin K → EReal) (w : Mat K C) (b : Vec1 C) (c : Fin C) : EReal := dotRow xr w c + b (ix1 c)

/-- The float pattern of 1.0, as both programs spell it. -/
abbrev one : EReal := Ideal.ofBits .f32 0x3F800000#32

/-- The gated mix of two gate rows and the state entry `hj`, at hidden unit `j`. -/
def gruAt (gi gh : Fin 288 → EReal) (hj : EReal) (j : Fin 96) : EReal :=
  (one - Ideal.logistic (gi ⟨96 + j.val, by omega⟩ + gh ⟨96 + j.val, by omega⟩))
      * Ideal.tanh (gi ⟨192 + j.val, by omega⟩
          + Ideal.logistic (gi ⟨0 + j.val, by omega⟩ + gh ⟨0 + j.val, by omega⟩) * gh ⟨192 + j.val, by omega⟩)
    + Ideal.logistic (gi ⟨96 + j.val, by omega⟩ + gh ⟨96 + j.val, by omega⟩) * hj

/-- x·w. -/
def prod {R K C : ℕ} (x : Mat R K) (w : Mat K C) : Mat R C := fun i => dotRow (rowAt x (i 0)) w (i 1)

/-- x·w + b. -/
def affine {R K C : ℕ} (x : Mat R K) (w : Mat K C) (b : Vec1 C) : Mat R C := fun i => affRow (rowAt x (i 0)) w b (i 1)

/-- One gated recurrent step over every row. -/
def gruOut {R : ℕ} (a h : Mat R 96) (wT uT : Mat 96 288) (bi bh : Vec1 288) : Mat R 96 := fun i =>
  gruAt (affRow (rowAt a (i 0)) wT bi) (affRow (rowAt h (i 0)) uT bh) (rowAt h (i 0) (i 1)) (i 1)

/-! ## A result's entry depends on the operands through one row only -/

theorem prod_congr {R R' K C : ℕ} (x : Mat R K) (x' : Mat R' K) (w : Mat K C) (i : (⟨2, ![R, C]⟩ : Shape).Idx)
    (i' : (⟨2, ![R', C]⟩ : Shape).Idx) (hx : rowAt x (i 0) = rowAt x' (i' 0)) (hc : (i 1 : Fin C) = i' 1) :
    prod x w i = prod x' w i' := by
  unfold prod; rw [hx, hc]

theorem affine_congr {R R' K C : ℕ} (x : Mat R K) (x' : Mat R' K) (w : Mat K C) (b : Vec1 C) (i : (⟨2, ![R, C]⟩ : Shape).Idx)
    (i' : (⟨2, ![R', C]⟩ : Shape).Idx) (hx : rowAt x (i 0) = rowAt x' (i' 0)) (hc : (i 1 : Fin C) = i' 1) :
    affine x w b i = affine x' w b i' := by
  unfold affine; rw [hx, hc]

theorem gruOut_congr {R R' : ℕ} (a h : Mat R 96) (a' h' : Mat R' 96) (wT uT : Mat 96 288) (bi bh : Vec1 288)
    (i : (⟨2, ![R, 96]⟩ : Shape).Idx) (i' : (⟨2, ![R', 96]⟩ : Shape).Idx)
    (ha : rowAt a (i 0) = rowAt a' (i' 0)) (hh : rowAt h (i 0) = rowAt h' (i' 0)) (hc : (i 1 : Fin 96) = i' 1) :
    gruOut a h wT uT bi bh i = gruOut a' h' wT uT bi bh i' := by
  unfold gruOut; rw [ha, hh, hc]

end Cert.Rows

end
-- ==== Proof.Dots.lean ====
/-
  Each matrix product of the two programs, read at an output index (p, c): the sum over the contracted coordinate k
  of the left operand at (p, k) times the right operand at (k, c). The kernels' products run on row tiles into a zero
  accumulator; the reference's run on whole arrays. All eight contract the left operand's axis 1 with the right
  operand's axis 0 and keep (row, column) as the result's axes.
-/
import proofs.«110150_j41979010351140_1_alg».proof.Proof.Gen.KernelIdeal
import proofs.«110150_j41979010351140_1_alg».proof.Proof.Gen.ReferenceIdeal
import proofs.«110150_j41979010351140_1_alg».proof.Proof.LibMatmul
import proofs.«110150_j41979010351140_1_alg».proof.Proof.LibHostDot
import proofs.«110150_j41979010351140_1_alg».proof.Proof.Rows

noncomputable section

namespace Cert.Dots

open Idealize.ShloMosaic Idealize.ShloMosaic.ValueIdx Cert.Rows

/-! ### 1000×2000 by 2000×96 -/

theorem k0_l0 (j : (⟨2, ![1000, 96]⟩ : Shape).Idx) (q : Cert.KernelIdeal.dot_S1000x2000_S2000x96_S1000x96_1_0_0_1_n_n.contr.Idx) : ((Cert.KernelIdeal.dot_S1000x2000_S2000x96_S1000x96_1_0_0_1_n_n).lhsIdx j q 0 : ℕ) = j 0 := by
  simp [DotDims.lhsIdx, Cert.KernelIdeal.dot_S1000x2000_S2000x96_S1000x96_1_0_0_1_n_n]; rfl
theorem k0_r1 (j : (⟨2, ![1000, 96]⟩ : Shape).Idx) (q : Cert.KernelIdeal.dot_S1000x2000_S2000x96_S1000x96_1_0_0_1_n_n.contr.Idx) : ((Cert.KernelIdeal.dot_S1000x2000_S2000x96_S1000x96_1_0_0_1_n_n).rhsIdx j q 1 : ℕ) = j 1 := by
  simp [DotDims.rhsIdx, Cert.KernelIdeal.dot_S1000x2000_S2000x96_S1000x96_1_0_0_1_n_n]; rfl
theorem k0_hl (p : Fin 1000) (c : Fin 96) (q : Cert.KernelIdeal.dot_S1000x2000_S2000x96_S1000x96_1_0_0_1_n_n.contr.Idx) (k : Fin 2000) (hk : (q ⟨0, by decide⟩ : ℕ) = k.val) :
    (Cert.KernelIdeal.dot_S1000x2000_S2000x96_S1000x96_1_0_0_1_n_n).lhsIdx (ix2 p c) q = ix2 p k := by
  funext a; apply Fin.ext
  match a with
  | ⟨0, _⟩ => exact k0_l0 (ix2 p c) q
  | ⟨1, _⟩ => exact ((Cert.KernelIdeal.dot_S1000x2000_S2000x96_S1000x96_1_0_0_1_n_n).lhsIdx_val_of_single (cl := 1) rfl (ix2 p c) q).trans hk
theorem k0_hr (p : Fin 1000) (c : Fin 96) (q : Cert.KernelIdeal.dot_S1000x2000_S2000x96_S1000x96_1_0_0_1_n_n.contr.Idx) (k : Fin 2000) (hk : (q ⟨0, by decide⟩ : ℕ) = k.val) :
    (Cert.KernelIdeal.dot_S1000x2000_S2000x96_S1000x96_1_0_0_1_n_n).rhsIdx (ix2 p c) q = ix2 k c := by
  funext a; apply Fin.ext
  match a with
  | ⟨0, _⟩ => exact ((Cert.KernelIdeal.dot_S1000x2000_S2000x96_S1000x96_1_0_0_1_n_n).rhsIdx_val_of_single (cr := 0) rfl (ix2 p c) q).trans hk
  | ⟨1, _⟩ => exact k0_r1 (ix2 p c) q
/-- The tile product into zero, at (p, c), is row p of the left tile against column c. -/
theorem k0_mm {φ₁ φ₂ : FTy} (x : FVec Ideal ⟨2, ![1000, 2000]⟩ φ₁) (w : FVec Ideal ⟨2, ![2000, 96]⟩ φ₂) (p : Fin 1000) (c : Fin 96) :
    FloatOps.matmul (Cert.KernelIdeal.dot_S1000x2000_S2000x96_S1000x96_1_0_0_1_n_n) none x w (constant ⟨2, ![1000, 96]⟩ .f32 0x00000000#32) (ix2 p c) = ∑ k : Fin 2000, x (ix2 p k) * w (ix2 k c) :=
  Cert.LibMatmul.matmul_zero_sum1 (Cert.KernelIdeal.dot_S1000x2000_S2000x96_S1000x96_1_0_0_1_n_n) none 2000 (by decide) (by decide) x w (ix2 p c) (fun k => ix2 p k) (fun k => ix2 k c)
    (fun q k hk => k0_hl p c q k hk) (fun q k hk => k0_hr p c q k hk)

/-! ### 1000×96 by 96×96 -/

theorem k1_l0 (j : (⟨2, ![1000, 96]⟩ : Shape).Idx) (q : Cert.KernelIdeal.dot_S1000x96_S96x96_S1000x96_1_0_0_1_n_n.contr.Idx) : ((Cert.KernelIdeal.dot_S1000x96_S96x96_S1000x96_1_0_0_1_n_n).lhsIdx j q 0 : ℕ) = j 0 := by
  simp [DotDims.lhsIdx, Cert.KernelIdeal.dot_S1000x96_S96x96_S1000x96_1_0_0_1_n_n]; rfl
theorem k1_r1 (j : (⟨2, ![1000, 96]⟩ : Shape).Idx) (q : Cert.KernelIdeal.dot_S1000x96_S96x96_S1000x96_1_0_0_1_n_n.contr.Idx) : ((Cert.KernelIdeal.dot_S1000x96_S96x96_S1000x96_1_0_0_1_n_n).rhsIdx j q 1 : ℕ) = j 1 := by
  simp [DotDims.rhsIdx, Cert.KernelIdeal.dot_S1000x96_S96x96_S1000x96_1_0_0_1_n_n]; rfl
theorem k1_hl (p : Fin 1000) (c : Fin 96) (q : Cert.KernelIdeal.dot_S1000x96_S96x96_S1000x96_1_0_0_1_n_n.contr.Idx) (k : Fin 96) (hk : (q ⟨0, by decide⟩ : ℕ) = k.val) :
    (Cert.KernelIdeal.dot_S1000x96_S96x96_S1000x96_1_0_0_1_n_n).lhsIdx (ix2 p c) q = ix2 p k := by
  funext a; apply Fin.ext
  match a with
  | ⟨0, _⟩ => exact k1_l0 (ix2 p c) q
  | ⟨1, _⟩ => exact ((Cert.KernelIdeal.dot_S1000x96_S96x96_S1000x96_1_0_0_1_n_n).lhsIdx_val_of_single (cl := 1) rfl (ix2 p c) q).trans hk
theorem k1_hr (p : Fin 1000) (c : Fin 96) (q : Cert.KernelIdeal.dot_S1000x96_S96x96_S1000x96_1_0_0_1_n_n.contr.Idx) (k : Fin 96) (hk : (q ⟨0, by decide⟩ : ℕ) = k.val) :
    (Cert.KernelIdeal.dot_S1000x96_S96x96_S1000x96_1_0_0_1_n_n).rhsIdx (ix2 p c) q = ix2 k c := by
  funext a; apply Fin.ext
  match a with
  | ⟨0, _⟩ => exact ((Cert.KernelIdeal.dot_S1000x96_S96x96_S1000x96_1_0_0_1_n_n).rhsIdx_val_of_single (cr := 0) rfl (ix2 p c) q).trans hk
  | ⟨1, _⟩ => exact k1_r1 (ix2 p c) q
/-- The tile product into zero, at (p, c), is row p of the left tile against column c. -/
theorem k1_mm {φ₁ φ₂ : FTy} (x : FVec Ideal ⟨2, ![1000, 96]⟩ φ₁) (w : FVec Ideal ⟨2, ![96, 96]⟩ φ₂) (p : Fin 1000) (c : Fin 96) :
    FloatOps.matmul (Cert.KernelIdeal.dot_S1000x96_S96x96_S1000x96_1_0_0_1_n_n) none x w (constant ⟨2, ![1000, 96]⟩ .f32 0x00000000#32) (ix2 p c) = ∑ k : Fin 96, x (ix2 p k) * w (ix2 k c) :=
  Cert.LibMatmul.matmul_zero_sum1 (Cert.KernelIdeal.dot_S1000x96_S96x96_S1000x96_1_0_0_1_n_n) none 96 (by decide) (by decide) x w (ix2 p c) (fun k => ix2 p k) (fun k => ix2 k c)
    (fun q k hk => k1_hl p c q k hk) (fun q k hk => k1_hr p c q k hk)

/-! ### 1000×96 by 96×288 -/

theorem k2_l0 (j : (⟨2, ![1000, 288]⟩ : Shape).Idx) (q : Cert.KernelIdeal.dot_S1000x96_S96x288_S1000x288_1_0_0_1_n_n.contr.Idx) : ((Cert.KernelIdeal.dot_S1000x96_S96x288_S1000x288_1_0_0_1_n_n).lhsIdx j q 0 : ℕ) = j 0 := by
  simp [DotDims.lhsIdx, Cert.KernelIdeal.dot_S1000x96_S96x288_S1000x288_1_0_0_1_n_n]; rfl
theorem k2_r1 (j : (⟨2, ![1000, 288]⟩ : Shape).Idx) (q : Cert.KernelIdeal.dot_S1000x96_S96x288_S1000x288_1_0_0_1_n_n.contr.Idx) : ((Cert.KernelIdeal.dot_S1000x96_S96x288_S1000x288_1_0_0_1_n_n).rhsIdx j q 1 : ℕ) = j 1 := by
  simp [DotDims.rhsIdx, Cert.KernelIdeal.dot_S1000x96_S96x288_S1000x288_1_0_0_1_n_n]; rfl
theorem k2_hl (p : Fin 1000) (c : Fin 288) (q : Cert.KernelIdeal.dot_S1000x96_S96x288_S1000x288_1_0_0_1_n_n.contr.Idx) (k : Fin 96) (hk : (q ⟨0, by decide⟩ : ℕ) = k.val) :
    (Cert.KernelIdeal.dot_S1000x96_S96x288_S1000x288_1_0_0_1_n_n).lhsIdx (ix2 p c) q = ix2 p k := by
  funext a; apply Fin.ext
  match a with
  | ⟨0, _⟩ => exact k2_l0 (ix2 p c) q
  | ⟨1, _⟩ => exact ((Cert.KernelIdeal.dot_S1000x96_S96x288_S1000x288_1_0_0_1_n_n).lhsIdx_val_of_single (cl := 1) rfl (ix2 p c) q).trans hk
theorem k2_hr (p : Fin 1000) (c : Fin 288) (q : Cert.KernelIdeal.dot_S1000x96_S96x288_S1000x288_1_0_0_1_n_n.contr.Idx) (k : Fin 96) (hk : (q ⟨0, by decide⟩ : ℕ) = k.val) :
    (Cert.KernelIdeal.dot_S1000x96_S96x288_S1000x288_1_0_0_1_n_n).rhsIdx (ix2 p c) q = ix2 k c := by
  funext a; apply Fin.ext
  match a with
  | ⟨0, _⟩ => exact ((Cert.KernelIdeal.dot_S1000x96_S96x288_S1000x288_1_0_0_1_n_n).rhsIdx_val_of_single (cr := 0) rfl (ix2 p c) q).trans hk
  | ⟨1, _⟩ => exact k2_r1 (ix2 p c) q
/-- The tile product into zero, at (p, c), is row p of the left tile against column c. -/
theorem k2_mm {φ₁ φ₂ : FTy} (x : FVec Ideal ⟨2, ![1000, 96]⟩ φ₁) (w : FVec Ideal ⟨2, ![96, 288]⟩ φ₂) (p : Fin 1000) (c : Fin 288) :
    FloatOps.matmul (Cert.KernelIdeal.dot_S1000x96_S96x288_S1000x288_1_0_0_1_n_n) none x w (constant ⟨2, ![1000, 288]⟩ .f32 0x00000000#32) (ix2 p c) = ∑ k : Fin 96, x (ix2 p k) * w (ix2 k c) :=
  Cert.LibMatmul.matmul_zero_sum1 (Cert.KernelIdeal.dot_S1000x96_S96x288_S1000x288_1_0_0_1_n_n) none 96 (by decide) (by decide) x w (ix2 p c) (fun k => ix2 p k) (fun k => ix2 k c)
    (fun q k hk => k2_hl p c q k hk) (fun q k hk => k2_hr p c q k hk)

/-! ### 1000×96 by 96×16 -/

theorem k7_l0 (j : (⟨2, ![1000, 16]⟩ : Shape).Idx) (q : Cert.KernelIdeal.dot_S1000x96_S96x16_S1000x16_1_0_0_1_n_n.contr.Idx) : ((Cert.KernelIdeal.dot_S1000x96_S96x16_S1000x16_1_0_0_1_n_n).lhsIdx j q 0 : ℕ) = j 0 := by
  simp [DotDims.lhsIdx, Cert.KernelIdeal.dot_S1000x96_S96x16_S1000x16_1_0_0_1_n_n]; rfl
theorem k7_r1 (j : (⟨2, ![1000, 16]⟩ : Shape).Idx) (q : Cert.KernelIdeal.dot_S1000x96_S96x16_S1000x16_1_0_0_1_n_n.contr.Idx) : ((Cert.KernelIdeal.dot_S1000x96_S96x16_S1000x16_1_0_0_1_n_n).rhsIdx j q 1 : ℕ) = j 1 := by
  simp [DotDims.rhsIdx, Cert.KernelIdeal.dot_S1000x96_S96x16_S1000x16_1_0_0_1_n_n]; rfl
theorem k7_hl (p : Fin 1000) (c : Fin 16) (q : Cert.KernelIdeal.dot_S1000x96_S96x16_S1000x16_1_0_0_1_n_n.contr.Idx) (k : Fin 96) (hk : (q ⟨0, by decide⟩ : ℕ) = k.val) :
    (Cert.KernelIdeal.dot_S1000x96_S96x16_S1000x16_1_0_0_1_n_n).lhsIdx (ix2 p c) q = ix2 p k := by
  funext a; apply Fin.ext
  match a with
  | ⟨0, _⟩ => exact k7_l0 (ix2 p c) q
  | ⟨1, _⟩ => exact ((Cert.KernelIdeal.dot_S1000x96_S96x16_S1000x16_1_0_0_1_n_n).lhsIdx_val_of_single (cl := 1) rfl (ix2 p c) q).trans hk
theorem k7_hr (p : Fin 1000) (c : Fin 16) (q : Cert.KernelIdeal.dot_S1000x96_S96x16_S1000x16_1_0_0_1_n_n.contr.Idx) (k : Fin 96) (hk : (q ⟨0, by decide⟩ : ℕ) = k.val) :
    (Cert.KernelIdeal.dot_S1000x96_S96x16_S1000x16_1_0_0_1_n_n).rhsIdx (ix2 p c) q = ix2 k c := by
  funext a; apply Fin.ext
  match a with
  | ⟨0, _⟩ => exact ((Cert.KernelIdeal.dot_S1000x96_S96x16_S1000x16_1_0_0_1_n_n).rhsIdx_val_of_single (cr := 0) rfl (ix2 p c) q).trans hk
  | ⟨1, _⟩ => exact k7_r1 (ix2 p c) q
/-- The tile product into zero, at (p, c), is row p of the left tile against column c. -/
theorem k7_mm {φ₁ φ₂ : FTy} (x : FVec Ideal ⟨2, ![1000, 96]⟩ φ₁) (w : FVec Ideal ⟨2, ![96, 16]⟩ φ₂) (p : Fin 1000) (c : Fin 16) :
    FloatOps.matmul (Cert.KernelIdeal.dot_S1000x96_S96x16_S1000x16_1_0_0_1_n_n) none x w (constant ⟨2, ![1000, 16]⟩ .f32 0x00000000#32) (ix2 p c) = ∑ k : Fin 96, x (ix2 p k) * w (ix2 k c) :=
  Cert.LibMatmul.matmul_zero_sum1 (Cert.KernelIdeal.dot_S1000x96_S96x16_S1000x16_1_0_0_1_n_n) none 96 (by decide) (by decide) x w (ix2 p c) (fun k => ix2 p k) (fun k => ix2 k c)
    (fun q k hk => k7_hl p c q k hk) (fun q k hk => k7_hr p c q k hk)

/-! ### 50000×2000 by 2000×96 -/

theorem r0_l0 (j : (⟨2, ![50000, 96]⟩ : Shape).Idx) (q : Cert.ReferenceIdeal.dot_S50000x2000_S2000x96_S50000x96_1_0_0_1_n_n.contr.Idx) : ((Cert.ReferenceIdeal.dot_S50000x2000_S2000x96_S50000x96_1_0_0_1_n_n).lhsIdx j q 0 : ℕ) = j 0 := by
  simp [DotDims.lhsIdx, Cert.ReferenceIdeal.dot_S50000x2000_S2000x96_S50000x96_1_0_0_1_n_n]; rfl
theorem r0_r1 (j : (⟨2, ![50000, 96]⟩ : Shape).Idx) (q : Cert.ReferenceIdeal.dot_S50000x2000_S2000x96_S50000x96_1_0_0_1_n_n.contr.Idx) : ((Cert.ReferenceIdeal.dot_S50000x2000_S2000x96_S50000x96_1_0_0_1_n_n).rhsIdx j q 1 : ℕ) = j 1 := by
  simp [DotDims.rhsIdx, Cert.ReferenceIdeal.dot_S50000x2000_S2000x96_S50000x96_1_0_0_1_n_n]; rfl
theorem r0_hl (p : Fin 50000) (c : Fin 96) (q : Cert.ReferenceIdeal.dot_S50000x2000_S2000x96_S50000x96_1_0_0_1_n_n.contr.Idx) (k : Fin 2000) (hk : (q ⟨0, by decide⟩ : ℕ) = k.val) :
    (Cert.ReferenceIdeal.dot_S50000x2000_S2000x96_S50000x96_1_0_0_1_n_n).lhsIdx (ix2 p c) q = ix2 p k := by
  funext a; apply Fin.ext
  match a with
  | ⟨0, _⟩ => exact r0_l0 (ix2 p c) q
  | ⟨1, _⟩ => exact ((Cert.ReferenceIdeal.dot_S50000x2000_S2000x96_S50000x96_1_0_0_1_n_n).lhsIdx_val_of_single (cl := 1) rfl (ix2 p c) q).trans hk
theorem r0_hr (p : Fin 50000) (c : Fin 96) (q : Cert.ReferenceIdeal.dot_S50000x2000_S2000x96_S50000x96_1_0_0_1_n_n.contr.Idx) (k : Fin 2000) (hk : (q ⟨0, by decide⟩ : ℕ) = k.val) :
    (Cert.ReferenceIdeal.dot_S50000x2000_S2000x96_S50000x96_1_0_0_1_n_n).rhsIdx (ix2 p c) q = ix2 k c := by
  funext a; apply Fin.ext
  match a with
  | ⟨0, _⟩ => exact ((Cert.ReferenceIdeal.dot_S50000x2000_S2000x96_S50000x96_1_0_0_1_n_n).rhsIdx_val_of_single (cr := 0) rfl (ix2 p c) q).trans hk
  | ⟨1, _⟩ => exact r0_r1 (ix2 p c) q
/-- The whole-array product, at (p, c), is row p of the left operand against column c. -/
theorem r0_dg {φ₁ φ₂ : FTy} (x : FVec Ideal ⟨2, ![50000, 2000]⟩ φ₁) (w : FVec Ideal ⟨2, ![2000, 96]⟩ φ₂) (p : Fin 50000) (c : Fin 96) :
    Host.dotGeneral (Cert.ReferenceIdeal.dot_S50000x2000_S2000x96_S50000x96_1_0_0_1_n_n) none x w (ix2 p c) = ∑ k : Fin 2000, x (ix2 p k) * w (ix2 k c) :=
  Cert.LibHostDot.dotGeneral_sum1 (Cert.ReferenceIdeal.dot_S50000x2000_S2000x96_S50000x96_1_0_0_1_n_n) none 2000 (by decide) (by decide) x w (ix2 p c) (fun k => ix2 p k) (fun k => ix2 k c)
    (fun q k hk => r0_hl p c q k hk) (fun q k hk => r0_hr p c q k hk)

/-! ### 50000×96 by 96×96 -/

theorem r1_l0 (j : (⟨2, ![50000, 96]⟩ : Shape).Idx) (q : Cert.ReferenceIdeal.dot_S50000x96_S96x96_S50000x96_1_0_0_1_n_n.contr.Idx) : ((Cert.ReferenceIdeal.dot_S50000x96_S96x96_S50000x96_1_0_0_1_n_n).lhsIdx j q 0 : ℕ) = j 0 := by
  simp [DotDims.lhsIdx, Cert.ReferenceIdeal.dot_S50000x96_S96x96_S50000x96_1_0_0_1_n_n]; rfl
theorem r1_r1 (j : (⟨2, ![50000, 96]⟩ : Shape).Idx) (q : Cert.ReferenceIdeal.dot_S50000x96_S96x96_S50000x96_1_0_0_1_n_n.contr.Idx) : ((Cert.ReferenceIdeal.dot_S50000x96_S96x96_S50000x96_1_0_0_1_n_n).rhsIdx j q 1 : ℕ) = j 1 := by
  simp [DotDims.rhsIdx, Cert.ReferenceIdeal.dot_S50000x96_S96x96_S50000x96_1_0_0_1_n_n]; rfl
theorem r1_hl (p : Fin 50000) (c : Fin 96) (q : Cert.ReferenceIdeal.dot_S50000x96_S96x96_S50000x96_1_0_0_1_n_n.contr.Idx) (k : Fin 96) (hk : (q ⟨0, by decide⟩ : ℕ) = k.val) :
    (Cert.ReferenceIdeal.dot_S50000x96_S96x96_S50000x96_1_0_0_1_n_n).lhsIdx (ix2 p c) q = ix2 p k := by
  funext a; apply Fin.ext
  match a with
  | ⟨0, _⟩ => exact r1_l0 (ix2 p c) q
  | ⟨1, _⟩ => exact ((Cert.ReferenceIdeal.dot_S50000x96_S96x96_S50000x96_1_0_0_1_n_n).lhsIdx_val_of_single (cl := 1) rfl (ix2 p c) q).trans hk
theorem r1_hr (p : Fin 50000) (c : Fin 96) (q : Cert.ReferenceIdeal.dot_S50000x96_S96x96_S50000x96_1_0_0_1_n_n.contr.Idx) (k : Fin 96) (hk : (q ⟨0, by decide⟩ : ℕ) = k.val) :
    (Cert.ReferenceIdeal.dot_S50000x96_S96x96_S50000x96_1_0_0_1_n_n).rhsIdx (ix2 p c) q = ix2 k c := by
  funext a; apply Fin.ext
  match a with
  | ⟨0, _⟩ => exact ((Cert.ReferenceIdeal.dot_S50000x96_S96x96_S50000x96_1_0_0_1_n_n).rhsIdx_val_of_single (cr := 0) rfl (ix2 p c) q).trans hk
  | ⟨1, _⟩ => exact r1_r1 (ix2 p c) q
/-- The whole-array product, at (p, c), is row p of the left operand against column c. -/
theorem r1_dg {φ₁ φ₂ : FTy} (x : FVec Ideal ⟨2, ![50000, 96]⟩ φ₁) (w : FVec Ideal ⟨2, ![96, 96]⟩ φ₂) (p : Fin 50000) (c : Fin 96) :
    Host.dotGeneral (Cert.ReferenceIdeal.dot_S50000x96_S96x96_S50000x96_1_0_0_1_n_n) none x w (ix2 p c) = ∑ k : Fin 96, x (ix2 p k) * w (ix2 k c) :=
  Cert.LibHostDot.dotGeneral_sum1 (Cert.ReferenceIdeal.dot_S50000x96_S96x96_S50000x96_1_0_0_1_n_n) none 96 (by decide) (by decide) x w (ix2 p c) (fun k => ix2 p k) (fun k => ix2 k c)
    (fun q k hk => r1_hl p c q k hk) (fun q k hk => r1_hr p c q k hk)

/-! ### 50000×96 by 96×288 -/

theorem r2_l0 (j : (⟨2, ![50000, 288]⟩ : Shape).Idx) (q : Cert.ReferenceIdeal.dot_S50000x96_S96x288_S50000x288_1_0_0_1_n_n.contr.Idx) : ((Cert.ReferenceIdeal.dot_S50000x96_S96x288_S50000x288_1_0_0_1_n_n).lhsIdx j q 0 : ℕ) = j 0 := by
  simp [DotDims.lhsIdx, Cert.ReferenceIdeal.dot_S50000x96_S96x288_S50000x288_1_0_0_1_n_n]; rfl
theorem r2_r1 (j : (⟨2, ![50000, 288]⟩ : Shape).Idx) (q : Cert.ReferenceIdeal.dot_S50000x96_S96x288_S50000x288_1_0_0_1_n_n.contr.Idx) : ((Cert.ReferenceIdeal.dot_S50000x96_S96x288_S50000x288_1_0_0_1_n_n).rhsIdx j q 1 : ℕ) = j 1 := by
  simp [DotDims.rhsIdx, Cert.ReferenceIdeal.dot_S50000x96_S96x288_S50000x288_1_0_0_1_n_n]; rfl
theorem r2_hl (p : Fin 50000) (c : Fin 288) (q : Cert.ReferenceIdeal.dot_S50000x96_S96x288_S50000x288_1_0_0_1_n_n.contr.Idx) (k : Fin 96) (hk : (q ⟨0, by decide⟩ : ℕ) = k.val) :
    (Cert.ReferenceIdeal.dot_S50000x96_S96x288_S50000x288_1_0_0_1_n_n).lhsIdx (ix2 p c) q = ix2 p k := by
  funext a; apply Fin.ext
  match a with
  | ⟨0, _⟩ => exact r2_l0 (ix2 p c) q
  | ⟨1, _⟩ => exact ((Cert.ReferenceIdeal.dot_S50000x96_S96x288_S50000x288_1_0_0_1_n_n).lhsIdx_val_of_single (cl := 1) rfl (ix2 p c) q).trans hk
theorem r2_hr (p : Fin 50000) (c : Fin 288) (q : Cert.ReferenceIdeal.dot_S50000x96_S96x288_S50000x288_1_0_0_1_n_n.contr.Idx) (k : Fin 96) (hk : (q ⟨0, by decide⟩ : ℕ) = k.val) :
    (Cert.ReferenceIdeal.dot_S50000x96_S96x288_S50000x288_1_0_0_1_n_n).rhsIdx (ix2 p c) q = ix2 k c := by
  funext a; apply Fin.ext
  match a with
  | ⟨0, _⟩ => exact ((Cert.ReferenceIdeal.dot_S50000x96_S96x288_S50000x288_1_0_0_1_n_n).rhsIdx_val_of_single (cr := 0) rfl (ix2 p c) q).trans hk
  | ⟨1, _⟩ => exact r2_r1 (ix2 p c) q
/-- The whole-array product, at (p, c), is row p of the left operand against column c. -/
theorem r2_dg {φ₁ φ₂ : FTy} (x : FVec Ideal ⟨2, ![50000, 96]⟩ φ₁) (w : FVec Ideal ⟨2, ![96, 288]⟩ φ₂) (p : Fin 50000) (c : Fin 288) :
    Host.dotGeneral (Cert.ReferenceIdeal.dot_S50000x96_S96x288_S50000x288_1_0_0_1_n_n) none x w (ix2 p c) = ∑ k : Fin 96, x (ix2 p k) * w (ix2 k c) :=
  Cert.LibHostDot.dotGeneral_sum1 (Cert.ReferenceIdeal.dot_S50000x96_S96x288_S50000x288_1_0_0_1_n_n) none 96 (by decide) (by decide) x w (ix2 p c) (fun k => ix2 p k) (fun k => ix2 k c)
    (fun q k hk => r2_hl p c q k hk) (fun q k hk => r2_hr p c q k hk)

/-! ### 50000×96 by 96×16 -/

theorem r7_l0 (j : (⟨2, ![50000, 16]⟩ : Shape).Idx) (q : Cert.ReferenceIdeal.dot_S50000x96_S96x16_S50000x16_1_0_0_1_n_n.contr.Idx) : ((Cert.ReferenceIdeal.dot_S50000x96_S96x16_S50000x16_1_0_0_1_n_n).lhsIdx j q 0 : ℕ) = j 0 := by
  simp [DotDims.lhsIdx, Cert.ReferenceIdeal.dot_S50000x96_S96x16_S50000x16_1_0_0_1_n_n]; rfl
theorem r7_r1 (j : (⟨2, ![50000, 16]⟩ : Shape).Idx) (q : Cert.ReferenceIdeal.dot_S50000x96_S96x16_S50000x16_1_0_0_1_n_n.contr.Idx) : ((Cert.ReferenceIdeal.dot_S50000x96_S96x16_S50000x16_1_0_0_1_n_n).rhsIdx j q 1 : ℕ) = j 1 := by
  simp [DotDims.rhsIdx, Cert.ReferenceIdeal.dot_S50000x96_S96x16_S50000x16_1_0_0_1_n_n]; rfl
theorem r7_hl (p : Fin 50000) (c : Fin 16) (q : Cert.ReferenceIdeal.dot_S50000x96_S96x16_S50000x16_1_0_0_1_n_n.contr.Idx) (k : Fin 96) (hk : (q ⟨0, by decide⟩ : ℕ) = k.val) :
    (Cert.ReferenceIdeal.dot_S50000x96_S96x16_S50000x16_1_0_0_1_n_n).lhsIdx (ix2 p c) q = ix2 p k := by
  funext a; apply Fin.ext
  match a with
  | ⟨0, _⟩ => exact r7_l0 (ix2 p c) q
  | ⟨1, _⟩ => exact ((Cert.ReferenceIdeal.dot_S50000x96_S96x16_S50000x16_1_0_0_1_n_n).lhsIdx_val_of_single (cl := 1) rfl (ix2 p c) q).trans hk
theorem r7_hr (p : Fin 50000) (c : Fin 16) (q : Cert.ReferenceIdeal.dot_S50000x96_S96x16_S50000x16_1_0_0_1_n_n.contr.Idx) (k : Fin 96) (hk : (q ⟨0, by decide⟩ : ℕ) = k.val) :
    (Cert.ReferenceIdeal.dot_S50000x96_S96x16_S50000x16_1_0_0_1_n_n).rhsIdx (ix2 p c) q = ix2 k c := by
  funext a; apply Fin.ext
  match a with
  | ⟨0, _⟩ => exact ((Cert.ReferenceIdeal.dot_S50000x96_S96x16_S50000x16_1_0_0_1_n_n).rhsIdx_val_of_single (cr := 0) rfl (ix2 p c) q).trans hk
  | ⟨1, _⟩ => exact r7_r1 (ix2 p c) q
/-- The whole-array product, at (p, c), is row p of the left operand against column c. -/
theorem r7_dg {φ₁ φ₂ : FTy} (x : FVec Ideal ⟨2, ![50000, 96]⟩ φ₁) (w : FVec Ideal ⟨2, ![96, 16]⟩ φ₂) (p : Fin 50000) (c : Fin 16) :
    Host.dotGeneral (Cert.ReferenceIdeal.dot_S50000x96_S96x16_S50000x16_1_0_0_1_n_n) none x w (ix2 p c) = ∑ k : Fin 96, x (ix2 p k) * w (ix2 k c) :=
  Cert.LibHostDot.dotGeneral_sum1 (Cert.ReferenceIdeal.dot_S50000x96_S96x16_S50000x16_1_0_0_1_n_n) none 96 (by decide) (by decide) x w (ix2 p c) (fun k => ix2 p k) (fun k => ix2 k c)
    (fun q k hk => r7_hl p c q k hk) (fun q k hk => r7_hr p c q k hk)

end Cert.Dots

end
-- ==== Proof.Pay.lean ====
/-
  What each kernel body computes on one row tile, as the row-by-row mathematics of Rows.lean at 1000 rows.

  A body loads its row tile(s) and its whole weight and bias arrays, rounds the matrix operands to a narrower float
  format (the identity on the extended reals), multiplies into a zero accumulator, adds the bias row broadcast over
  the tile, and — for the gated step — slices the two 288-wide gate tiles into three 96-wide parts each and mixes
  them pointwise. Read at an index (p, c) every one of these steps is the corresponding step of the row formulas.
-/
import proofs.«110150_j41979010351140_1_alg».proof.Proof.Gen.KernelIdeal.Skeleton
import proofs.«110150_j41979010351140_1_alg».proof.Proof.Dots
import Idealize.ShloMosaic.Lib.ValueLayout
import Idealize.ShloMosaic.Lib.Pipeline.Value

noncomputable section

namespace Cert.Pay

open Idealize.ShloMosaic Idealize.ShloMosaic.ValueIdx Cert.KernelIdeal Cert.KernelIdeal.Gen Cert.Rows

/-! ## A bias row broadcast over a tile: [C] → [1, C] → [1000, C] reads b[c] at (p, c) -/

theorem bias96 (b : Vec Ideal S96 .f32) (p : Fin 1000) (c : Fin 96) :
    broadcastTo S1000x96 (shapeCast S1x96 b shapeCasts_S96_S1x96) broadcasts_S1x96_S1000x96 (ix2 p c) = b (ix1 c) :=
  (broadcastTo_1b_ab_apply _ _ p c).trans (shapeCast_a_1a_apply b _ 0 c)

theorem bias288 (b : Vec Ideal S288 .f32) (p : Fin 1000) (c : Fin 288) :
    broadcastTo S1000x288 (shapeCast S1x288 b shapeCasts_S288_S1x288) broadcasts_S1x288_S1000x288 (ix2 p c) = b (ix1 c) :=
  (broadcastTo_1b_ab_apply _ _ p c).trans (shapeCast_a_1a_apply b _ 0 c)

theorem bias16 (b : Vec Ideal S16 .f32) (p : Fin 1000) (c : Fin 16) :
    broadcastTo S1000x16 (shapeCast S1x16 b shapeCasts_S16_S1x16) broadcasts_S1x16_S1000x16 (ix2 p c) = b (ix1 c) :=
  (broadcastTo_1b_ab_apply _ _ p c).trans (shapeCast_a_1a_apply b _ 0 c)

/-- A 96-wide column slice of a 288-wide tile at column offset `off`, read at (p, q), is the tile at (p, off + q). -/
theorem slice_at (off : ℕ) (hoff : off + 96 ≤ 288) (G : Vec Ideal S1000x288 .f32) (hS : S1000x288.Slices ![0, off] S1000x96)
    (p : Fin 1000) (q : Fin 96) :
    extractStridedSlice S1000x96 ![0, off] G hS (ix2 p q) = G (ix2 p (⟨off + q.val, by omega⟩ : Fin 288)) :=
  extractStridedSlice_apply _ G hS (ix2 p q) _ (fun a => by
    match a with
    | ⟨0, _⟩ => exact (Nat.zero_add _).symm
    | ⟨1, _⟩ => rfl)

/-- One entry of a gate tile: row p of the operand tile against column c of the weights, plus the bias at c. -/
theorem gate_at (a : Vec Ideal S1000x96 .f32) (wT : Vec Ideal S96x288 .f32) (bi : Vec Ideal S288 .f32) (p : Fin 1000) (c : Fin 288) :
    (∑ k : Fin 96, (truncf .bf16 a bitsLt_bf16_f32 : FVec Ideal S1000x96 .bf16) (ix2 p k) * (truncf .bf16 wT bitsLt_bf16_f32 : FVec Ideal S96x288 .bf16) (ix2 k c))
        + broadcastTo S1000x288 (shapeCast S1x288 bi shapeCasts_S288_S1x288) broadcasts_S1x288_S1000x288 (ix2 p c)
      = affRow (rowAt a p) wT bi c := by
  rw [bias288 bi p c]; rfl

/-! ## The four bodies -/

/-- The input layer's tile: x·w + b. -/
theorem pay0_eq (x : Vec Ideal S1000x2000 .f32) (w : Vec Ideal S2000x96 .f32) (b : Vec Ideal S96 .f32) :
    k0_pay1 (F := Ideal) x w b = affine (R := 1000) (K := 2000) (C := 96) x w b := by
  funext j
  obtain ⟨p, c, rfl⟩ : ∃ (p : Fin 1000) (c : Fin 96), j = ix2 p c := ⟨j 0, j 1, eq_ix2 j⟩
  unfold k0_pay1
  simp only [addf_apply, Cert.Dots.k0_mm]
  rw [bias96 b p c]
  rfl

/-- A layer's node transform on a tile: h·w. -/
theorem pay1_eq (x : Vec Ideal S1000x96 .f32) (w : Vec Ideal S96x96 .f32) :
    k1_pay1 (F := Ideal) x w = prod (R := 1000) (K := 96) (C := 96) x w := by
  funext j
  obtain ⟨p, c, rfl⟩ : ∃ (p : Fin 1000) (c : Fin 96), j = ix2 p c := ⟨j 0, j 1, eq_ix2 j⟩
  unfold k1_pay1
  simp only [shapeCast_self, Cert.Dots.k1_mm]
  rfl

/-- The output layer's tile: h·w + b. -/
theorem pay7_eq (x : Vec Ideal S1000x96 .f32) (w : Vec Ideal S96x16 .f32) (b : Vec Ideal S16 .f32) :
    k7_pay1 (F := Ideal) x w b = affine (R := 1000) (K := 96) (C := 16) x w b := by
  funext j
  obtain ⟨p, c, rfl⟩ : ∃ (p : Fin 1000) (c : Fin 16), j = ix2 p c := ⟨j 0, j 1, eq_ix2 j⟩
  unfold k7_pay1
  simp only [shapeCast_self, addf_apply, Cert.Dots.k7_mm]
  rw [bias16 b p c]
  rfl

/-- The gated step on a tile. -/
theorem pay2_eq (a h : Vec Ideal S1000x96 .f32) (wT uT : Vec Ideal S96x288 .f32) (bi bh : Vec Ideal S288 .f32) :
    k2_pay1 (F := Ideal) a h wT uT bi bh h = gruOut (R := 1000) a h wT uT bi bh := by
  funext j
  obtain ⟨p, q, rfl⟩ : ∃ (p : Fin 1000) (q : Fin 96), j = ix2 p q := ⟨j 0, j 1, eq_ix2 j⟩
  unfold k2_pay1
  simp only [shapeCast_self, addf_apply, mulf_apply, subf_apply, tanh, logistic, broadcast_apply,
    slice_at 0 (by omega), slice_at 96 (by omega), slice_at 192 (by omega), Cert.Dots.k2_mm]
  rw [gate_at a wT bi p ⟨0 + q.val, by omega⟩, gate_at a wT bi p ⟨96 + q.val, by omega⟩, gate_at a wT bi p ⟨192 + q.val, by omega⟩,
    gate_at h uT bh p ⟨0 + q.val, by omega⟩, gate_at h uT bh p ⟨96 + q.val, by omega⟩, gate_at h uT bh p ⟨192 + q.val, by omega⟩]
  rfl

/-- The second and third layers' bodies are the first layer's, word for word. -/
theorem pay3_eq : @k3_pay1 Ideal _ = @k1_pay1 Ideal _ := rfl
theorem pay5_eq : @k5_pay1 Ideal _ = @k1_pay1 Ideal _ := rfl
theorem pay4_eq : @k4_pay1 Ideal _ = @k2_pay1 Ideal _ := rfl
theorem pay6_eq : @k6_pay1 Ideal _ = @k2_pay1 Ideal _ := rfl

end Cert.Pay

end
-- ==== Proof.RowTiles.lean ====
/-
  From a result's row tile to the result's rows. Each lemma says: if a 1000-row tile of the operands holds the
  operands' rows at the same array rows (row y₀ of the tile is row i₀ of the array), then the row formula on the tile
  at (y₀, y₁) is the row formula on the whole arrays at (i₀, y₁). Stated over plain matrices so that a window's
  block can be handed in afterwards.
-/
import proofs.«110150_j41979010351140_1_alg».proof.Proof.Rows

noncomputable section

namespace Cert.Rows

open Idealize.ShloMosaic Idealize.ShloMosaic.ValueIdx

/-- The zero offset of a rank-2 (rank-1) tile, as the constant function. -/
theorem hz2 : (![0, 0] : Fin 2 → Nat) = fun _ => 0 := funext fun a => by fin_cases a <;> rfl
theorem hz1 : (![0] : Fin 1 → Nat) = fun _ => 0 := funext fun a => by fin_cases a <;> rfl

theorem prod_tile {K C : ℕ} (X : Mat 50000 K) (W : Mat K C) (xb : Mat 1000 K) (wb : Mat K C)
    (y : (⟨2, ![1000, C]⟩ : Shape).Idx) (i : (⟨2, ![50000, C]⟩ : Shape).Idx)
    (hx : ∀ k : Fin K, xb (ix2 (y 0) k) = X (ix2 (i 0) k)) (hw : wb = W) (hc : (y 1).val = (i 1).val) :
    prod xb wb y = prod X W i := by
  subst hw
  exact prod_congr xb X wb y i (funext hx) (Fin.ext hc)

theorem affine_tile {K C : ℕ} (X : Mat 50000 K) (W : Mat K C) (B : Vec1 C) (xb : Mat 1000 K) (wb : Mat K C) (bb : Vec1 C)
    (y : (⟨2, ![1000, C]⟩ : Shape).Idx) (i : (⟨2, ![50000, C]⟩ : Shape).Idx)
    (hx : ∀ k : Fin K, xb (ix2 (y 0) k) = X (ix2 (i 0) k)) (hw : wb = W) (hb : bb = B) (hc : (y 1).val = (i 1).val) :
    affine xb wb bb y = affine X W B i := by
  subst hw; subst hb
  exact affine_congr xb X wb bb y i (funext hx) (Fin.ext hc)

theorem gruOut_tile (A H : Mat 50000 96) (WT UT : Mat 96 288) (BI BH : Vec1 288) (ab hb : Mat 1000 96) (wb ub : Mat 96 288)
    (bib bhb : Vec1 288) (y : (⟨2, ![1000, 96]⟩ : Shape).Idx) (i : (⟨2, ![50000, 96]⟩ : Shape).Idx)
    (ha : ∀ k : Fin 96, ab (ix2 (y 0) k) = A (ix2 (i 0) k)) (hh : ∀ k : Fin 96, hb (ix2 (y 0) k) = H (ix2 (i 0) k))
    (hw : wb = WT) (hu : ub = UT) (hbi : bib = BI) (hbh : bhb = BH) (hc : (y 1).val = (i 1).val) :
    gruOut ab hb wb ub bib bhb y = gruOut A H WT UT BI BH i := by
  subst hw; subst hu; subst hbi; subst hbh
  exact gruOut_congr ab hb A H wb ub bib bhb y i (funext ha) (funext hh) (Fin.ext hc)

end Cert.Rows

end
-- ==== Proof.Tile0.lean ====
/-
  Region 0 (the input layer), from row tiles to the whole array.

  The grid has 50 points. Point t stages rows 1000·t … 1000·t + 999 of each row-tiled operand and every other operand
  whole, computes on the tile the 2000-wide input rows against the whole 2000×96 weight matrix, plus the bias row, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0 :=
  (by decide +kernel : ∀ t : Fin grid0.N, _)

/-- Every row block is some point's. -/
theorem onto0 : ∀ q0 : Fin 50, ∃ t : Fin cfg0.N, win0_3.index t = ![q0.val, 0] :=
  (by decide +kernel : ∀ q0 : Fin 50, ∃ t : Fin grid0.N, win0_3.index t = ![q0.val, 0])

/-- What point t writes back is block t of the whole-array function of the arrays the region finds. -/
theorem flushed0 (c : Dev nD) (t : Fin cfg0.N) :
    (dat0 V c).flushed 3 t = ((cfg0.win 3).blk t).view.read (Elt Ideal) (affine (R := 50000) (K := 2000) (C := 96) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S1000x2000) hz2, View.ld_unit_zero (S := S2000x96) hz2, View.ld_unit_zero (S := S96) hz1]
  rw [Cert.Pay.pay0_eq]
  obtain ⟨e0, e1, e2, e3, e4, e5⟩ := idx0 t
  funext y
  refine affine_tile (V c main_arg0) (V c main_arg2) (V c main_arg3) (iblk0 V c 0 t) (iblk0 V c 1 t) (iblk0 V c 2 t) y (((cfg0.win 3).blk t).view.emb y) ?_ ?_ ?_ ?_
  · intro k
    show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 1000 + 1 * (y 0).val = win0_3.index t (0 : Fin 2) * 1000 + 1 * (y 0).val; omega
    | ⟨1, _⟩ => show win0_0.index t (1 : Fin 2) * 2000 + 1 * k.val = k.val; omega
  · funext z
    show V c main_arg2 (((cfg0.win 1).blk t).view.emb z) = V c main_arg2 z
    refine congrArg (V c main_arg2) (funext fun a => Fin.ext ?_)
    match a with
    | ⟨0, _⟩ => show win0_1.index t (0 : Fin 2) * 2000 + 1 * (z 0).val = (z 0).val; omega
    | ⟨1, _⟩ => show win0_1.index t (1 : Fin 2) * 96 + 1 * (z 1).val = (z 1).val; omega
  · funext z
    show V c main_arg3 (((cfg0.win 2).blk t).view.emb z) = V c main_arg3 z
    refine congrArg (V c main_arg3) (funext fun a => Fin.ext ?_)
    match a with
    | ⟨0, _⟩ => show win0_2.index t (0 : Fin 1) * 96 + 1 * (z 0).val = (z 0).val; omega
  · show (y 1).val = win0_3.index t (1 : Fin 2) * 96 + 1 * (y 1).val; omega

/-- An index lies in point t's block iff each coordinate lies in the block's range. -/
theorem mem_blk0 (t : Fin cfg0.N) (i : S50000x96.Idx) :
    i ∈ ((cfg0.win 3).blk t).view.set ↔ ∀ a : Fin 2, win0_3.index t a * S1000x96.size a ≤ (i a).val ∧ (i a).val < win0_3.index t a * S1000x96.size a + S1000x96.size a := by
  show i ∈ ((View.whole main_v0).slice (win0_3.rect t)).set ↔ _
  rw [View.set_slice_whole, Rect.mem_set_unit]
  exact Iff.rfl

/-- Row r lies in block r / 1000. -/
theorem cover0 (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ := onto0 ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 96 ≤ (i 1).val ∧ (i 1).val < win0_3.index t (1 : Fin 2) * 96 + 96; omega

/-- The result array after the region: the whole-array function of the arrays as the region found them. -/
theorem final0 (c : Dev nD) :
    (dat0 V c).arrAt 3 cfg0.N = affine (R := 50000) (K := 2000) (C := 96) (V c main_arg0) (V c main_arg2) (V c main_arg3) :=
  (dat0 V c).arrAt_eq_of_cover 3 _ (fun t _ => flushed0 V c t) (cover0)

end Cert.KernelIdeal.Tiles

end
-- ==== Proof.Tile1.lean ====
/-
  Region 1 (the first layer's node transform), from row tiles to the whole array.

  The grid has 50 points. Point t stages rows 1000·t … 1000·t + 999 of each row-tiled operand and every other operand
  whole, computes on the tile the state's rows against the whole 96×96 layer matrix, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block is some point's. -/
theorem onto1 : ∀ q0 : Fin 50, ∃ t : Fin cfg1.N, win1_2.index t = ![q0.val, 0] :=
  (by decide +kernel : ∀ q0 : Fin 50, ∃ t : Fin grid1.N, win1_2.index t = ![q0.val, 0])

/-- What point t writes back is block t of the whole-array function of the arrays the region finds. -/
theorem flushed1 (c : Dev nD) (t : Fin cfg1.N) :
    (dat1 V c).flushed 2 t = ((cfg1.win 2).blk t).view.read (Elt Ideal) (prod (R := 50000) (K := 96) (C := 96) (V c main_v0) (V c main_v8)) := by
  show (cfg1.win 2).cut (grid1.coords t) ((dat1 V c).after 2 t) = _
  rw [after1_2]
  unfold out1_2
  rw [View.canon_unit_zero hz2]
  simp only [View.ld_unit_zero (S := S1000x96) hz2, View.ld_unit_zero (S := S96x96) hz2]
  rw [Cert.Pay.pay1_eq]
  obtain ⟨e0, e1, e2, e3, e4⟩ := idx1 t
  funext y
  refine prod_tile (V c main_v0) (V c main_v8) (iblk1 V c 0 t) (iblk1 V c 1 t) y (((cfg1.win 2).blk t).view.emb y) ?_ ?_ ?_
  · intro k
    show V c main_v0 (((cfg1.win 0).blk t).view.emb (ix2 (y 0) k)) = V c main_v0 (ix2 ((((cfg1.win 2).blk t).view.emb y) 0) k)
    refine congrArg (V c main_v0) (funext fun a => Fin.ext ?_)
    match a with
    | ⟨0, _⟩ => show win1_0.index t (0 : Fin 2) * 1000 + 1 * (y 0).val = win1_2.index t (0 : Fin 2) * 1000 + 1 * (y 0).val; omega
    | ⟨1, _⟩ => show win1_0.index t (1 : Fin 2) * 96 + 1 * k.val = k.val; omega
  · funext z
    show V c main_v8 (((cfg1.win 1).blk t).view.emb z) = V c main_v8 z
    refine congrArg (V c main_v8) (funext fun a => Fin.ext ?_)
    match a with
    | ⟨0, _⟩ => show win1_1.index t (0 : Fin 2) * 96 + 1 * (z 0).val = (z 0).val; omega
    | ⟨1, _⟩ => show win1_1.index t (1 : Fin 2) * 96 + 1 * (z 1).val = (z 1).val; omega
  · show (y 1).val = win1_2.index t (1 : Fin 2) * 96 + 1 * (y 1).val; omega

/-- An index lies in point t's block iff each coordinate lies in the block's range. -/
theorem mem_blk1 (t : Fin cfg1.N) (i : S50000x96.Idx) :
    i ∈ ((cfg1.win 2).blk t).view.set ↔ ∀ a : Fin 2, win1_2.index t a * S1000x96.size a ≤ (i a).val ∧ (i a).val < win1_2.index t a * S1000x96.size a + S1000x96.size a := by
  show i ∈ ((View.whole main_v9).slice (win1_2.rect t)).set ↔ _
  rw [View.set_slice_whole, Rect.mem_set_unit]
  exact Iff.rfl

/-- Row r lies in block r / 1000. -/
theorem cover1 (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  obtain ⟨t, ht⟩ := onto1 ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 96 ≤ (i 1).val ∧ (i 1).val < win1_2.index t (1 : Fin 2) * 96 + 96; omega

/-- The result array after the region: the whole-array function of the arrays as the region found them. -/
theorem final1 (c : Dev nD) :
    (dat1 V c).arrAt 2 cfg1.N = prod (R := 50000) (K := 96) (C := 96) (V c main_v0) (V c main_v8) :=
  (dat1 V c).arrAt_eq_of_cover 2 _ (fun t _ => flushed1 V c t) (cover1)

end Cert.KernelIdeal.Tiles

end
-- ==== Proof.Tile2.lean ====
/-
  Region 2 (the first layer's gated step), from row tiles to the whole array.

  The grid has 50 points. Point t stages rows 1000·t … 1000·t + 999 of each row-tiled operand and every other operand
  whole, computes on the tile the aggregated messages' rows and the state's rows against the two whole 96×288 gate matrices and bias rows, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx2 : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 1) = 0
    ∧ win2_6.index t (1 : Fin 2) = 0 :=
  (by decide +kernel : ∀ t : Fin grid2.N, _)

/-- Every row block is some point's. -/
theorem onto2 : ∀ q0 : Fin 50, ∃ t : Fin cfg2.N, win2_6.index t = ![q0.val, 0] :=
  (by decide +kernel : ∀ q0 : Fin 50, ∃ t : Fin grid2.N, win2_6.index t = ![q0.val, 0])

/-- What point t writes back is block t of the whole-array function of the arrays the region finds. -/
theorem flushed2 (c : Dev nD) (t : Fin cfg2.N) :
    (dat2 V c).flushed 6 t = ((cfg2.win 6).blk t).view.read (Elt Ideal) (gruOut (R := 50000) (V c main_v19) (V c main_v0) (V c main_v5) (V c main_v6) (V c main_arg7) (V c main_arg8)) := by
  show (cfg2.win 6).cut (grid2.coords t) ((dat2 V c).after 6 t) = _
  rw [after2_6]
  unfold out2_6
  rw [View.canon_unit_zero hz2]
  simp only [View.ld_unit_zero (S := S1000x96) hz2, View.ld_unit_zero (S := S96x288) hz2, View.ld_unit_zero (S := S288) hz1]
  rw [Cert.Pay.pay2_eq]
  obtain ⟨e0, e1, e2, e3, e4, e5, e6, e7, e8, e9, e10⟩ := idx2 t
  funext y
  refine gruOut_tile (V c main_v19) (V c main_v0) (V c main_v5) (V c main_v6) (V c main_arg7) (V c main_arg8) (iblk2 V c 0 t) (iblk2 V c 1 t) (iblk2 V c 2 t) (iblk2 V c 3 t) (iblk2 V c 4 t) (iblk2 V c 5 t) y (((cfg2.win 6).blk t).view.emb y) ?_ ?_ ?_ ?_ ?_ ?_ ?_
  · intro k
    show V c main_v19 (((cfg2.win 0).blk t).view.emb (ix2 (y 0) k)) = V c main_v19 (ix2 ((((cfg2.win 6).blk t).view.emb y) 0) k)
    refine congrArg (V c main_v19) (funext fun a => Fin.ext ?_)
    match a with
    | ⟨0, _⟩ => show win2_0.index t (0 : Fin 2) * 1000 + 1 * (y 0).val = win2_6.index t (0 : Fin 2) * 1000 + 1 * (y 0).val; omega
    | ⟨1, _⟩ => show win2_0.index t (1 : Fin 2) * 96 + 1 * k.val = k.val; omega
  · intro k
    show V c main_v0 (((cfg2.win 1).blk t).view.emb (ix2 (y 0) k)) = V c main_v0 (ix2 ((((cfg2.win 6).blk t).view.emb y) 0) k)
    refine congrArg (V c main_v0) (funext fun a => Fin.ext ?_)
    match a with
    | ⟨0, _⟩ => show win2_1.index t (0 : Fin 2) * 1000 + 1 * (y 0).val = win2_6.index t (0 : Fin 2) * 1000 + 1 * (y 0).val; omega
    | ⟨1, _⟩ => show win2_1.index t (1 : Fin 2) * 96 + 1 * k.val = k.val; omega
  · funext z
    show V c main_v5 (((cfg2.win 2).blk t).view.emb z) = V c main_v5 z
    refine congrArg (V c main_v5) (funext fun a => Fin.ext ?_)
    match a with
    | ⟨0, _⟩ => show win2_2.index t (0 : Fin 2) * 96 + 1 * (z 0).val = (z 0).val; omega
    | ⟨1, _⟩ => show win2_2.index t (1 : Fin 2) * 288 + 1 * (z 1).val = (z 1).val; omega
  · funext z
    show V c main_v6 (((cfg2.win 3).blk t).view.emb z) = V c main_v6 z
    refine congrArg (V c main_v6) (funext fun a => Fin.ext ?_)
    match a with
    | ⟨0, _⟩ => show win2_3.index t (0 : Fin 2) * 96 + 1 * (z 0).val = (z 0).val; omega
    | ⟨1, _⟩ => show win2_3.index t (1 : Fin 2) * 288 + 1 * (z 1).val = (z 1).val; omega
  · funext z
    show V c main_arg7 (((cfg2.win 4).blk t).view.emb z) = V c main_arg7 z
    refine congrArg (V c main_arg7) (funext fun a => Fin.ext ?_)
    match a with
    | ⟨0, _⟩ => show win2_4.index t (0 : Fin 1) * 288 + 1 * (z 0).val = (z 0).val; omega
  · funext z
    show V c main_arg8 (((cfg2.win 5).blk t).view.emb z) = V c main_arg8 z
    refine congrArg (V c main_arg8) (funext fun a => Fin.ext ?_)
    match a with
    | ⟨0, _⟩ => show win2_5.index t (0 : Fin 1) * 288 + 1 * (z 0).val = (z 0).val; omega
  · show (y 1).val = win2_6.index t (1 : Fin 2) * 96 + 1 * (y 1).val; omega

/-- An index lies in point t's block iff each coordinate lies in the block's range. -/
theorem mem_blk2 (t : Fin cfg2.N) (i : S50000x96.Idx) :
    i ∈ ((cfg2.win 6).blk t).view.set ↔ ∀ a : Fin 2, win2_6.index t a * S1000x96.size a ≤ (i a).val ∧ (i a).val < win2_6.index t a * S1000x96.size a + S1000x96.size a := by
  show i ∈ ((View.whole main_v20).slice (win2_6.rect t)).set ↔ _
  rw [View.set_slice_whole, Rect.mem_set_unit]
  exact Iff.rfl

/-- Row r lies in block r / 1000. -/
theorem cover2 (i : S50000x96.Idx) : ∃ t : Fin cfg2.N, (cfg2.win 6).flush t = true ∧ i ∈ ((cfg2.win 6).blk t).view.set := by
  have hi0 : (i 0).val < 50000 := (i 0).isLt
  have hi1 : (i 1).val < 96 := (i 1).isLt
  obtain ⟨t, ht⟩ := onto2 ⟨(i 0).val / 1000, by omega⟩
  have q0 : win2_6.index t (0 : Fin 2) = (i 0).val / 1000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 96 ≤ (i 1).val ∧ (i 1).val < win2_6.index t (1 : Fin 2) * 96 + 96; omega

/-- The result array after the region: the whole-array function of the arrays as the region found them. -/
theorem final2 (c : Dev nD) :
    (dat2 V c).arrAt 6 cfg2.N = gruOut (R := 50000) (V c main_v19) (V c main_v0) (V c main_v5) (V c main_v6) (V c main_arg7) (V c main_arg8) :=
  (dat2 V c).arrAt_eq_of_cover 6 _ (fun t _ => flushed2 V c t) (cover2)

end Cert.KernelIdeal.Tiles

end
-- ==== Proof.Tile3.lean ====
/-
  Region 3 (the second layer's node transform), from row tiles to the whole array.

  The grid has 50 points. Point t stages rows 1000·t … 1000·t + 999 of each row-tiled operand and every other operand
  whole, computes on the tile the state's rows against the whole 96×96 layer matrix, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every row block is some point's. -/
theorem onto3 : ∀ q0 : Fin 50, ∃ t : Fin cfg3.N, win3_2.index t = ![q0.val, 0] :=
  (by decide +kernel : ∀ q0 : Fin 50, ∃ t : Fin grid3.N, win3_2.index t = ![q0.val, 0])

/-- What point t writes back is block t of the whole-array function of the arrays the region finds. -/
theorem flushed3 (c : Dev nD) (t : Fin cfg3.N) :
    (dat3 V c).flushed 2 t = ((cfg3.win 2).blk t).view.read (Elt Ideal) (prod (R := 50000) (K := 96) (C := 96) (V c main_v20) (V c main_v22)) := by
  show (cfg3.win 2).cut (grid3.coords t) ((dat3 V c).after 2 t) = _
  rw [after3_2]
  unfold out3_2
  rw [View.canon_unit_zero hz2]
  simp only [View.ld_unit_zero (S := S1000x96) hz2, View.ld_unit_zero (S := S96x96) hz2]
  rw [Cert.Pay.pay3_eq, Cert.Pay.pay1_eq]
  obtain ⟨e0, e1, e2, e3, e4⟩ := idx3 t
  funext y
  refine prod_tile (V c main_v20) (V c main_v22) (iblk3 V c 0 t) (iblk3 V c 1 t) y (((cfg3.win 2).blk t).view.emb y) ?_ ?_ ?_
  · intro k
    show V c main_v20 (((cfg3.win 0).blk t).view.emb (ix2 (y 0) k)) = V c main_v20 (ix2 ((((cfg3.win 2).blk t).view.emb y) 0) k)
    refine congrArg (V c main_v20) (funext fun a => Fin.ext ?_)
    match a with
    | ⟨0, _⟩ => show win3_0.index t (0 : Fin 2) * 1000 + 1 * (y 0).val = win3_2.index t (0 : Fin 2) * 1000 + 1 * (y 0).val; omega
    | ⟨1, _⟩ => show win3_0.index t (1 : Fin 2) * 96 + 1 * k.val = k.val; omega
  · funext z
    show V c main_v22 (((cfg3.win 1).blk t).view.emb z) = V c main_v22 z
    refine congrArg (V c main_v22) (funext fun a => Fin.ext ?_)
    match a with
    | ⟨0, _⟩ => show win3_1.index t (0 : Fin 2) * 96 + 1 * (z 0).val = (z 0).val; omega
    | ⟨1, _⟩ => show win3_1.index t (1 : Fin 2) * 96 + 1 * (z 1).val = (z 1).val; omega
  · show (y 1).val = win3_2.index t (1 : Fin 2) * 96 + 1 * (y 1).val; omega

/-- An index lies in point t's block iff each coordinate lies in the block's range. -/
theorem mem_blk3 (t : Fin cfg3.N) (i : S50000x96.Idx) :
    i ∈ ((cfg3.win 2).blk t).view.set ↔ ∀ a : Fin 2, win3_2.index t a * S1000x96.size a ≤ (i a).val ∧ (i a).val < win3_2.index t a * S1000x96.size a + S1000x96.size a := by
  show i ∈ ((View.whole main_v23).slice (win3_2.rect t)).set ↔ _
  rw [View.set_slice_whole, Rect.mem_set_unit]
  exact Iff.rfl

/-- Row r lies in block r / 1000. -/
theorem cover3 (i : S50000x96.Idx) : ∃ t : Fin cfg3.N, (cfg3.win 2).flush t = true ∧ i ∈ ((cfg3.win 2).blk t).view.set := by
  have hi0 : (i 0).val < 50000 := (i 0).isLt
  have hi1 : (i 1).val < 96 := (i 1).isLt
  obtain ⟨t, ht⟩ := onto3 ⟨(i 0).val / 1000, by omega⟩
  have q0 : win3_2.index t (0 : Fin 2) = (i 0).val / 1000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 96 ≤ (i 1).val ∧ (i 1).val < win3_2.index t (1 : Fin 2) * 96 + 96; omega

/-- The result array after the region: the whole-array function of the arrays as the region found them. -/
theorem final3 (c : Dev nD) :
    (dat3 V c).arrAt 2 cfg3.N = prod (R := 50000) (K := 96) (C := 96) (V c main_v20) (V c main_v22) :=
  (dat3 V c).arrAt_eq_of_cover 2 _ (fun t _ => flushed3 V c t) (cover3)

end Cert.KernelIdeal.Tiles

end
-- ==== Proof.Tile4.lean ====
/-
  Region 4 (the second layer's gated step), from row tiles to the whole array.

  The grid has 50 points. Point t stages rows 1000·t … 1000·t + 999 of each row-tiled operand and every other operand
  whole, computes on the tile the aggregated messages' rows and the state's rows against the two whole 96×288 gate matrices and bias rows, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx4 : ∀ t : Fin cfg4.N, win4_0.index t (0 : Fin 2) = win4_6.index t (0 : Fin 2)
    ∧ win4_0.index t (1 : Fin 2) = 0
    ∧ win4_1.index t (0 : Fin 2) = win4_6.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 1) = 0
    ∧ win4_5.index t (0 : Fin 1) = 0
    ∧ win4_6.index t (1 : Fin 2) = 0 :=
  (by decide +kernel : ∀ t : Fin grid4.N, _)

/-- Every row block is some point's. -/
theorem onto4 : ∀ q0 : Fin 50, ∃ t : Fin cfg4.N, win4_6.index t = ![q0.val, 0] :=
  (by decide +kernel : ∀ q0 : Fin 50, ∃ t : Fin grid4.N, win4_6.index t = ![q0.val, 0])

/-- What point t writes back is block t of the whole-array function of the arrays the region finds. -/
theorem flushed4 (c : Dev nD) (t : Fin cfg4.N) :
    (dat4 V c).flushed 6 t = ((cfg4.win 6).blk t).view.read (Elt Ideal) (gruOut (R := 50000) (V c main_v33) (V c main_v20) (V c main_v5) (V c main_v6) (V c main_arg7) (V c main_arg8)) := by
  show (cfg4.win 6).cut (grid4.coords t) ((dat4 V c).after 6 t) = _
  rw [after4_6]
  unfold out4_6
  rw [View.canon_unit_zero hz2]
  simp only [View.ld_unit_zero (S := S1000x96) hz2, View.ld_unit_zero (S := S96x288) hz2, View.ld_unit_zero (S := S288) hz1]
  rw [Cert.Pay.pay4_eq, Cert.Pay.pay2_eq]
  obtain ⟨e0, e1, e2, e3, e4, e5, e6, e7, e8, e9, e10⟩ := idx4 t
  funext y
  refine gruOut_tile (V c main_v33) (V c main_v20) (V c main_v5) (V c main_v6) (V c main_arg7) (V c main_arg8) (iblk4 V c 0 t) (iblk4 V c 1 t) (iblk4 V c 2 t) (iblk4 V c 3 t) (iblk4 V c 4 t) (iblk4 V c 5 t) y (((cfg4.win 6).blk t).view.emb y) ?_ ?_ ?_ ?_ ?_ ?_ ?_
  · intro k
    show V c main_v33 (((cfg4.win 0).blk t).view.emb (ix2 (y 0) k)) = V c main_v33 (ix2 ((((cfg4.win 6).blk t).view.emb y) 0) k)
    refine congrArg (V c main_v33) (funext fun a => Fin.ext ?_)
    match a with
    | ⟨0, _⟩ => show win4_0.index t (0 : Fin 2) * 1000 + 1 * (y 0).val = win4_6.index t (0 : Fin 2) * 1000 + 1 * (y 0).val; omega
    | ⟨1, _⟩ => show win4_0.index t (1 : Fin 2) * 96 + 1 * k.val = k.val; omega
  · intro k
    show V c main_v20 (((cfg4.win 1).blk t).view.emb (ix2 (y 0) k)) = V c main_v20 (ix2 ((((cfg4.win 6).blk t).view.emb y) 0) k)
    refine congrArg (V c main_v20) (funext fun a => Fin.ext ?_)
    match a with
    | ⟨0, _⟩ => show win4_1.index t (0 : Fin 2) * 1000 + 1 * (y 0).val = win4_6.index t (0 : Fin 2) * 1000 + 1 * (y 0).val; omega
    | ⟨1, _⟩ => show win4_1.index t (1 : Fin 2) * 96 + 1 * k.val = k.val; omega
  · funext z
    show V c main_v5 (((cfg4.win 2).blk t).view.emb z) = V c main_v5 z
    refine congrArg (V c main_v5) (funext fun a => Fin.ext ?_)
    match a with
    | ⟨0, _⟩ => show win4_2.index t (0 : Fin 2) * 96 + 1 * (z 0).val = (z 0).val; omega
    | ⟨1, _⟩ => show win4_2.index t (1 : Fin 2) * 288 + 1 * (z 1).val = (z 1).val; omega
  · funext z
    show V c main_v6 (((cfg4.win 3).blk t).view.emb z) = V c main_v6 z
    refine congrArg (V c main_v6) (funext fun a => Fin.ext ?_)
    match a with
    | ⟨0, _⟩ => show win4_3.index t (0 : Fin 2) * 96 + 1 * (z 0).val = (z 0).val; omega
    | ⟨1, _⟩ => show win4_3.index t (1 : Fin 2) * 288 + 1 * (z 1).val = (z 1).val; omega
  · funext z
    show V c main_arg7 (((cfg4.win 4).blk t).view.emb z) = V c main_arg7 z
    refine congrArg (V c main_arg7) (funext fun a => Fin.ext ?_)
    match a with
    | ⟨0, _⟩ => show win4_4.index t (0 : Fin 1) * 288 + 1 * (z 0).val = (z 0).val; omega
  · funext z
    show V c main_arg8 (((cfg4.win 5).blk t).view.emb z) = V c main_arg8 z
    refine congrArg (V c main_arg8) (funext fun a => Fin.ext ?_)
    match a with
    | ⟨0, _⟩ => show win4_5.index t (0 : Fin 1) * 288 + 1 * (z 0).val = (z 0).val; omega
  · show (y 1).val = win4_6.index t (1 : Fin 2) * 96 + 1 * (y 1).val; omega

/-- An index lies in point t's block iff each coordinate lies in the block's range. -/
theorem mem_blk4 (t : Fin cfg4.N) (i : S50000x96.Idx) :
    i ∈ ((cfg4.win 6).blk t).view.set ↔ ∀ a : Fin 2, win4_6.index t a * S1000x96.size a ≤ (i a).val ∧ (i a).val < win4_6.index t a * S1000x96.size a + S1000x96.size a := by
  show i ∈ ((View.whole main_v34).slice (win4_6.rect t)).set ↔ _
  rw [View.set_slice_whole, Rect.mem_set_unit]
  exact Iff.rfl

/-- Row r lies in block r / 1000. -/
theorem cover4 (i : S50000x96.Idx) : ∃ t : Fin cfg4.N, (cfg4.win 6).flush t = true ∧ i ∈ ((cfg4.win 6).blk t).view.set := by
  have hi0 : (i 0).val < 50000 := (i 0).isLt
  have hi1 : (i 1).val < 96 := (i 1).isLt
  obtain ⟨t, ht⟩ := onto4 ⟨(i 0).val / 1000, by omega⟩
  have q0 : win4_6.index t (0 : Fin 2) = (i 0).val / 1000 := congrFun ht 0
  have q1 : win4_6.index t (1 : Fin 2) = 0 := congrFun ht 1
  refine ⟨t, flush4_6 t, ?_⟩
  rw [mem_blk4]
  intro a
  match a with
  | ⟨0, _⟩ => show win4_6.index t (0 : Fin 2) * 1000 ≤ (i 0).val ∧ (i 0).val < win4_6.index t (0 : Fin 2) * 1000 + 1000; omega
  | ⟨1, _⟩ => show win4_6.index t (1 : Fin 2) * 96 ≤ (i 1).val ∧ (i 1).val < win4_6.index t (1 : Fin 2) * 96 + 96; omega

/-- The result array after the region: the whole-array function of the arrays as the region found them. -/
theorem final4 (c : Dev nD) :
    (dat4 V c).arrAt 6 cfg4.N = gruOut (R := 50000) (V c main_v33) (V c main_v20) (V c main_v5) (V c main_v6) (V c main_arg7) (V c main_arg8) :=
  (dat4 V c).arrAt_eq_of_cover 6 _ (fun t _ => flushed4 V c t) (cover4)

end Cert.KernelIdeal.Tiles

end
-- ==== Proof.Tile5.lean ====
/-
  Region 5 (the third layer's node transform), from row tiles to the whole array.

  The grid has 50 points. Point t stages rows 1000·t … 1000·t + 999 of each row-tiled operand and every other operand
  whole, computes on the tile the state's rows against the whole 96×96 layer matrix, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every row block is some point's. -/
theorem onto5 : ∀ q0 : Fin 50, ∃ t : Fin cfg5.N, win5_2.index t = ![q0.val, 0] :=
  (by decide +kernel : ∀ q0 : Fin 50, ∃ t : Fin grid5.N, win5_2.index t = ![q0.val, 0])

/-- What point t writes back is block t of the whole-array function of the arrays the region finds. -/
theorem flushed5 (c : Dev nD) (t : Fin cfg5.N) :
    (dat5 V c).flushed 2 t = ((cfg5.win 2).blk t).view.read (Elt Ideal) (prod (R := 50000) (K := 96) (C := 96) (V c main_v34) (V c main_v36)) := by
  show (cfg5.win 2).cut (grid5.coords t) ((dat5 V c).after 2 t) = _
  rw [after5_2]
  unfold out5_2
  rw [View.canon_unit_zero hz2]
  simp only [View.ld_unit_zero (S := S1000x96) hz2, View.ld_unit_zero (S := S96x96) hz2]
  rw [Cert.Pay.pay5_eq, Cert.Pay.pay1_eq]
  obtain ⟨e0, e1, e2, e3, e4⟩ := idx5 t
  funext y
  refine prod_tile (V c main_v34) (V c main_v36) (iblk5 V c 0 t) (iblk5 V c 1 t) y (((cfg5.win 2).blk t).view.emb y) ?_ ?_ ?_
  · intro k
    show V c main_v34 (((cfg5.win 0).blk t).view.emb (ix2 (y 0) k)) = V c main_v34 (ix2 ((((cfg5.win 2).blk t).view.emb y) 0) k)
    refine congrArg (V c main_v34) (funext fun a => Fin.ext ?_)
    match a with
    | ⟨0, _⟩ => show win5_0.index t (0 : Fin 2) * 1000 + 1 * (y 0).val = win5_2.index t (0 : Fin 2) * 1000 + 1 * (y 0).val; omega
    | ⟨1, _⟩ => show win5_0.index t (1 : Fin 2) * 96 + 1 * k.val = k.val; omega
  · funext z
    show V c main_v36 (((cfg5.win 1).blk t).view.emb z) = V c main_v36 z
    refine congrArg (V c main_v36) (funext fun a => Fin.ext ?_)
    match a with
    | ⟨0, _⟩ => show win5_1.index t (0 : Fin 2) * 96 + 1 * (z 0).val = (z 0).val; omega
    | ⟨1, _⟩ => show win5_1.index t (1 : Fin 2) * 96 + 1 * (z 1).val = (z 1).val; omega
  · show (y 1).val = win5_2.index t (1 : Fin 2) * 96 + 1 * (y 1).val; omega

/-- An index lies in point t's block iff each coordinate lies in the block's range. -/
theorem mem_blk5 (t : Fin cfg5.N) (i : S50000x96.Idx) :
    i ∈ ((cfg5.win 2).blk t).view.set ↔ ∀ a : Fin 2, win5_2.index t a * S1000x96.size a ≤ (i a).val ∧ (i a).val < win5_2.index t a * S1000x96.size a + S1000x96.size a := by
  show i ∈ ((View.whole main_v37).slice (win5_2.rect t)).set ↔ _
  rw [View.set_slice_whole, Rect.mem_set_unit]
  exact Iff.rfl

/-- Row r lies in block r / 1000. -/
theorem cover5 (i : S50000x96.Idx) : ∃ t : Fin cfg5.N, (cfg5.win 2).flush t = true ∧ i ∈ ((cfg5.win 2).blk t).view.set := by
  have hi0 : (i 0).val < 50000 := (i 0).isLt
  have hi1 : (i 1).val < 96 := (i 1).isLt
  obtain ⟨t, ht⟩ := onto5 ⟨(i 0).val / 1000, by omega⟩
  have q0 : win5_2.index t (0 : Fin 2) = (i 0).val / 1000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 1000 ≤ (i 0).val ∧ (i 0).val < win5_2.index t (0 : Fin 2) * 1000 + 1000; omega
  | ⟨1, _⟩ => show win5_2.index t (1 : Fin 2) * 96 ≤ (i 1).val ∧ (i 1).val < win5_2.index t (1 : Fin 2) * 96 + 96; omega

/-- The result array after the region: the whole-array function of the arrays as the region found them. -/
theorem final5 (c : Dev nD) :
    (dat5 V c).arrAt 2 cfg5.N = prod (R := 50000) (K := 96) (C := 96) (V c main_v34) (V c main_v36) :=
  (dat5 V c).arrAt_eq_of_cover 2 _ (fun t _ => flushed5 V c t) (cover5)

end Cert.KernelIdeal.Tiles

end
-- ==== Proof.Tile6.lean ====
/-
  Region 6 (the third layer's gated step), from row tiles to the whole array.

  The grid has 50 points. Point t stages rows 1000·t … 1000·t + 999 of each row-tiled operand and every other operand
  whole, computes on the tile the aggregated messages' rows and the state's rows against the two whole 96×288 gate matrices and bias rows, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx6 : ∀ t : Fin cfg6.N, win6_0.index t (0 : Fin 2) = win6_6.index t (0 : Fin 2)
    ∧ win6_0.index t (1 : Fin 2) = 0
    ∧ win6_1.index t (0 : Fin 2) = win6_6.index t (0 : Fin 2)
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 1) = 0
    ∧ win6_5.index t (0 : Fin 1) = 0
    ∧ win6_6.index t (1 : Fin 2) = 0 :=
  (by decide +kernel : ∀ t : Fin grid6.N, _)

/-- Every row block is some point's. -/
theorem onto6 : ∀ q0 : Fin 50, ∃ t : Fin cfg6.N, win6_6.index t = ![q0.val, 0] :=
  (by decide +kernel : ∀ q0 : Fin 50, ∃ t : Fin grid6.N, win6_6.index t = ![q0.val, 0])

/-- What point t writes back is block t of the whole-array function of the arrays the region finds. -/
theorem flushed6 (c : Dev nD) (t : Fin cfg6.N) :
    (dat6 V c).flushed 6 t = ((cfg6.win 6).blk t).view.read (Elt Ideal) (gruOut (R := 50000) (V c main_v47) (V c main_v34) (V c main_v5) (V c main_v6) (V c main_arg7) (V c main_arg8)) := by
  show (cfg6.win 6).cut (grid6.coords t) ((dat6 V c).after 6 t) = _
  rw [after6_6]
  unfold out6_6
  rw [View.canon_unit_zero hz2]
  simp only [View.ld_unit_zero (S := S1000x96) hz2, View.ld_unit_zero (S := S96x288) hz2, View.ld_unit_zero (S := S288) hz1]
  rw [Cert.Pay.pay6_eq, Cert.Pay.pay2_eq]
  obtain ⟨e0, e1, e2, e3, e4, e5, e6, e7, e8, e9, e10⟩ := idx6 t
  funext y
  refine gruOut_tile (V c main_v47) (V c main_v34) (V c main_v5) (V c main_v6) (V c main_arg7) (V c main_arg8) (iblk6 V c 0 t) (iblk6 V c 1 t) (iblk6 V c 2 t) (iblk6 V c 3 t) (iblk6 V c 4 t) (iblk6 V c 5 t) y (((cfg6.win 6).blk t).view.emb y) ?_ ?_ ?_ ?_ ?_ ?_ ?_
  · intro k
    show V c main_v47 (((cfg6.win 0).blk t).view.emb (ix2 (y 0) k)) = V c main_v47 (ix2 ((((cfg6.win 6).blk t).view.emb y) 0) k)
    refine congrArg (V c main_v47) (funext fun a => Fin.ext ?_)
    match a with
    | ⟨0, _⟩ => show win6_0.index t (0 : Fin 2) * 1000 + 1 * (y 0).val = win6_6.index t (0 : Fin 2) * 1000 + 1 * (y 0).val; omega
    | ⟨1, _⟩ => show win6_0.index t (1 : Fin 2) * 96 + 1 * k.val = k.val; omega
  · intro k
    show V c main_v34 (((cfg6.win 1).blk t).view.emb (ix2 (y 0) k)) = V c main_v34 (ix2 ((((cfg6.win 6).blk t).view.emb y) 0) k)
    refine congrArg (V c main_v34) (funext fun a => Fin.ext ?_)
    match a with
    | ⟨0, _⟩ => show win6_1.index t (0 : Fin 2) * 1000 + 1 * (y 0).val = win6_6.index t (0 : Fin 2) * 1000 + 1 * (y 0).val; omega
    | ⟨1, _⟩ => show win6_1.index t (1 : Fin 2) * 96 + 1 * k.val = k.val; omega
  · funext z
    show V c main_v5 (((cfg6.win 2).blk t).view.emb z) = V c main_v5 z
    refine congrArg (V c main_v5) (funext fun a => Fin.ext ?_)
    match a with
    | ⟨0, _⟩ => show win6_2.index t (0 : Fin 2) * 96 + 1 * (z 0).val = (z 0).val; omega
    | ⟨1, _⟩ => show win6_2.index t (1 : Fin 2) * 288 + 1 * (z 1).val = (z 1).val; omega
  · funext z
    show V c main_v6 (((cfg6.win 3).blk t).view.emb z) = V c main_v6 z
    refine congrArg (V c main_v6) (funext fun a => Fin.ext ?_)
    match a with
    | ⟨0, _⟩ => show win6_3.index t (0 : Fin 2) * 96 + 1 * (z 0).val = (z 0).val; omega
    | ⟨1, _⟩ => show win6_3.index t (1 : Fin 2) * 288 + 1 * (z 1).val = (z 1).val; omega
  · funext z
    show V c main_arg7 (((cfg6.win 4).blk t).view.emb z) = V c main_arg7 z
    refine congrArg (V c main_arg7) (funext fun a => Fin.ext ?_)
    match a with
    | ⟨0, _⟩ => show win6_4.index t (0 : Fin 1) * 288 + 1 * (z 0).val = (z 0).val; omega
  · funext z
    show V c main_arg8 (((cfg6.win 5).blk t).view.emb z) = V c main_arg8 z
    refine congrArg (V c main_arg8) (funext fun a => Fin.ext ?_)
    match a with
    | ⟨0, _⟩ => show win6_5.index t (0 : Fin 1) * 288 + 1 * (z 0).val = (z 0).val; omega
  · show (y 1).val = win6_6.index t (1 : Fin 2) * 96 + 1 * (y 1).val; omega

/-- An index lies in point t's block iff each coordinate lies in the block's range. -/
theorem mem_blk6 (t : Fin cfg6.N) (i : S50000x96.Idx) :
    i ∈ ((cfg6.win 6).blk t).view.set ↔ ∀ a : Fin 2, win6_6.index t a * S1000x96.size a ≤ (i a).val ∧ (i a).val < win6_6.index t a * S1000x96.size a + S1000x96.size a := by
  show i ∈ ((View.whole main_v48).slice (win6_6.rect t)).set ↔ _
  rw [View.set_slice_whole, Rect.mem_set_unit]
  exact Iff.rfl

/-- Row r lies in block r / 1000. -/
theorem cover6 (i : S50000x96.Idx) : ∃ t : Fin cfg6.N, (cfg6.win 6).flush t = true ∧ i ∈ ((cfg6.win 6).blk t).view.set := by
  have hi0 : (i 0).val < 50000 := (i 0).isLt
  have hi1 : (i 1).val < 96 := (i 1).isLt
  obtain ⟨t, ht⟩ := onto6 ⟨(i 0).val / 1000, by omega⟩
  have q0 : win6_6.index t (0 : Fin 2) = (i 0).val / 1000 := congrFun ht 0
  have q1 : win6_6.index t (1 : Fin 2) = 0 := congrFun ht 1
  refine ⟨t, flush6_6 t, ?_⟩
  rw [mem_blk6]
  intro a
  match a with
  | ⟨0, _⟩ => show win6_6.index t (0 : Fin 2) * 1000 ≤ (i 0).val ∧ (i 0).val < win6_6.index t (0 : Fin 2) * 1000 + 1000; omega
  | ⟨1, _⟩ => show win6_6.index t (1 : Fin 2) * 96 ≤ (i 1).val ∧ (i 1).val < win6_6.index t (1 : Fin 2) * 96 + 96; omega

/-- The result array after the region: the whole-array function of the arrays as the region found them. -/
theorem final6 (c : Dev nD) :
    (dat6 V c).arrAt 6 cfg6.N = gruOut (R := 50000) (V c main_v47) (V c main_v34) (V c main_v5) (V c main_v6) (V c main_arg7) (V c main_arg8) :=
  (dat6 V c).arrAt_eq_of_cover 6 _ (fun t _ => flushed6 V c t) (cover6)

end Cert.KernelIdeal.Tiles

end
-- ==== Proof.Tile7.lean ====
/-
  Region 7 (the output layer), from row tiles to the whole array.

  The grid has 50 points. Point t stages rows 1000·t … 1000·t + 999 of each row-tiled operand and every other operand
  whole, computes on the tile the final state's rows against the whole 96×16 output matrix, plus the bias row, and writes back the same rows of the result. So point t's
  write-back is block t of ONE whole-array function of the arrays the region finds, and the 50 blocks cover every row
  (row r lies in block r / 1000): the result array ends holding that function.
-/
import proofs.«110150_j41979010351140_1_alg».proof.Proof.Gen.KernelIdeal.Frame
import proofs.«110150_j41979010351140_1_alg».proof.Proof.Pay
import proofs.«110150_j41979010351140_1_alg».proof.Proof.RowTiles
import Idealize.ShloMosaic.Lib.Pipeline.Value

set_option maxRecDepth 16384

noncomputable section

namespace Cert.KernelIdeal.Tiles

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: a row-tiled operand's window moves with the output's, a whole operand's stays put. -/
theorem idx7 : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 1) = 0
    ∧ win7_3.index t (1 : Fin 2) = 0 :=
  (by decide +kernel : ∀ t : Fin grid7.N, _)

/-- Every row block is some point's. -/
theorem onto7 : ∀ q0 : Fin 50, ∃ t : Fin cfg7.N, win7_3.index t = ![q0.val, 0] :=
  (by decide +kernel : ∀ q0 : Fin 50, ∃ t : Fin grid7.N, win7_3.index t = ![q0.val, 0])

/-- What point t writes back is block t of the whole-array function of the arrays the region finds. -/
theorem flushed7 (c : Dev nD) (t : Fin cfg7.N) :
    (dat7 V c).flushed 3 t = ((cfg7.win 3).blk t).view.read (Elt Ideal) (affine (R := 50000) (K := 96) (C := 16) (V c main_v48) (V c main_arg9) (V c main_arg10)) := by
  show (cfg7.win 3).cut (grid7.coords t) ((dat7 V c).after 3 t) = _
  rw [after7_3]
  unfold out7_3
  rw [View.canon_unit_zero hz2]
  simp only [View.ld_unit_zero (S := S1000x96) hz2, View.ld_unit_zero (S := S96x16) hz2, View.ld_unit_zero (S := S16) hz1]
  rw [Cert.Pay.pay7_eq]
  obtain ⟨e0, e1, e2, e3, e4, e5⟩ := idx7 t
  funext y
  refine affine_tile (V c main_v48) (V c main_arg9) (V c main_arg10) (iblk7 V c 0 t) (iblk7 V c 1 t) (iblk7 V c 2 t) y (((cfg7.win 3).blk t).view.emb y) ?_ ?_ ?_ ?_
  · intro k
    show V c main_v48 (((cfg7.win 0).blk t).view.emb (ix2 (y 0) k)) = V c main_v48 (ix2 ((((cfg7.win 3).blk t).view.emb y) 0) k)
    refine congrArg (V c main_v48) (funext fun a => Fin.ext ?_)
    match a with
    | ⟨0, _⟩ => show win7_0.index t (0 : Fin 2) * 1000 + 1 * (y 0).val = win7_3.index t (0 : Fin 2) * 1000 + 1 * (y 0).val; omega
    | ⟨1, _⟩ => show win7_0.index t (1 : Fin 2) * 96 + 1 * k.val = k.val; omega
  · funext z
    show V c main_arg9 (((cfg7.win 1).blk t).view.emb z) = V c main_arg9 z
    refine congrArg (V c main_arg9) (funext fun a => Fin.ext ?_)
    match a with
    | ⟨0, _⟩ => show win7_1.index t (0 : Fin 2) * 96 + 1 * (z 0).val = (z 0).val; omega
    | ⟨1, _⟩ => show win7_1.index t (1 : Fin 2) * 16 + 1 * (z 1).val = (z 1).val; omega
  · funext z
    show V c main_arg10 (((cfg7.win 2).blk t).view.emb z) = V c main_arg10 z
    refine congrArg (V c main_arg10) (funext fun a => Fin.ext ?_)
    match a with
    | ⟨0, _⟩ => show win7_2.index t (0 : Fin 1) * 16 + 1 * (z 0).val = (z 0).val; omega
  · show (y 1).val = win7_3.index t (1 : Fin 2) * 16 + 1 * (y 1).val; omega

/-- An index lies in point t's block iff each coordinate lies in the block's range. -/
theorem mem_blk7 (t : Fin cfg7.N) (i : S50000x16.Idx) :
    i ∈ ((cfg7.win 3).blk t).view.set ↔ ∀ a : Fin 2, win7_3.index t a * S1000x16.size a ≤ (i a).val ∧ (i a).val < win7_3.index t a * S1000x16.size a + S1000x16.size a := by
  show i ∈ ((View.whole main_v49).slice (win7_3.rect t)).set ↔ _
  rw [View.set_slice_whole, Rect.mem_set_unit]
  exact Iff.rfl

/-- Row r lies in block r / 1000. -/
theorem cover7 (i : S50000x16.Idx) : ∃ t : Fin cfg7.N, (cfg7.win 3).flush t = true ∧ i ∈ ((cfg7.win 3).blk t).view.set := by
  have hi0 : (i 0).val < 50000 := (i 0).isLt
  have hi1 : (i 1).val < 16 := (i 1).isLt
  obtain ⟨t, ht⟩ := onto7 ⟨(i 0).val / 1000, by omega⟩
  have q0 : win7_3.index t (0 : Fin 2) = (i 0).val / 1000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 1000 ≤ (i 0).val ∧ (i 0).val < win7_3.index t (0 : Fin 2) * 1000 + 1000; omega
  | ⟨1, _⟩ => show win7_3.index t (1 : Fin 2) * 16 ≤ (i 1).val ∧ (i 1).val < win7_3.index t (1 : Fin 2) * 16 + 16; omega

/-- The result array after the region: the whole-array function of the arrays as the region found them. -/
theorem final7 (c : Dev nD) :
    (dat7 V c).arrAt 3 cfg7.N = affine (R := 50000) (K := 96) (C := 16) (V c main_v48) (V c main_arg9) (V c main_arg10) :=
  (dat7 V c).arrAt_eq_of_cover 3 _ (fun t _ => flushed7 V c t) (cover7)

end Cert.KernelIdeal.Tiles

end
-- ==== Proof.Keep.lean ====
/-
  A buffer that a stretch of host operations does not write keeps its contents through the stretch. For each of the
  six stretches between the regions: the list of buffers its operations write, and the keeping fact.
-/
import proofs.«110150_j41979010351140_1_alg».proof.Proof.Gen.KernelIdeal.Launch
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

variable {F : FTy → Type} [FloatOps F]

/-- The buffers stretch 1 writes. -/
abbrev written1 : List (Ref sig .tc) := [main_v1, main_v2, main_v3, main_v4, main_v5, main_v6, main_v7, main_v8]

theorem writes1 : (hostOps1 : List (HloOp τ sig (Elt F))).Forall fun op => op.writes ⊆ (written1.map (Proc.devRef (τ := τ) .tc)).toFinset := by
  simp only [hostOps1, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep1 (W : Valuation τ sig (Elt F)) (r : Ref sig .tc) (h : r ∉ written1) :
    after hostOps1 W (Proc.devRef .tc r) = W (Proc.devRef .tc r) :=
  after_of_writes_sub hostOps1 _ writes1 h

/-- The buffers stretch 2 writes. -/
abbrev written2 : List (Ref sig .tc) := [main_c, main_v10, main_v11, main_c_0, main_v12, main_v13, main_v14, main_v15, main_v16, main_cst, main_v17, main_v18, main_v19]

theorem writes2 : (hostOps2 : List (HloOp τ sig (Elt F))).Forall fun op => op.writes ⊆ (written2.map (Proc.devRef (τ := τ) .tc)).toFinset := by
  simp only [hostOps2, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep2 (W : Valuation τ sig (Elt F)) (r : Ref sig .tc) (h : r ∉ written2) :
    after hostOps2 W (Proc.devRef .tc r) = W (Proc.devRef .tc r) :=
  after_of_writes_sub hostOps2 _ writes2 h

/-- The buffers stretch 3 writes. -/
abbrev written3 : List (Ref sig .tc) := [main_v21, main_v22]

theorem writes3 : (hostOps3 : List (HloOp τ sig (Elt F))).Forall fun op => op.writes ⊆ (written3.map (Proc.devRef (τ := τ) .tc)).toFinset := by
  simp only [hostOps3, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep3 (W : Valuation τ sig (Elt F)) (r : Ref sig .tc) (h : r ∉ written3) :
    after hostOps3 W (Proc.devRef .tc r) = W (Proc.devRef .tc r) :=
  after_of_writes_sub hostOps3 _ writes3 h

/-- The buffers stretch 4 writes. -/
abbrev written4 : List (Ref sig .tc) := [main_c_1, main_v24, main_v25, main_c_2, main_v26, main_v27, main_v28, main_v29, main_v30, main_cst_3, main_v31, main_v32, main_v33]

theorem writes4 : (hostOps4 : List (HloOp τ sig (Elt F))).Forall fun op => op.writes ⊆ (written4.map (Proc.devRef (τ := τ) .tc)).toFinset := by
  simp only [hostOps4, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep4 (W : Valuation τ sig (Elt F)) (r : Ref sig .tc) (h : r ∉ written4) :
    after hostOps4 W (Proc.devRef .tc r) = W (Proc.devRef .tc r) :=
  after_of_writes_sub hostOps4 _ writes4 h

/-- The buffers stretch 5 writes. -/
abbrev written5 : List (Ref sig .tc) := [main_v35, main_v36]

theorem writes5 : (hostOps5 : List (HloOp τ sig (Elt F))).Forall fun op => op.writes ⊆ (written5.map (Proc.devRef (τ := τ) .tc)).toFinset := by
  simp only [hostOps5, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep5 (W : Valuation τ sig (Elt F)) (r : Ref sig .tc) (h : r ∉ written5) :
    after hostOps5 W (Proc.devRef .tc r) = W (Proc.devRef .tc r) :=
  after_of_writes_sub hostOps5 _ writes5 h

/-- The buffers stretch 6 writes. -/
abbrev written6 : List (Ref sig .tc) := [main_c_4, main_v38, main_v39, main_c_5, main_v40, main_v41, main_v42, main_v43, main_v44, main_cst_6, main_v45, main_v46, main_v47]

theorem writes6 : (hostOps6 : List (HloOp τ sig (Elt F))).Forall fun op => op.writes ⊆ (written6.map (Proc.devRef (τ := τ) .tc)).toFinset := by
  simp only [hostOps6, List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem keep6 (W : Valuation τ sig (Elt F)) (r : Ref sig .tc) (h : r ∉ written6) :
    after hostOps6 W (Proc.devRef .tc r) = W (Proc.devRef .tc r) :=
  after_of_writes_sub hostOps6 _ writes6 h

end Cert.KernelIdeal.Keep

end
-- ==== Proof.Net.lean ====
/-
  The network both programs compute, as a composition of whole-array functions of the eleven arguments.

  Around the row formulas of Rows.lean sit the host's own steps, shared word for word by the two programs: the two
  columns of the edge list (sources, destinations), the transposed gate matrices, the three 96×96 layer matrices
  cut out of the stacked weights, and the message passing of one layer — gather row src[e] of the transformed
  state for every edge e (a negative index counted from the end), then add each gathered row into row dst[e] of a
  zero array. That last step is carried as ONE function `edgeSum` of its three operands and never opened: both
  programs apply the same function, so only its operands have to agree.
-/
import proofs.«110150_j41979010351140_1_alg».proof.Proof.Gen.KernelIdeal
import proofs.«110150_j41979010351140_1_alg».proof.Proof.Rows

noncomputable section

namespace Cert.Net

open Idealize.ShloMosaic Idealize.ShloMosaic.ValueIdx Cert.KernelIdeal Cert.KernelIdeal.Gen Cert.Rows

abbrev I32 (s : Shape) := IVec s 32
abbrev F32 (s : Shape) := FVec Ideal s .f32

/-- The edge list's row 0: the source node of every edge. -/
def srcCol (e : I32 S2x800000) : I32 S800000 :=
  shapeCast S800000 (extractStridedSlice S1x800000 ![0, 0] e slices_S2x800000_S1x800000_0_0) shapeCasts_S1x800000_S800000
/-- The edge list's row 1: the destination node of every edge. -/
def dstCol (e : I32 S2x800000) : I32 S800000 :=
  shapeCast S800000 (extractStridedSlice S1x800000 ![1, 0] e slices_S2x800000_S1x800000_1_0) shapeCasts_S1x800000_S800000
/-- A 288×96 gate matrix transposed to 96×288. -/
def tr (w : F32 S288x96) : F32 S96x288 := transpose S96x288 [1, 0] w transposes_S288x96_S96x288_1_0
/-- Layer 0's, 1's, 2's 96×96 matrix out of the stacked 3×96×96 weights. -/
def layerW0 (cw : F32 S3x96x96) : F32 S96x96 :=
  shapeCast S96x96 (extractStridedSlice S1x96x96 ![0, 0, 0] cw slices_S3x96x96_S1x96x96_0_0_0) shapeCasts_S1x96x96_S96x96
def layerW1 (cw : F32 S3x96x96) : F32 S96x96 :=
  shapeCast S96x96 (extractStridedSlice S1x96x96 ![1, 0, 0] cw slices_S3x96x96_S1x96x96_1_0_0) shapeCasts_S1x96x96_S96x96
def layerW2 (cw : F32 S3x96x96) : F32 S96x96 :=
  shapeCast S96x96 (extractStridedSlice S1x96x96 ![2, 0, 0] cw slices_S3x96x96_S1x96x96_2_0_0) shapeCasts_S1x96x96_S96x96

/-- One layer's message passing: row dst[e] of the result collects row src[e] of `msg` over all edges e. -/
def edgeSum (msg : F32 S50000x96) (s d : I32 S800000) : F32 S50000x96 :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 d)
    (Host.gather gather_S50000x96_S800000x1_S800000x96_1_0_n_n_0_1_196 msg
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- One layer: transform, pass messages, gated update. -/
def layer (h : F32 S50000x96) (w : F32 S96x96) (s d : I32 S800000) (wT uT : F32 S96x288) (bi bh : F32 S288) : F32 S50000x96 :=
  gruOut (R := 50000) (edgeSum (prod (R := 50000) (K := 96) (C := 96) h w) s d) h wT uT bi bh

/-- The whole network. -/
def net (x : F32 S50000x2000) (e : I32 S2x800000) (win : F32 S2000x96) (bin : F32 S96) (cw : F32 S3x96x96)
    (wih whh : F32 S288x96) (bih bhh : F32 S288) (wout : F32 S96x16) (bout : F32 S16) : F32 S50000x16 :=
  affine (R := 50000) (K := 96) (C := 16)
    (layer (layer (layer (affine (R := 50000) (K := 2000) (C := 96) x win bin)
        (layerW0 cw) (srcCol e) (dstCol e) (tr wih) (tr whh) bih bhh)
        (layerW1 cw) (srcCol e) (dstCol e) (tr wih) (tr whh) bih bhh)
        (layerW2 cw) (srcCol e) (dstCol e) (tr wih) (tr whh) bih bhh)
    wout bout

end Cert.Net

end
-- ==== Proof.Fold.lean ====
/-
  The idealized kernel's result array, read through @main's fourteen segments back to the launch memory.

  @main alternates eight row-tiled regions with six stretches of host operations. At each boundary a handful of
  buffers matter: the arguments still to be read, the edge columns and transposed gate matrices the first stretch
  made, the current state, and the newest intermediate. Walking the boundaries in order, each such buffer holds a
  named whole-array function of the launch arguments:
    a region's output array  — its whole-array formula (the tiling modules) of the region's input arrays;
    a region's input array, or an array no window of it touches — what it held at the region's entry;
    a buffer a host stretch computes — the stretch's operations of their operands;
    a buffer a host stretch does not write — what it held before.
  The last fact is the result buffer at the network of the arguments.
-/
import proofs.«110150_j41979010351140_1_alg».proof.Proof.Gen.KernelIdeal.Frame
import proofs.«110150_j41979010351140_1_alg».proof.Proof.Tile0
import proofs.«110150_j41979010351140_1_alg».proof.Proof.Tile1
import proofs.«110150_j41979010351140_1_alg».proof.Proof.Tile2
import proofs.«110150_j41979010351140_1_alg».proof.Proof.Tile3
import proofs.«110150_j41979010351140_1_alg».proof.Proof.Tile4
import proofs.«110150_j41979010351140_1_alg».proof.Proof.Tile5
import proofs.«110150_j41979010351140_1_alg».proof.Proof.Tile6
import proofs.«110150_j41979010351140_1_alg».proof.Proof.Tile7
import proofs.«110150_j41979010351140_1_alg».proof.Proof.Keep
import proofs.«110150_j41979010351140_1_alg».proof.Proof.Net
import Idealize.ShloMosaic.Lib.StableHlo.Run

set_option maxRecDepth 16384

noncomputable section

namespace Cert.KernelIdeal.Fold

open Cert.KernelIdeal Cert.KernelIdeal.Gen Cert.KernelIdeal.Keep Cert.Net Cert.Rows
open Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The launch arguments and the named intermediates -/

abbrev a0 : F32 S50000x2000 := m ((c : Thread nD τ).loc main_arg0)
abbrev a1 : I32 S2x800000 := m ((c : Thread nD τ).loc main_arg1)
abbrev a2 : F32 S2000x96 := m ((c : Thread nD τ).loc main_arg2)
abbrev a3 : F32 S96 := m ((c : Thread nD τ).loc main_arg3)
abbrev a4 : F32 S3x96x96 := m ((c : Thread nD τ).loc main_arg4)
abbrev a5 : F32 S288x96 := m ((c : Thread nD τ).loc main_arg5)
abbrev a6 : F32 S288x96 := m ((c : Thread nD τ).loc main_arg6)
abbrev a7 : F32 S288 := m ((c : Thread nD τ).loc main_arg7)
abbrev a8 : F32 S288 := m ((c : Thread nD τ).loc main_arg8)
abbrev a9 : F32 S96x16 := m ((c : Thread nD τ).loc main_arg9)
abbrev a10 : F32 S16 := m ((c : Thread nD τ).loc main_arg10)

def sC : I32 S800000 := srcCol (a1 m c)
def dC : I32 S800000 := dstCol (a1 m c)
def wT : F32 S96x288 := tr (a5 m c)
def uT : F32 S96x288 := tr (a6 m c)
def cw0 : F32 S96x96 := layerW0 (a4 m c)
def cw1 : F32 S96x96 := layerW1 (a4 m c)
def cw2 : F32 S96x96 := layerW2 (a4 m c)
/-- The state after the input layer. -/
def h0 : F32 S50000x96 := affine (R := 50000) (K := 2000) (C := 96) (a0 m c) (a2 m c) (a3 m c)
/-- Layer 1: transformed state, aggregated messages, new state. -/
def m1 : F32 S50000x96 := prod (R := 50000) (K := 96) (C := 96) (h0 m c) (cw0 m c)
def g1 : F32 S50000x96 := edgeSum (m1 m c) (sC m c) (dC m c)
def h1 : F32 S50000x96 := gruOut (R := 50000) (g1 m c) (h0 m c) (wT m c) (uT m c) (a7 m c) (a8 m c)
/-- Layer 2. -/
def m2 : F32 S50000x96 := prod (R := 50000) (K := 96) (C := 96) (h1 m c) (cw1 m c)
def g2 : F32 S50000x96 := edgeSum (m2 m c) (sC m c) (dC m c)
def h2 : F32 S50000x96 := gruOut (R := 50000) (g2 m c) (h1 m c) (wT m c) (uT m c) (a7 m c) (a8 m c)
/-- Layer 3. -/
def m3 : F32 S50000x96 := prod (R := 50000) (K := 96) (C := 96) (h2 m c) (cw2 m c)
def g3 : F32 S50000x96 := edgeSum (m3 m c) (sC m c) (dC m c)
def h3 : F32 S50000x96 := gruOut (R := 50000) (g3 m c) (h2 m c) (wT m c) (uT m c) (a7 m c) (a8 m c)
/-- The output layer. -/
def outK : F32 S50000x16 := affine (R := 50000) (K := 96) (C := 16) (h3 m c) (a9 m c) (a10 m c)

/-- The named intermediates compose to the network of the arguments. -/
theorem outK_eq : outK m c = net (a0 m c) (a1 m c) (a2 m c) (a3 m c) (a4 m c) (a5 m c) (a6 m c) (a7 m c) (a8 m c) (a9 m c) (a10 m c) := rfl

/-! ## Boundary 0: the launch memory -/

theorem W0_main_arg0 : W0 m ρ c (Proc.devRef .tc main_arg0) = a0 m c := rfl
theorem W0_main_arg2 : W0 m ρ c (Proc.devRef .tc main_arg2) = a2 m c := rfl
theorem W0_main_arg3 : W0 m ρ c (Proc.devRef .tc main_arg3) = a3 m c := rfl
theorem W0_main_arg4 : W0 m ρ c (Proc.devRef .tc main_arg4) = a4 m c := rfl
theorem W0_main_arg1 : W0 m ρ c (Proc.devRef .tc main_arg1) = a1 m c := rfl
theorem W0_main_arg5 : W0 m ρ c (Proc.devRef .tc main_arg5) = a5 m c := rfl
theorem W0_main_arg6 : W0 m ρ c (Proc.devRef .tc main_arg6) = a6 m c := rfl
theorem W0_main_arg7 : W0 m ρ c (Proc.devRef .tc main_arg7) = a7 m c := rfl
theorem W0_main_arg8 : W0 m ρ c (Proc.devRef .tc main_arg8) = a8 m c := rfl
theorem W0_main_arg9 : W0 m ρ c (Proc.devRef .tc main_arg9) = a9 m c := rfl
theorem W0_main_arg10 : W0 m ρ c (Proc.devRef .tc main_arg10) = a10 m c := rfl

/-! ## Boundary 1: after region 0 (the input layer) -/

theorem W1_main_v0 : W1 m ρ c (Proc.devRef .tc main_v0) = h0 m c := by
  refine (W1_arr m ρ c 3).trans ((Tiles.final0 (V0 m ρ) c).trans ?_)
  show affine (R := 50000) (K := 2000) (C := 96) (W0 m ρ c (Proc.devRef .tc main_arg0)) (W0 m ρ c (Proc.devRef .tc main_arg2)) (W0 m ρ c (Proc.devRef .tc main_arg3)) = _
  rw [W0_main_arg0 m ρ c, W0_main_arg2 m ρ c, W0_main_arg3 m ρ c]
  rfl
theorem W1_main_arg4 : W1 m ρ c (Proc.devRef .tc main_arg4) = a4 m c :=
  (W1_of_ne m ρ c main_arg4 (by decide)).trans (W0_main_arg4 m ρ c)
theorem W1_main_arg1 : W1 m ρ c (Proc.devRef .tc main_arg1) = a1 m c :=
  (W1_of_ne m ρ c main_arg1 (by decide)).trans (W0_main_arg1 m ρ c)
theorem W1_main_arg5 : W1 m ρ c (Proc.devRef .tc main_arg5) = a5 m c :=
  (W1_of_ne m ρ c main_arg5 (by decide)).trans (W0_main_arg5 m ρ c)
theorem W1_main_arg6 : W1 m ρ c (Proc.devRef .tc main_arg6) = a6 m c :=
  (W1_of_ne m ρ c main_arg6 (by decide)).trans (W0_main_arg6 m ρ c)
theorem W1_main_arg7 : W1 m ρ c (Proc.devRef .tc main_arg7) = a7 m c :=
  (W1_of_ne m ρ c main_arg7 (by decide)).trans (W0_main_arg7 m ρ c)
theorem W1_main_arg8 : W1 m ρ c (Proc.devRef .tc main_arg8) = a8 m c :=
  (W1_of_ne m ρ c main_arg8 (by decide)).trans (W0_main_arg8 m ρ c)
theorem W1_main_arg9 : W1 m ρ c (Proc.devRef .tc main_arg9) = a9 m c :=
  (W1_of_ne m ρ c main_arg9 (by decide)).trans (W0_main_arg9 m ρ c)
theorem W1_main_arg10 : W1 m ρ c (Proc.devRef .tc main_arg10) = a10 m c :=
  (W1_of_ne m ρ c main_arg10 (by decide)).trans (W0_main_arg10 m ρ c)

/-! ## Boundary 2: after host stretch 1 -/

theorem W2_main_v0 : W2 m ρ c (Proc.devRef .tc main_v0) = h0 m c :=
  (keep1 (W1 m ρ c) main_v0 (by decide)).trans (W1_main_v0 m ρ c)
set_option maxHeartbeats 1000000 in
theorem W2_main_v8 : W2 m ρ c (Proc.devRef .tc main_v8) = cw0 m c := by
  show after hostOps1 (W1 m ρ c) (Proc.devRef .tc main_v8) = _
  simp only [hostOps1]
  after_results_simp
  rw [W1_main_arg4 m ρ c]
  rfl
set_option maxHeartbeats 1000000 in
theorem W2_main_v2 : W2 m ρ c (Proc.devRef .tc main_v2) = sC m c := by
  show after hostOps1 (W1 m ρ c) (Proc.devRef .tc main_v2) = _
  simp only [hostOps1]
  after_results_simp
  rw [W1_main_arg1 m ρ c]
  rfl
set_option maxHeartbeats 1000000 in
theorem W2_main_v4 : W2 m ρ c (Proc.devRef .tc main_v4) = dC m c := by
  show after hostOps1 (W1 m ρ c) (Proc.devRef .tc main_v4) = _
  simp only [hostOps1]
  after_results_simp
  rw [W1_main_arg1 m ρ c]
  rfl
set_option maxHeartbeats 1000000 in
theorem W2_main_v5 : W2 m ρ c (Proc.devRef .tc main_v5) = wT m c := by
  show after hostOps1 (W1 m ρ c) (Proc.devRef .tc main_v5) = _
  simp only [hostOps1]
  after_results_simp
  rw [W1_main_arg5 m ρ c]
  rfl
set_option maxHeartbeats 1000000 in
theorem W2_main_v6 : W2 m ρ c (Proc.devRef .tc main_v6) = uT m c := by
  show after hostOps1 (W1 m ρ c) (Proc.devRef .tc main_v6) = _
  simp only [hostOps1]
  after_results_simp
  rw [W1_main_arg6 m ρ c]
  rfl
theorem W2_main_arg7 : W2 m ρ c (Proc.devRef .tc main_arg7) = a7 m c :=
  (keep1 (W1 m ρ c) main_arg7 (by decide)).trans (W1_main_arg7 m ρ c)
theorem W2_main_arg8 : W2 m ρ c (Proc.devRef .tc main_arg8) = a8 m c :=
  (keep1 (W1 m ρ c) main_arg8 (by decide)).trans (W1_main_arg8 m ρ c)
theorem W2_main_arg4 : W2 m ρ c (Proc.devRef .tc main_arg4) = a4 m c :=
  (keep1 (W1 m ρ c) main_arg4 (by decide)).trans (W1_main_arg4 m ρ c)
theorem W2_main_arg9 : W2 m ρ c (Proc.devRef .tc main_arg9) = a9 m c :=
  (keep1 (W1 m ρ c) main_arg9 (by decide)).trans (W1_main_arg9 m ρ c)
theorem W2_main_arg10 : W2 m ρ c (Proc.devRef .tc main_arg10) = a10 m c :=
  (keep1 (W1 m ρ c) main_arg10 (by decide)).trans (W1_main_arg10 m ρ c)

/-! ## Boundary 3: after region 1 (the first layer's node transform) -/

theorem W3_main_v9 : W3 m ρ c (Proc.devRef .tc main_v9) = m1 m c := by
  refine (W3_arr m ρ c 2).trans ((Tiles.final1 (V2 m ρ) c).trans ?_)
  show prod (R := 50000) (K := 96) (C := 96) (W2 m ρ c (Proc.devRef .tc main_v0)) (W2 m ρ c (Proc.devRef .tc main_v8)) = _
  rw [W2_main_v0 m ρ c, W2_main_v8 m ρ c]
  rfl
theorem W3_main_v2 : W3 m ρ c (Proc.devRef .tc main_v2) = sC m c :=
  (W3_of_ne m ρ c main_v2 (by decide)).trans (W2_main_v2 m ρ c)
theorem W3_main_v4 : W3 m ρ c (Proc.devRef .tc main_v4) = dC m c :=
  (W3_of_ne m ρ c main_v4 (by decide)).trans (W2_main_v4 m ρ c)
theorem W3_main_v0 : W3 m ρ c (Proc.devRef .tc main_v0) = h0 m c :=
  (W3_arr m ρ c 0).trans (((dat1 (V2 m ρ) c).arrAt_in 0 rfl _).trans ((A_eq1 (V2 m ρ) c 0).trans (W2_main_v0 m ρ c)))
theorem W3_main_v5 : W3 m ρ c (Proc.devRef .tc main_v5) = wT m c :=
  (W3_of_ne m ρ c main_v5 (by decide)).trans (W2_main_v5 m ρ c)
theorem W3_main_v6 : W3 m ρ c (Proc.devRef .tc main_v6) = uT m c :=
  (W3_of_ne m ρ c main_v6 (by decide)).trans (W2_main_v6 m ρ c)
theorem W3_main_arg7 : W3 m ρ c (Proc.devRef .tc main_arg7) = a7 m c :=
  (W3_of_ne m ρ c main_arg7 (by decide)).trans (W2_main_arg7 m ρ c)
theorem W3_main_arg8 : W3 m ρ c (Proc.devRef .tc main_arg8) = a8 m c :=
  (W3_of_ne m ρ c main_arg8 (by decide)).trans (W2_main_arg8 m ρ c)
theorem W3_main_arg4 : W3 m ρ c (Proc.devRef .tc main_arg4) = a4 m c :=
  (W3_of_ne m ρ c main_arg4 (by decide)).trans (W2_main_arg4 m ρ c)
theorem W3_main_arg9 : W3 m ρ c (Proc.devRef .tc main_arg9) = a9 m c :=
  (W3_of_ne m ρ c main_arg9 (by decide)).trans (W2_main_arg9 m ρ c)
theorem W3_main_arg10 : W3 m ρ c (Proc.devRef .tc main_arg10) = a10 m c :=
  (W3_of_ne m ρ c main_arg10 (by decide)).trans (W2_main_arg10 m ρ c)

/-! ## Boundary 4: after host stretch 2 -/

set_option maxHeartbeats 1000000 in
theorem W4_main_v19 : W4 m ρ c (Proc.devRef .tc main_v19) = g1 m c := by
  show after hostOps2 (W3 m ρ c) (Proc.devRef .tc main_v19) = _
  simp only [hostOps2]
  after_results_simp
  rw [W3_main_v9 m ρ c, W3_main_v2 m ρ c, W3_main_v4 m ρ c]
  rfl
theorem W4_main_v0 : W4 m ρ c (Proc.devRef .tc main_v0) = h0 m c :=
  (keep2 (W3 m ρ c) main_v0 (by decide)).trans (W3_main_v0 m ρ c)
theorem W4_main_v5 : W4 m ρ c (Proc.devRef .tc main_v5) = wT m c :=
  (keep2 (W3 m ρ c) main_v5 (by decide)).trans (W3_main_v5 m ρ c)
theorem W4_main_v6 : W4 m ρ c (Proc.devRef .tc main_v6) = uT m c :=
  (keep2 (W3 m ρ c) main_v6 (by decide)).trans (W3_main_v6 m ρ c)
theorem W4_main_arg7 : W4 m ρ c (Proc.devRef .tc main_arg7) = a7 m c :=
  (keep2 (W3 m ρ c) main_arg7 (by decide)).trans (W3_main_arg7 m ρ c)
theorem W4_main_arg8 : W4 m ρ c (Proc.devRef .tc main_arg8) = a8 m c :=
  (keep2 (W3 m ρ c) main_arg8 (by decide)).trans (W3_main_arg8 m ρ c)
theorem W4_main_arg4 : W4 m ρ c (Proc.devRef .tc main_arg4) = a4 m c :=
  (keep2 (W3 m ρ c) main_arg4 (by decide)).trans (W3_main_arg4 m ρ c)
theorem W4_main_v2 : W4 m ρ c (Proc.devRef .tc main_v2) = sC m c :=
  (keep2 (W3 m ρ c) main_v2 (by decide)).trans (W3_main_v2 m ρ c)
theorem W4_main_v4 : W4 m ρ c (Proc.devRef .tc main_v4) = dC m c :=
  (keep2 (W3 m ρ c) main_v4 (by decide)).trans (W3_main_v4 m ρ c)
theorem W4_main_arg9 : W4 m ρ c (Proc.devRef .tc main_arg9) = a9 m c :=
  (keep2 (W3 m ρ c) main_arg9 (by decide)).trans (W3_main_arg9 m ρ c)
theorem W4_main_arg10 : W4 m ρ c (Proc.devRef .tc main_arg10) = a10 m c :=
  (keep2 (W3 m ρ c) main_arg10 (by decide)).trans (W3_main_arg10 m ρ c)

/-! ## Boundary 5: after region 2 (the first layer's gated step) -/

theorem W5_main_v20 : W5 m ρ c (Proc.devRef .tc main_v20) = h1 m c := by
  refine (W5_arr m ρ c 6).trans ((Tiles.final2 (V4 m ρ) c).trans ?_)
  show gruOut (R := 50000) (W4 m ρ c (Proc.devRef .tc main_v19)) (W4 m ρ c (Proc.devRef .tc main_v0)) (W4 m ρ c (Proc.devRef .tc main_v5)) (W4 m ρ c (Proc.devRef .tc main_v6)) (W4 m ρ c (Proc.devRef .tc main_arg7)) (W4 m ρ c (Proc.devRef .tc main_arg8)) = _
  rw [W4_main_v19 m ρ c, W4_main_v0 m ρ c, W4_main_v5 m ρ c, W4_main_v6 m ρ c, W4_main_arg7 m ρ c, W4_main_arg8 m ρ c]
  rfl
theorem W5_main_arg4 : W5 m ρ c (Proc.devRef .tc main_arg4) = a4 m c :=
  (W5_of_ne m ρ c main_arg4 (by decide)).trans (W4_main_arg4 m ρ c)
theorem W5_main_v2 : W5 m ρ c (Proc.devRef .tc main_v2) = sC m c :=
  (W5_of_ne m ρ c main_v2 (by decide)).trans (W4_main_v2 m ρ c)
theorem W5_main_v4 : W5 m ρ c (Proc.devRef .tc main_v4) = dC m c :=
  (W5_of_ne m ρ c main_v4 (by decide)).trans (W4_main_v4 m ρ c)
theorem W5_main_v5 : W5 m ρ c (Proc.devRef .tc main_v5) = wT m c :=
  (W5_arr m ρ c 2).trans (((dat2 (V4 m ρ) c).arrAt_in 2 rfl _).trans ((A_eq2 (V4 m ρ) c 2).trans (W4_main_v5 m ρ c)))
theorem W5_main_v6 : W5 m ρ c (Proc.devRef .tc main_v6) = uT m c :=
  (W5_arr m ρ c 3).trans (((dat2 (V4 m ρ) c).arrAt_in 3 rfl _).trans ((A_eq2 (V4 m ρ) c 3).trans (W4_main_v6 m ρ c)))
theorem W5_main_arg7 : W5 m ρ c (Proc.devRef .tc main_arg7) = a7 m c :=
  (W5_arr m ρ c 4).trans (((dat2 (V4 m ρ) c).arrAt_in 4 rfl _).trans ((A_eq2 (V4 m ρ) c 4).trans (W4_main_arg7 m ρ c)))
theorem W5_main_arg8 : W5 m ρ c (Proc.devRef .tc main_arg8) = a8 m c :=
  (W5_arr m ρ c 5).trans (((dat2 (V4 m ρ) c).arrAt_in 5 rfl _).trans ((A_eq2 (V4 m ρ) c 5).trans (W4_main_arg8 m ρ c)))
theorem W5_main_arg9 : W5 m ρ c (Proc.devRef .tc main_arg9) = a9 m c :=
  (W5_of_ne m ρ c main_arg9 (by decide)).trans (W4_main_arg9 m ρ c)
theorem W5_main_arg10 : W5 m ρ c (Proc.devRef .tc main_arg10) = a10 m c :=
  (W5_of_ne m ρ c main_arg10 (by decide)).trans (W4_main_arg10 m ρ c)

/-! ## Boundary 6: after host stretch 3 -/

theorem W6_main_v20 : W6 m ρ c (Proc.devRef .tc main_v20) = h1 m c :=
  (keep3 (W5 m ρ c) main_v20 (by decide)).trans (W5_main_v20 m ρ c)
set_option maxHeartbeats 1000000 in
theorem W6_main_v22 : W6 m ρ c (Proc.devRef .tc main_v22) = cw1 m c := by
  show after hostOps3 (W5 m ρ c) (Proc.devRef .tc main_v22) = _
  simp only [hostOps3]
  after_results_simp
  rw [W5_main_arg4 m ρ c]
  rfl
theorem W6_main_v2 : W6 m ρ c (Proc.devRef .tc main_v2) = sC m c :=
  (keep3 (W5 m ρ c) main_v2 (by decide)).trans (W5_main_v2 m ρ c)
theorem W6_main_v4 : W6 m ρ c (Proc.devRef .tc main_v4) = dC m c :=
  (keep3 (W5 m ρ c) main_v4 (by decide)).trans (W5_main_v4 m ρ c)
theorem W6_main_v5 : W6 m ρ c (Proc.devRef .tc main_v5) = wT m c :=
  (keep3 (W5 m ρ c) main_v5 (by decide)).trans (W5_main_v5 m ρ c)
theorem W6_main_v6 : W6 m ρ c (Proc.devRef .tc main_v6) = uT m c :=
  (keep3 (W5 m ρ c) main_v6 (by decide)).trans (W5_main_v6 m ρ c)
theorem W6_main_arg7 : W6 m ρ c (Proc.devRef .tc main_arg7) = a7 m c :=
  (keep3 (W5 m ρ c) main_arg7 (by decide)).trans (W5_main_arg7 m ρ c)
theorem W6_main_arg8 : W6 m ρ c (Proc.devRef .tc main_arg8) = a8 m c :=
  (keep3 (W5 m ρ c) main_arg8 (by decide)).trans (W5_main_arg8 m ρ c)
theorem W6_main_arg4 : W6 m ρ c (Proc.devRef .tc main_arg4) = a4 m c :=
  (keep3 (W5 m ρ c) main_arg4 (by decide)).trans (W5_main_arg4 m ρ c)
theorem W6_main_arg9 : W6 m ρ c (Proc.devRef .tc main_arg9) = a9 m c :=
  (keep3 (W5 m ρ c) main_arg9 (by decide)).trans (W5_main_arg9 m ρ c)
theorem W6_main_arg10 : W6 m ρ c (Proc.devRef .tc main_arg10) = a10 m c :=
  (keep3 (W5 m ρ c) main_arg10 (by decide)).trans (W5_main_arg10 m ρ c)

/-! ## Boundary 7: after region 3 (the second layer's node transform) -/

theorem W7_main_v23 : W7 m ρ c (Proc.devRef .tc main_v23) = m2 m c := by
  refine (W7_arr m ρ c 2).trans ((Tiles.final3 (V6 m ρ) c).trans ?_)
  show prod (R := 50000) (K := 96) (C := 96) (W6 m ρ c (Proc.devRef .tc main_v20)) (W6 m ρ c (Proc.devRef .tc main_v22)) = _
  rw [W6_main_v20 m ρ c, W6_main_v22 m ρ c]
  rfl
theorem W7_main_v2 : W7 m ρ c (Proc.devRef .tc main_v2) = sC m c :=
  (W7_of_ne m ρ c main_v2 (by decide)).trans (W6_main_v2 m ρ c)
theorem W7_main_v4 : W7 m ρ c (Proc.devRef .tc main_v4) = dC m c :=
  (W7_of_ne m ρ c main_v4 (by decide)).trans (W6_main_v4 m ρ c)
theorem W7_main_v20 : W7 m ρ c (Proc.devRef .tc main_v20) = h1 m c :=
  (W7_arr m ρ c 0).trans (((dat3 (V6 m ρ) c).arrAt_in 0 rfl _).trans ((A_eq3 (V6 m ρ) c 0).trans (W6_main_v20 m ρ c)))
theorem W7_main_v5 : W7 m ρ c (Proc.devRef .tc main_v5) = wT m c :=
  (W7_of_ne m ρ c main_v5 (by decide)).trans (W6_main_v5 m ρ c)
theorem W7_main_v6 : W7 m ρ c (Proc.devRef .tc main_v6) = uT m c :=
  (W7_of_ne m ρ c main_v6 (by decide)).trans (W6_main_v6 m ρ c)
theorem W7_main_arg7 : W7 m ρ c (Proc.devRef .tc main_arg7) = a7 m c :=
  (W7_of_ne m ρ c main_arg7 (by decide)).trans (W6_main_arg7 m ρ c)
theorem W7_main_arg8 : W7 m ρ c (Proc.devRef .tc main_arg8) = a8 m c :=
  (W7_of_ne m ρ c main_arg8 (by decide)).trans (W6_main_arg8 m ρ c)
theorem W7_main_arg4 : W7 m ρ c (Proc.devRef .tc main_arg4) = a4 m c :=
  (W7_of_ne m ρ c main_arg4 (by decide)).trans (W6_main_arg4 m ρ c)
theorem W7_main_arg9 : W7 m ρ c (Proc.devRef .tc main_arg9) = a9 m c :=
  (W7_of_ne m ρ c main_arg9 (by decide)).trans (W6_main_arg9 m ρ c)
theorem W7_main_arg10 : W7 m ρ c (Proc.devRef .tc main_arg10) = a10 m c :=
  (W7_of_ne m ρ c main_arg10 (by decide)).trans (W6_main_arg10 m ρ c)

/-! ## Boundary 8: after host stretch 4 -/

set_option maxHeartbeats 1000000 in
theorem W8_main_v33 : W8 m ρ c (Proc.devRef .tc main_v33) = g2 m c := by
  show after hostOps4 (W7 m ρ c) (Proc.devRef .tc main_v33) = _
  simp only [hostOps4]
  after_results_simp
  rw [W7_main_v23 m ρ c, W7_main_v2 m ρ c, W7_main_v4 m ρ c]
  rfl
theorem W8_main_v20 : W8 m ρ c (Proc.devRef .tc main_v20) = h1 m c :=
  (keep4 (W7 m ρ c) main_v20 (by decide)).trans (W7_main_v20 m ρ c)
theorem W8_main_v5 : W8 m ρ c (Proc.devRef .tc main_v5) = wT m c :=
  (keep4 (W7 m ρ c) main_v5 (by decide)).trans (W7_main_v5 m ρ c)
theorem W8_main_v6 : W8 m ρ c (Proc.devRef .tc main_v6) = uT m c :=
  (keep4 (W7 m ρ c) main_v6 (by decide)).trans (W7_main_v6 m ρ c)
theorem W8_main_arg7 : W8 m ρ c (Proc.devRef .tc main_arg7) = a7 m c :=
  (keep4 (W7 m ρ c) main_arg7 (by decide)).trans (W7_main_arg7 m ρ c)
theorem W8_main_arg8 : W8 m ρ c (Proc.devRef .tc main_arg8) = a8 m c :=
  (keep4 (W7 m ρ c) main_arg8 (by decide)).trans (W7_main_arg8 m ρ c)
theorem W8_main_arg4 : W8 m ρ c (Proc.devRef .tc main_arg4) = a4 m c :=
  (keep4 (W7 m ρ c) main_arg4 (by decide)).trans (W7_main_arg4 m ρ c)
theorem W8_main_v2 : W8 m ρ c (Proc.devRef .tc main_v2) = sC m c :=
  (keep4 (W7 m ρ c) main_v2 (by decide)).trans (W7_main_v2 m ρ c)
theorem W8_main_v4 : W8 m ρ c (Proc.devRef .tc main_v4) = dC m c :=
  (keep4 (W7 m ρ c) main_v4 (by decide)).trans (W7_main_v4 m ρ c)
theorem W8_main_arg9 : W8 m ρ c (Proc.devRef .tc main_arg9) = a9 m c :=
  (keep4 (W7 m ρ c) main_arg9 (by decide)).trans (W7_main_arg9 m ρ c)
theorem W8_main_arg10 : W8 m ρ c (Proc.devRef .tc main_arg10) = a10 m c :=
  (keep4 (W7 m ρ c) main_arg10 (by decide)).trans (W7_main_arg10 m ρ c)

/-! ## Boundary 9: after region 4 (the second layer's gated step) -/

theorem W9_main_v34 : W9 m ρ c (Proc.devRef .tc main_v34) = h2 m c := by
  refine (W9_arr m ρ c 6).trans ((Tiles.final4 (V8 m ρ) c).trans ?_)
  show gruOut (R := 50000) (W8 m ρ c (Proc.devRef .tc main_v33)) (W8 m ρ c (Proc.devRef .tc main_v20)) (W8 m ρ c (Proc.devRef .tc main_v5)) (W8 m ρ c (Proc.devRef .tc main_v6)) (W8 m ρ c (Proc.devRef .tc main_arg7)) (W8 m ρ c (Proc.devRef .tc main_arg8)) = _
  rw [W8_main_v33 m ρ c, W8_main_v20 m ρ c, W8_main_v5 m ρ c, W8_main_v6 m ρ c, W8_main_arg7 m ρ c, W8_main_arg8 m ρ c]
  rfl
theorem W9_main_arg4 : W9 m ρ c (Proc.devRef .tc main_arg4) = a4 m c :=
  (W9_of_ne m ρ c main_arg4 (by decide)).trans (W8_main_arg4 m ρ c)
theorem W9_main_v2 : W9 m ρ c (Proc.devRef .tc main_v2) = sC m c :=
  (W9_of_ne m ρ c main_v2 (by decide)).trans (W8_main_v2 m ρ c)
theorem W9_main_v4 : W9 m ρ c (Proc.devRef .tc main_v4) = dC m c :=
  (W9_of_ne m ρ c main_v4 (by decide)).trans (W8_main_v4 m ρ c)
theorem W9_main_v5 : W9 m ρ c (Proc.devRef .tc main_v5) = wT m c :=
  (W9_arr m ρ c 2).trans (((dat4 (V8 m ρ) c).arrAt_in 2 rfl _).trans ((A_eq4 (V8 m ρ) c 2).trans (W8_main_v5 m ρ c)))
theorem W9_main_v6 : W9 m ρ c (Proc.devRef .tc main_v6) = uT m c :=
  (W9_arr m ρ c 3).trans (((dat4 (V8 m ρ) c).arrAt_in 3 rfl _).trans ((A_eq4 (V8 m ρ) c 3).trans (W8_main_v6 m ρ c)))
theorem W9_main_arg7 : W9 m ρ c (Proc.devRef .tc main_arg7) = a7 m c :=
  (W9_arr m ρ c 4).trans (((dat4 (V8 m ρ) c).arrAt_in 4 rfl _).trans ((A_eq4 (V8 m ρ) c 4).trans (W8_main_arg7 m ρ c)))
theorem W9_main_arg8 : W9 m ρ c (Proc.devRef .tc main_arg8) = a8 m c :=
  (W9_arr m ρ c 5).trans (((dat4 (V8 m ρ) c).arrAt_in 5 rfl _).trans ((A_eq4 (V8 m ρ) c 5).trans (W8_main_arg8 m ρ c)))
theorem W9_main_arg9 : W9 m ρ c (Proc.devRef .tc main_arg9) = a9 m c :=
  (W9_of_ne m ρ c main_arg9 (by decide)).trans (W8_main_arg9 m ρ c)
theorem W9_main_arg10 : W9 m ρ c (Proc.devRef .tc main_arg10) = a10 m c :=
  (W9_of_ne m ρ c main_arg10 (by decide)).trans (W8_main_arg10 m ρ c)

/-! ## Boundary 10: after host stretch 5 -/

theorem W10_main_v34 : W10 m ρ c (Proc.devRef .tc main_v34) = h2 m c :=
  (keep5 (W9 m ρ c) main_v34 (by decide)).trans (W9_main_v34 m ρ c)
set_option maxHeartbeats 1000000 in
theorem W10_main_v36 : W10 m ρ c (Proc.devRef .tc main_v36) = cw2 m c := by
  show after hostOps5 (W9 m ρ c) (Proc.devRef .tc main_v36) = _
  simp only [hostOps5]
  after_results_simp
  rw [W9_main_arg4 m ρ c]
  rfl
theorem W10_main_v2 : W10 m ρ c (Proc.devRef .tc main_v2) = sC m c :=
  (keep5 (W9 m ρ c) main_v2 (by decide)).trans (W9_main_v2 m ρ c)
theorem W10_main_v4 : W10 m ρ c (Proc.devRef .tc main_v4) = dC m c :=
  (keep5 (W9 m ρ c) main_v4 (by decide)).trans (W9_main_v4 m ρ c)
theorem W10_main_v5 : W10 m ρ c (Proc.devRef .tc main_v5) = wT m c :=
  (keep5 (W9 m ρ c) main_v5 (by decide)).trans (W9_main_v5 m ρ c)
theorem W10_main_v6 : W10 m ρ c (Proc.devRef .tc main_v6) = uT m c :=
  (keep5 (W9 m ρ c) main_v6 (by decide)).trans (W9_main_v6 m ρ c)
theorem W10_main_arg7 : W10 m ρ c (Proc.devRef .tc main_arg7) = a7 m c :=
  (keep5 (W9 m ρ c) main_arg7 (by decide)).trans (W9_main_arg7 m ρ c)
theorem W10_main_arg8 : W10 m ρ c (Proc.devRef .tc main_arg8) = a8 m c :=
  (keep5 (W9 m ρ c) main_arg8 (by decide)).trans (W9_main_arg8 m ρ c)
theorem W10_main_arg9 : W10 m ρ c (Proc.devRef .tc main_arg9) = a9 m c :=
  (keep5 (W9 m ρ c) main_arg9 (by decide)).trans (W9_main_arg9 m ρ c)
theorem W10_main_arg10 : W10 m ρ c (Proc.devRef .tc main_arg10) = a10 m c :=
  (keep5 (W9 m ρ c) main_arg10 (by decide)).trans (W9_main_arg10 m ρ c)

/-! ## Boundary 11: after region 5 (the third layer's node transform) -/

theorem W11_main_v37 : W11 m ρ c (Proc.devRef .tc main_v37) = m3 m c := by
  refine (W11_arr m ρ c 2).trans ((Tiles.final5 (V10 m ρ) c).trans ?_)
  show prod (R := 50000) (K := 96) (C := 96) (W10 m ρ c (Proc.devRef .tc main_v34)) (W10 m ρ c (Proc.devRef .tc main_v36)) = _
  rw [W10_main_v34 m ρ c, W10_main_v36 m ρ c]
  rfl
theorem W11_main_v2 : W11 m ρ c (Proc.devRef .tc main_v2) = sC m c :=
  (W11_of_ne m ρ c main_v2 (by decide)).trans (W10_main_v2 m ρ c)
theorem W11_main_v4 : W11 m ρ c (Proc.devRef .tc main_v4) = dC m c :=
  (W11_of_ne m ρ c main_v4 (by decide)).trans (W10_main_v4 m ρ c)
theorem W11_main_v34 : W11 m ρ c (Proc.devRef .tc main_v34) = h2 m c :=
  (W11_arr m ρ c 0).trans (((dat5 (V10 m ρ) c).arrAt_in 0 rfl _).trans ((A_eq5 (V10 m ρ) c 0).trans (W10_main_v34 m ρ c)))
theorem W11_main_v5 : W11 m ρ c (Proc.devRef .tc main_v5) = wT m c :=
  (W11_of_ne m ρ c main_v5 (by decide)).trans (W10_main_v5 m ρ c)
theorem W11_main_v6 : W11 m ρ c (Proc.devRef .tc main_v6) = uT m c :=
  (W11_of_ne m ρ c main_v6 (by decide)).trans (W10_main_v6 m ρ c)
theorem W11_main_arg7 : W11 m ρ c (Proc.devRef .tc main_arg7) = a7 m c :=
  (W11_of_ne m ρ c main_arg7 (by decide)).trans (W10_main_arg7 m ρ c)
theorem W11_main_arg8 : W11 m ρ c (Proc.devRef .tc main_arg8) = a8 m c :=
  (W11_of_ne m ρ c main_arg8 (by decide)).trans (W10_main_arg8 m ρ c)
theorem W11_main_arg9 : W11 m ρ c (Proc.devRef .tc main_arg9) = a9 m c :=
  (W11_of_ne m ρ c main_arg9 (by decide)).trans (W10_main_arg9 m ρ c)
theorem W11_main_arg10 : W11 m ρ c (Proc.devRef .tc main_arg10) = a10 m c :=
  (W11_of_ne m ρ c main_arg10 (by decide)).trans (W10_main_arg10 m ρ c)

/-! ## Boundary 12: after host stretch 6 -/

set_option maxHeartbeats 1000000 in
theorem W12_main_v47 : W12 m ρ c (Proc.devRef .tc main_v47) = g3 m c := by
  show after hostOps6 (W11 m ρ c) (Proc.devRef .tc main_v47) = _
  simp only [hostOps6]
  after_results_simp
  rw [W11_main_v37 m ρ c, W11_main_v2 m ρ c, W11_main_v4 m ρ c]
  rfl
theorem W12_main_v34 : W12 m ρ c (Proc.devRef .tc main_v34) = h2 m c :=
  (keep6 (W11 m ρ c) main_v34 (by decide)).trans (W11_main_v34 m ρ c)
theorem W12_main_v5 : W12 m ρ c (Proc.devRef .tc main_v5) = wT m c :=
  (keep6 (W11 m ρ c) main_v5 (by decide)).trans (W11_main_v5 m ρ c)
theorem W12_main_v6 : W12 m ρ c (Proc.devRef .tc main_v6) = uT m c :=
  (keep6 (W11 m ρ c) main_v6 (by decide)).trans (W11_main_v6 m ρ c)
theorem W12_main_arg7 : W12 m ρ c (Proc.devRef .tc main_arg7) = a7 m c :=
  (keep6 (W11 m ρ c) main_arg7 (by decide)).trans (W11_main_arg7 m ρ c)
theorem W12_main_arg8 : W12 m ρ c (Proc.devRef .tc main_arg8) = a8 m c :=
  (keep6 (W11 m ρ c) main_arg8 (by decide)).trans (W11_main_arg8 m ρ c)
theorem W12_main_arg9 : W12 m ρ c (Proc.devRef .tc main_arg9) = a9 m c :=
  (keep6 (W11 m ρ c) main_arg9 (by decide)).trans (W11_main_arg9 m ρ c)
theorem W12_main_arg10 : W12 m ρ c (Proc.devRef .tc main_arg10) = a10 m c :=
  (keep6 (W11 m ρ c) main_arg10 (by decide)).trans (W11_main_arg10 m ρ c)

/-! ## Boundary 13: after region 6 (the third layer's gated step) -/

theorem W13_main_v48 : W13 m ρ c (Proc.devRef .tc main_v48) = h3 m c := by
  refine (W13_arr m ρ c 6).trans ((Tiles.final6 (V12 m ρ) c).trans ?_)
  show gruOut (R := 50000) (W12 m ρ c (Proc.devRef .tc main_v47)) (W12 m ρ c (Proc.devRef .tc main_v34)) (W12 m ρ c (Proc.devRef .tc main_v5)) (W12 m ρ c (Proc.devRef .tc main_v6)) (W12 m ρ c (Proc.devRef .tc main_arg7)) (W12 m ρ c (Proc.devRef .tc main_arg8)) = _
  rw [W12_main_v47 m ρ c, W12_main_v34 m ρ c, W12_main_v5 m ρ c, W12_main_v6 m ρ c, W12_main_arg7 m ρ c, W12_main_arg8 m ρ c]
  rfl
theorem W13_main_arg9 : W13 m ρ c (Proc.devRef .tc main_arg9) = a9 m c :=
  (W13_of_ne m ρ c main_arg9 (by decide)).trans (W12_main_arg9 m ρ c)
theorem W13_main_arg10 : W13 m ρ c (Proc.devRef .tc main_arg10) = a10 m c :=
  (W13_of_ne m ρ c main_arg10 (by decide)).trans (W12_main_arg10 m ρ c)

/-! ## Boundary 14: after region 7 (the output layer) -/

theorem W14_main_v49 : W14 m ρ c (Proc.devRef .tc main_v49) = outK m c := by
  refine (W14_arr m ρ c 3).trans ((Tiles.final7 (V13 m ρ) c).trans ?_)
  show affine (R := 50000) (K := 96) (C := 16) (W13 m ρ c (Proc.devRef .tc main_v48)) (W13 m ρ c (Proc.devRef .tc main_arg9)) (W13 m ρ c (Proc.devRef .tc main_arg10)) = _
  rw [W13_main_v48 m ρ c, W13_main_arg9 m ρ c, W13_main_arg10 m ρ c]
  rfl

/-- The result buffer after the last region holds the network of the launch arguments. -/
theorem result : W14 m ρ c (Proc.devRef .tc main_v49)
    = net (a0 m c) (a1 m c) (a2 m c) (a3 m c) (a4 m c) (a5 m c) (a6 m c) (a7 m c) (a8 m c) (a9 m c) (a10 m c) :=
  (W14_main_v49 m ρ c).trans (outK_eq m c)

end Cert.KernelIdeal.Fold

end
-- ==== Proof.RefRows.lean ====
/-
  The reference's whole-array host expressions, read at an index, are the row formulas of Rows.lean at 50000 rows.

  A dense layer is a whole-array product plus the bias broadcast [C] → [1, C] → [50000, C]; the gated step builds the
  two 288-wide gate arrays, slices each into three 96-wide parts, and spells the sigmoid as 1 / (1 + exp(−x)) with the
  float pattern of 1.0 broadcast from a scalar. On the extended reals that pattern is the number 1, and
  1 / (1 + exp(−x)) is the logistic function at every point, the two infinities included — so the gated step is the
  kernel's, entry by entry, with no condition on the inputs.
-/
import proofs.«110150_j41979010351140_1_alg».proof.Proof.Dots
import Idealize.ShloMosaic.Lib.Pipeline.Value
import Idealize.ShloMosaic.Lib.IdealHost

noncomputable section

namespace Cert.RefRows

open Idealize.ShloMosaic Idealize.ShloMosaic.ValueIdx Cert.ReferenceIdeal Cert.ReferenceIdeal.Gen Cert.Rows

abbrev F32 (s : Shape) := FVec Ideal s .f32

/-! ## Broadcasts read at an index -/

/-- A scalar constant broadcast over a matrix reads the constant. -/
theorem splat (b : BitVec 32) (p : Fin 50000) (q : Fin 96) :
    broadcastInDim S50000x96 ![] bcast_S_S50000x96 (constant (F := Ideal) S_ .f32 b) (ix2 p q) = Ideal.ofBits .f32 b :=
  broadcastInDim_apply _ _ _ (ix2 p q) ix0 (fun a => a.elim0)

theorem rbias96 (b : F32 S96) (p : Fin 50000) (c : Fin 96) :
    broadcastInDim S50000x96 ![0, 1] bcast_S1x96_S50000x96_0_1 (broadcastInDim S1x96 ![1] bcast_S96_S1x96_1 b) (ix2 p c) = b (ix1 c) :=
  (broadcastInDim_apply _ _ _ (ix2 p c) (ix2 (0 : Fin 1) c) (fun a => by match a with | ⟨0, _⟩ => rfl | ⟨1, _⟩ => rfl)).trans
    (broadcastInDim_apply _ _ b (ix2 (0 : Fin 1) c) (ix1 c) (fun a => by match a with | ⟨0, _⟩ => rfl))

theorem rbias288 (b : F32 S288) (p : Fin 50000) (c : Fin 288) :
    broadcastInDim S50000x288 ![0, 1] bcast_S1x288_S50000x288_0_1 (broadcastInDim S1x288 ![1] bcast_S288_S1x288_1 b) (ix2 p c) = b (ix1 c) :=
  (broadcastInDim_apply _ _ _ (ix2 p c) (ix2 (0 : Fin 1) c) (fun a => by match a with | ⟨0, _⟩ => rfl | ⟨1, _⟩ => rfl)).trans
    (broadcastInDim_apply _ _ b (ix2 (0 : Fin 1) c) (ix1 c) (fun a => by match a with | ⟨0, _⟩ => rfl))

theorem rbias16 (b : F32 S16) (p : Fin 50000) (c : Fin 16) :
    broadcastInDim S50000x16 ![0, 1] bcast_S1x16_S50000x16_0_1 (broadcastInDim S1x16 ![1] bcast_S16_S1x16_1 b) (ix2 p c) = b (ix1 c) :=
  (broadcastInDim_apply _ _ _ (ix2 p c) (ix2 (0 : Fin 1) c) (fun a => by match a with | ⟨0, _⟩ => rfl | ⟨1, _⟩ => rfl)).trans
    (broadcastInDim_apply _ _ b (ix2 (0 : Fin 1) c) (ix1 c) (fun a => by match a with | ⟨0, _⟩ => rfl))

/-- A 96-wide column slice of a 288-wide array at column offset `off`, read at (p, q), is the array at (p, off + q). -/
theorem rslice_at (off : ℕ) (hoff : off + 96 ≤ 288) (G : F32 S50000x288) (hS : S50000x288.Slices ![0, off] S50000x96)
    (p : Fin 50000) (q : Fin 96) :
    extractStridedSlice S50000x96 ![0, off] G hS (ix2 p q) = G (ix2 p (⟨off + q.val, by omega⟩ : Fin 288)) :=
  extractStridedSlice_apply _ G hS (ix2 p q) _ (fun a => by
    match a with
    | ⟨0, _⟩ => exact (Nat.zero_add _).symm
    | ⟨1, _⟩ => rfl)

/-! ## The dense layers -/

theorem ref_affine0 (x : F32 S50000x2000) (w : F32 S2000x96) (b : F32 S96) :
    addf (Host.dotGeneral dot_S50000x2000_S2000x96_S50000x96_1_0_0_1_n_n none x w)
        (broadcastInDim S50000x96 ![0, 1] bcast_S1x96_S50000x96_0_1 (broadcastInDim S1x96 ![1] bcast_S96_S1x96_1 b))
      = affine (R := 50000) (K := 2000) (C := 96) x w b := by
  funext j
  obtain ⟨p, c, rfl⟩ : ∃ (p : Fin 50000) (c : Fin 96), j = ix2 p c := ⟨j 0, j 1, eq_ix2 j⟩
  rw [addf_apply, Cert.Dots.r0_dg x w p c, rbias96 b p c]
  rfl

theorem ref_prod (h : F32 S50000x96) (w : F32 S96x96) :
    Host.dotGeneral dot_S50000x96_S96x96_S50000x96_1_0_0_1_n_n none h w = prod (R := 50000) (K := 96) (C := 96) h w := by
  funext j
  obtain ⟨p, c, rfl⟩ : ∃ (p : Fin 50000) (c : Fin 96), j = ix2 p c := ⟨j 0, j 1, eq_ix2 j⟩
  rw [Cert.Dots.r1_dg h w p c]
  rfl

theorem ref_affine7 (x : F32 S50000x96) (w : F32 S96x16) (b : F32 S16) :
    addf (Host.dotGeneral dot_S50000x96_S96x16_S50000x16_1_0_0_1_n_n none x w)
        (broadcastInDim S50000x16 ![0, 1] bcast_S1x16_S50000x16_0_1 (broadcastInDim S1x16 ![1] bcast_S16_S1x16_1 b))
      = affine (R := 50000) (K := 96) (C := 16) x w b := by
  funext j
  obtain ⟨p, c, rfl⟩ : ∃ (p : Fin 50000) (c : Fin 16), j = ix2 p c := ⟨j 0, j 1, eq_ix2 j⟩
  rw [addf_apply, Cert.Dots.r7_dg x w p c, rbias16 b p c]
  rfl

/-! ## The gated step -/

/-- A 288-wide gate array: operand · weights + bias. -/
def gate (A : F32 S50000x96) (wT : F32 S96x288) (b : F32 S288) : F32 S50000x288 :=
  addf (Host.dotGeneral dot_S50000x96_S96x288_S50000x288_1_0_0_1_n_n none A wT)
    (broadcastInDim S50000x288 ![0, 1] bcast_S1x288_S50000x288_0_1 (broadcastInDim S1x288 ![1] bcast_S288_S1x288_1 b))

theorem gate_at (A : F32 S50000x96) (wT : F32 S96x288) (b : F32 S288) (p : Fin 50000) (c : Fin 288) :
    gate A wT b (ix2 p c) = affRow (rowAt A p) wT b c := by
  unfold gate
  rw [addf_apply, Cert.Dots.r2_dg A wT p c, rbias288 b p c]
  rfl

/-- The update gate, as the reference spells it: 1 / (1 + exp(−(gi[96..192) + gh[96..192)))). -/
def upd (GI GH : F32 S50000x288) : F32 S50000x96 :=
  Host.divf (broadcastInDim S50000x96 ![] bcast_S_S50000x96 (constant S_ .f32 0x3F800000#32)) (addf (broadcastInDim S50000x96 ![] bcast_S_S50000x96 (constant S_ .f32 0x3F800000#32)) (Host.exp (Host.negf (addf (extractStridedSlice S50000x96 ![0, 96] GI slices_S50000x288_S50000x96_0_96) (extractStridedSlice S50000x96 ![0, 96] GH slices_S50000x288_S50000x96_0_96)))))

/-- The gated mix of the two gate arrays and the state, as the reference spells it. -/
def step (GI GH : F32 S50000x288) (H : F32 S50000x96) : F32 S50000x96 :=
  addf (mulf (subf (broadcastInDim S50000x96 ![] bcast_S_S50000x96 (constant S_ .f32 0x3F800000#32)) (upd GI GH)) (Host.tanh (addf (extractStridedSlice S50000x96 ![0, 192] GI slices_S50000x288_S50000x96_0_192) (mulf (Host.divf (broadcastInDim S50000x96 ![] bcast_S_S50000x96 (constant S_ .f32 0x3F800000#32)) (addf (broadcastInDim S50000x96 ![] bcast_S_S50000x96 (constant S_ .f32 0x3F800000#32)) (Host.exp (Host.negf (addf (extractStridedSlice S50000x96 ![0, 0] GI slices_S50000x288_S50000x96_0_0) (extractStridedSlice S50000x96 ![0, 0] GH slices_S50000x288_S50000x96_0_0)))))) (extractStridedSlice S50000x96 ![0, 192] GH slices_S50000x288_S50000x96_0_192))))) (mulf (upd GI GH) H)

/-- The reference's gated step is the row formula. -/
theorem step_eq (A H : F32 S50000x96) (wT uT : F32 S96x288) (bi bh : F32 S288) :
    step (gate A wT bi) (gate H uT bh) H = gruOut (R := 50000) A H wT uT bi bh := by
  funext j
  obtain ⟨p, q, rfl⟩ : ∃ (p : Fin 50000) (q : Fin 96), j = ix2 p q := ⟨j 0, j 1, eq_ix2 j⟩
  unfold step upd
  simp only [addf_apply, mulf_apply, subf_apply, Host.tanh, Host.divf, Host.exp, Host.negf,
    rslice_at 0 (by omega), rslice_at 96 (by omega), rslice_at 192 (by omega)]
  rw [splat 0x3F800000#32 p q]
  rw [gate_at A wT bi p ⟨0 + q.val, by omega⟩, gate_at A wT bi p ⟨96 + q.val, by omega⟩, gate_at A wT bi p ⟨192 + q.val, by omega⟩,
    gate_at H uT bh p ⟨0 + q.val, by omega⟩, gate_at H uT bh p ⟨96 + q.val, by omega⟩, gate_at H uT bh p ⟨192 + q.val, by omega⟩]
  show _ = gruAt (affRow (rowAt A p) wT bi) (affRow (rowAt H p) uT bh) (H (ix2 p q)) q
  unfold gruAt
  simp only [Ideal.ofBits_one_f32]
  rfl

end Cert.RefRows

end
-- ==== Proof.RefValue.lean ====
/-
  The reference's result, stage by stage, is the network of its arguments.

  The reference's run names its shared intermediates: the state after the input layer, the two gate arrays and the
  new state of each of the three layers. Each is rewritten in turn: a dense layer by its row formula, the message
  passing by the one shared function of (transformed state, sources, destinations), a layer's gated step by its row
  formula over the two gate arrays. The last stage is the output layer of the third state.
-/
import proofs.«110150_j41979010351140_1_alg».proof.Proof.Gen.ReferenceIdeal.Run
import proofs.«110150_j41979010351140_1_alg».proof.Proof.RefRows
import proofs.«110150_j41979010351140_1_alg».proof.Proof.Net

set_option maxRecDepth 16384

noncomputable section

namespace Cert.ReferenceIdeal.RefValue

open Cert.ReferenceIdeal Cert.ReferenceIdeal.Gen Cert.ReferenceIdeal.Value Cert.Rows Cert.RefRows
open Idealize.ShloMosaic Idealize.ShloMosaic.TcCoe Idealize.SL.Sem Idealize.ShloMosaic.StableHlo

variable (V0 : Valuation τ sig (Elt Ideal))

/-! ## The arguments and the stages -/

abbrev b0 : Cert.Net.F32 S50000x2000 := V0 (Proc.devRef .tc main_arg0)
abbrev b1 : Cert.Net.I32 S2x800000 := V0 (Proc.devRef .tc main_arg1)
abbrev b2 : Cert.Net.F32 S2000x96 := V0 (Proc.devRef .tc main_arg2)
abbrev b3 : Cert.Net.F32 S96 := V0 (Proc.devRef .tc main_arg3)
abbrev b4 : Cert.Net.F32 S3x96x96 := V0 (Proc.devRef .tc main_arg4)
abbrev b5 : Cert.Net.F32 S288x96 := V0 (Proc.devRef .tc main_arg5)
abbrev b6 : Cert.Net.F32 S288x96 := V0 (Proc.devRef .tc main_arg6)
abbrev b7 : Cert.Net.F32 S288 := V0 (Proc.devRef .tc main_arg7)
abbrev b8 : Cert.Net.F32 S288 := V0 (Proc.devRef .tc main_arg8)
abbrev b9 : Cert.Net.F32 S96x16 := V0 (Proc.devRef .tc main_arg9)
abbrev b10 : Cert.Net.F32 S16 := V0 (Proc.devRef .tc main_arg10)

def sC : Cert.Net.I32 S800000 := Cert.Net.srcCol (b1 V0)
def dC : Cert.Net.I32 S800000 := Cert.Net.dstCol (b1 V0)
def wT : Cert.Net.F32 S96x288 := Cert.Net.tr (b5 V0)
def uT : Cert.Net.F32 S96x288 := Cert.Net.tr (b6 V0)
/-- The state after the input layer, and after each of the three layers. -/
def H0 : Cert.Net.F32 S50000x96 := affine (R := 50000) (K := 2000) (C := 96) (b0 V0) (b2 V0) (b3 V0)
def H1 : Cert.Net.F32 S50000x96 := Cert.Net.layer (H0 V0) (Cert.Net.layerW0 (b4 V0)) (sC V0) (dC V0) (wT V0) (uT V0) (b7 V0) (b8 V0)
def H2 : Cert.Net.F32 S50000x96 := Cert.Net.layer (H1 V0) (Cert.Net.layerW1 (b4 V0)) (sC V0) (dC V0) (wT V0) (uT V0) (b7 V0) (b8 V0)
def H3 : Cert.Net.F32 S50000x96 := Cert.Net.layer (H2 V0) (Cert.Net.layerW2 (b4 V0)) (sC V0) (dC V0) (wT V0) (uT V0) (b7 V0) (b8 V0)
/-- A layer's aggregated messages. -/
def G (h : Cert.Net.F32 S50000x96) (w : Cert.Net.F32 S96x96) : Cert.Net.F32 S50000x96 :=
  Cert.Net.edgeSum (prod (R := 50000) (K := 96) (C := 96) h w) (sC V0) (dC V0)

/-! ## The input layer and the edge columns -/

theorem s3 : res_main_v3 V0 = H0 V0 := by
  unfold res_main_v3
  exact ref_affine0 _ _ _
theorem s5 : res_main_v5 V0 = sC V0 := rfl
theorem s7 : res_main_v7 V0 = dC V0 := rfl

/-! ## Layer 1 -/

theorem s25 : res_main_v25 V0 = gate (G V0 (H0 V0) (Cert.Net.layerW0 (b4 V0))) (wT V0) (b7 V0) := by
  unfold res_main_v25
  rw [s3, s5, s7, ref_prod]
  rfl
theorem s30 : res_main_v30 V0 = gate (H0 V0) (uT V0) (b8 V0) := by
  unfold res_main_v30
  rw [s3]
  rfl
theorem s58 : res_main_v58 V0 = H1 V0 := by
  unfold res_main_v58 res_main_v50
  rw [s25, s30, s3]
  exact step_eq _ _ _ _ _ _

/-! ## Layer 2 -/

theorem s76 : res_main_v76 V0 = gate (G V0 (H1 V0) (Cert.Net.layerW1 (b4 V0))) (wT V0) (b7 V0) := by
  unfold res_main_v76
  rw [s58, s5, s7, ref_prod]
  rfl
theorem s81 : res_main_v81 V0 = gate (H1 V0) (uT V0) (b8 V0) := by
  unfold res_main_v81
  rw [s58]
  rfl
theorem s109 : res_main_v109 V0 = H2 V0 := by
  unfold res_main_v109 res_main_v101
  rw [s76, s81, s58]
  exact step_eq _ _ _ _ _ _

/-! ## Layer 3 -/

theorem s127 : res_main_v127 V0 = gate (G V0 (H2 V0) (Cert.Net.layerW2 (b4 V0))) (wT V0) (b7 V0) := by
  unfold res_main_v127
  rw [s109, s5, s7, ref_prod]
  rfl
theorem s132 : res_main_v132 V0 = gate (H2 V0) (uT V0) (b8 V0) := by
  unfold res_main_v132
  rw [s109]
  rfl

/-! ## The output layer -/

/-- The reference's result term is the network of its arguments. -/
theorem result :
    addf (Host.dotGeneral dot_S50000x96_S96x16_S50000x16_1_0_0_1_n_n none (addf (mulf (subf (broadcastInDim S50000x96 ![] bcast_S_S50000x96 (constant S_ .f32 0x3F800000#32)) (res_main_v152 V0)) (Host.tanh (addf (extractStridedSlice S50000x96 ![0, 192] (res_main_v127 V0) slices_S50000x288_S50000x96_0_192) (mulf (Host.divf (broadcastInDim S50000x96 ![] bcast_S_S50000x96 (constant S_ .f32 0x3F800000#32)) (addf (broadcastInDim S50000x96 ![] bcast_S_S50000x96 (constant S_ .f32 0x3F800000#32)) (Host.exp (Host.negf (addf (extractStridedSlice S50000x96 ![0, 0] (res_main_v127 V0) slices_S50000x288_S50000x96_0_0) (extractStridedSlice S50000x96 ![0, 0] (res_main_v132 V0) slices_S50000x288_S50000x96_0_0)))))) (extractStridedSlice S50000x96 ![0, 192] (res_main_v132 V0) slices_S50000x288_S50000x96_0_192))))) (mulf (res_main_v152 V0) (res_main_v109 V0))) (b9 V0)) (broadcastInDim S50000x16 ![0, 1] bcast_S1x16_S50000x16_0_1 (broadcastInDim S1x16 ![1] bcast_S16_S1x16_1 (b10 V0)))
      = Cert.Net.net (b0 V0) (b1 V0) (b2 V0) (b3 V0) (b4 V0) (b5 V0) (b6 V0) (b7 V0) (b8 V0) (b9 V0) (b10 V0) := by
  unfold res_main_v152
  rw [s127, s132, s109]
  show addf (Host.dotGeneral dot_S50000x96_S96x16_S50000x16_1_0_0_1_n_n none
        (step (gate (G V0 (H2 V0) (Cert.Net.layerW2 (b4 V0))) (wT V0) (b7 V0)) (gate (H2 V0) (uT V0) (b8 V0)) (H2 V0)) (b9 V0))
      (broadcastInDim S50000x16 ![0, 1] bcast_S1x16_S50000x16_0_1 (broadcastInDim S1x16 ![1] bcast_S16_S1x16_1 (b10 V0))) = _
  rw [step_eq, ref_affine7]
  rfl

end Cert.ReferenceIdeal.RefValue

end
-- ==== Proof.lean ====
/-
  Equivalence over the extended reals of a row-tiled graph network kernel and its array-level reference.

  Both programs compute: an input layer h₀ = x·W_in + b_in; three layers, each sending the state h to
  h' = GRU(Σ over edges of (h·W_l)[src] into [dst], h) with shared gate weights; an output layer h₃·W_out + b_out.
  The kernel runs every dense step and every gated step on 50 tiles of 1000 rows and leaves the edge gather and
  scatter-add to the host; the reference runs whole arrays. On the extended reals rounding to a narrower float format
  is the identity, a tile product into a zero accumulator is the plain sum over the contracted index, and the
  reference's 1/(1 + exp(−x)) is the kernel's logistic at every point — so each row of each result is the same sum
  and the same pointwise mix on both sides, whatever the inputs hold: the finite-inputs precondition is not used.

  The three frames are the generated ones (the reference's is its generated run with the result dropped); the ideal pass
  rewrote nothing, so `preserves` is trivial; `algebraic` states both runs' results as the one network of the
  arguments (Net.lean): the kernel's by the run with its result named (KernelRun.lean) read back through @main's
  segments (Fold.lean), the reference's by its generated run read stage by stage (RefValue.lean).
-/
import proofs.«110150_j41979010351140_1_alg».proof.Defs
import proofs.«110150_j41979010351140_1_alg».proof.Proof.Gen.Kernel
import proofs.«110150_j41979010351140_1_alg».proof.Proof.Gen.Kernel.Skeleton
import proofs.«110150_j41979010351140_1_alg».proof.Proof.Gen.Kernel.Launch
import proofs.«110150_j41979010351140_1_alg».proof.Proof.Gen.Kernel.Points
import proofs.«110150_j41979010351140_1_alg».proof.Proof.Gen.Kernel.Frame
import proofs.«110150_j41979010351140_1_alg».proof.Proof.Gen.KernelIdeal
import proofs.«110150_j41979010351140_1_alg».proof.Proof.Gen.KernelIdeal.Skeleton
import proofs.«110150_j41979010351140_1_alg».proof.Proof.Gen.KernelIdeal.Launch
import proofs.«110150_j41979010351140_1_alg».proof.Proof.Gen.KernelIdeal.Points
import proofs.«110150_j41979010351140_1_alg».proof.Proof.Gen.KernelIdeal.Frame
import proofs.«110150_j41979010351140_1_alg».proof.Proof.Gen.ReferenceIdeal
import proofs.«110150_j41979010351140_1_alg».proof.Proof.Gen.ReferenceIdeal.Run
import proofs.«110150_j41979010351140_1_alg».proof.Proof.Gen.Pre_finite_inputs
import proofs.«110150_j41979010351140_1_alg».proof.Proof.KernelRun
import proofs.«110150_j41979010351140_1_alg».proof.Proof.Fold
import proofs.«110150_j41979010351140_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the (agreeing) arguments. -/
theorem algebraic : Cert.algebraic_KernelIdeal_ReferenceIdeal := by
  intro m ρ m' ρ' _ hagree
  refine ⟨fun c => Cert.Net.net (Cert.KernelIdeal.Fold.a0 m c) (Cert.KernelIdeal.Fold.a1 m c) (Cert.KernelIdeal.Fold.a2 m c)
      (Cert.KernelIdeal.Fold.a3 m c) (Cert.KernelIdeal.Fold.a4 m c) (Cert.KernelIdeal.Fold.a5 m c) (Cert.KernelIdeal.Fold.a6 m c)
      (Cert.KernelIdeal.Fold.a7 m c) (Cert.KernelIdeal.Fold.a8 m c) (Cert.KernelIdeal.Fold.a9 m c) (Cert.KernelIdeal.Fold.a10 m c), ?_, ?_⟩
  · exact (θ_run Cert.KernelIdeal.defs _ _).mono
      (fun r h c => ⟨(h c).1.trans (Cert.KernelIdeal.Fold.result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result (StableHlo.launchContents m' c)).trans ?_
    obtain ⟨e0, e1, e2, e3, e4, e5, e6, e7, e8, e9, e10⟩ := hagree c
    show Cert.Net.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
